-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v22) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x2048 : Shape := ⟨2, ![8192, 2048]⟩
abbrev S5632x2048 : Shape := ⟨2, ![5632, 2048]⟩
abbrev S44x16 : Shape := ⟨2, ![44, 16]⟩
abbrev S2048x5632 : Shape := ⟨2, ![2048, 5632]⟩
abbrev S16x44 : Shape := ⟨2, ![16, 44]⟩
abbrev S_ : Shape := ⟨0, ![]⟩

class Facts : Prop where
  bcast_S_S8192x2048 : S_.BroadcastsInDim S8192x2048 (![] : Fin 0 → Fin S8192x2048.rank)
  reducesTo_S8192x2048_S_d0_1 : S8192x2048.ReducesTo [0, 1] S_
  h_S_ : 0 < S_.numel
  bcast_S_S5632x2048 : S_.BroadcastsInDim S5632x2048 (![] : Fin 0 → Fin S5632x2048.rank)
  reducesTo_S5632x2048_S_d0_1 : S5632x2048.ReducesTo [0, 1] S_
  bcast_S_S44x16 : S_.BroadcastsInDim S44x16 (![] : Fin 0 → Fin S44x16.rank)
  reducesTo_S44x16_S_d0_1 : S44x16.ReducesTo [0, 1] S_
  bcast_S_S2048x5632 : S_.BroadcastsInDim S2048x5632 (![] : Fin 0 → Fin S2048x5632.rank)
  reducesTo_S2048x5632_S_d0_1 : S2048x5632.ReducesTo [0, 1] S_
  bcast_S_S16x44 : S_.BroadcastsInDim S16x44 (![] : Fin 0 → Fin S16x44.rank)
  reducesTo_S16x44_S_d0_1 : S16x44.ReducesTo [0, 1] S_

variable [Facts]

def fn_part1 {F : FTy → Type} [FloatOps F] (main_arg4 : FVec F S44x16 .f32) (main_arg5 : FVec F S2048x5632 .f32) (main_arg6 : FVec F S16x44 .f32) (main_v13 : IVec S_ 1) (main_v16 : IVec S5632x2048 1) : IVec S_ 1 :=
  let main_c_5 : IVec S_ 1 := constantI S_ 1 1#1
  let main_v17 : IVec S_ 1 := (fun x v => Host.reduce IntOp.andi x v reducesTo_S5632x2048_S_d0_1 h_S_) main_v16 main_c_5
  let main_v18 : IVec S_ 1 := andi main_v13 main_v17
  let main_v19 : FVec F S44x16 .f32 := Host.absf main_arg4
  let main_cst_6 : FVec F S_ .f32 := constant S_ .f32 0x7F800000#32
  let main_v20 : FVec F S44x16 .f32 := broadcastInDim S44x16 ![] bcast_S_S44x16 main_cst_6
  let main_v21 : IVec S44x16 1 := cmpf .olt main_v19 main_v20
  let main_c_7 : IVec S_ 1 := constantI S_ 1 1#1
  let main_v22 : IVec S_ 1 := (fun x v => Host.reduce IntOp.andi x v reducesTo_S44x16_S_d0_1 h_S_) main_v21 main_c_7
  let main_v23 : IVec S_ 1 := andi main_v18 main_v22
  let main_v24 : FVec F S2048x5632 .f32 := Host.absf main_arg5
  let main_cst_8 : FVec F S_ .f32 := constant S_ .f32 0x7F800000#32
  let main_v25 : FVec F S2048x5632 .f32 := broadcastInDim S2048x5632 ![] bcast_S_S2048x5632 main_cst_8
  let main_v26 : IVec S2048x5632 1 := cmpf .olt main_v24 main_v25
  let main_c_9 : IVec S_ 1 := constantI S_ 1 1#1
  let main_v27 : IVec S_ 1 := (fun x v => Host.reduce IntOp.andi x v reducesTo_S2048x5632_S_d0_1 h_S_) main_v26 main_c_9
  let main_v28 : IVec S_ 1 := andi main_v23 main_v27
  let main_v29 : FVec F S16x44 .f32 := Host.absf main_arg6
  let main_cst_10 : FVec F S_ .f32 := constant S_ .f32 0x7F800000#32
  let main_v30 : FVec F S16x44 .f32 := broadcastInDim S16x44 ![] bcast_S_S16x44 main_cst_10
  let main_v31 : IVec S16x44 1 := cmpf .olt main_v29 main_v30
  let main_c_11 : IVec S_ 1 := constantI S_ 1 1#1
  let main_v32 : IVec S_ 1 := (fun x v => Host.reduce IntOp.andi x v reducesTo_S16x44_S_d0_1 h_S_) main_v31 main_c_11
  let main_v33 : IVec S_ 1 := andi main_v28 main_v32
  main_v33

def fn {F : FTy → Type} [FloatOps F] (main_arg0 : FVec F S8192x2048 .f32) (main_arg1 : FVec F S5632x2048 .f32) (main_arg2 : FVec F S44x16 .f32) (main_arg3 : FVec F S5632x2048 .f32) (main_arg4 : FVec F S44x16 .f32) (main_arg5 : FVec F S2048x5632 .f32) (main_arg6 : FVec F S16x44 .f32) : IVec S_ 1 :=
  let main_v0 : FVec F S8192x2048 .f32 := Host.absf main_arg0
  let main_cst : FVec F S_ .f32 := constant S_ .f32 0x7F800000#32
  let main_v1 : FVec F S8192x2048 .f32 := broadcastInDim S8192x2048 ![] bcast_S_S8192x2048 main_cst
  let main_v2 : IVec S8192x2048 1 := cmpf .olt main_v0 main_v1
  let main_c : IVec S_ 1 := constantI S_ 1 1#1
  let main_v3 : IVec S_ 1 := (fun x v => Host.reduce IntOp.andi x v reducesTo_S8192x2048_S_d0_1 h_S_) main_v2 main_c
  let main_v4 : FVec F S5632x2048 .f32 := Host.absf main_arg1
  let main_cst_0 : FVec F S_ .f32 := constant S_ .f32 0x7F800000#32
  let main_v5 : FVec F S5632x2048 .f32 := broadcastInDim S5632x2048 ![] bcast_S_S5632x2048 main_cst_0
  let main_v6 : IVec S5632x2048 1 := cmpf .olt main_v4 main_v5
  let main_c_1 : IVec S_ 1 := constantI S_ 1 1#1
  let main_v7 : IVec S_ 1 := (fun x v => Host.reduce IntOp.andi x v reducesTo_S5632x2048_S_d0_1 h_S_) main_v6 main_c_1
  let main_v8 : IVec S_ 1 := andi main_v3 main_v7
  let main_v9 : FVec F S44x16 .f32 := Host.absf main_arg2
  let main_cst_2 : FVec F S_ .f32 := constant S_ .f32 0x7F800000#32
  let main_v10 : FVec F S44x16 .f32 := broadcastInDim S44x16 ![] bcast_S_S44x16 main_cst_2
  let main_v11 : IVec S44x16 1 := cmpf .olt main_v9 main_v10
  let main_c_3 : IVec S_ 1 := constantI S_ 1 1#1
  let main_v12 : IVec S_ 1 := (fun x v => Host.reduce IntOp.andi x v reducesTo_S44x16_S_d0_1 h_S_) main_v11 main_c_3
  let main_v13 : IVec S_ 1 := andi main_v8 main_v12
  let main_v14 : FVec F S5632x2048 .f32 := Host.absf main_arg3
  let main_cst_4 : FVec F S_ .f32 := constant S_ .f32 0x7F800000#32
  let main_v15 : FVec F S5632x2048 .f32 := broadcastInDim S5632x2048 ![] bcast_S_S5632x2048 main_cst_4
  let main_v16 : IVec S5632x2048 1 := cmpf .olt main_v14 main_v15
  fn_part1 (F := F) main_arg4 main_arg5 main_arg6 main_v13 main_v16
-- ==== Kernel.lean ====
abbrev S8192x2048 : Shape := ⟨2, ![8192, 2048]⟩
abbrev S5632x2048 : Shape := ⟨2, ![5632, 2048]⟩
abbrev S44x16 : Shape := ⟨2, ![44, 16]⟩
abbrev S2048x5632 : Shape := ⟨2, ![2048, 5632]⟩
abbrev S16x44 : Shape := ⟨2, ![16, 44]⟩
abbrev S44x128x16x128 : Shape := ⟨4, ![44, 128, 16, 128]⟩
abbrev S44x1x16x1 : Shape := ⟨4, ![44, 1, 16, 1]⟩
abbrev S16x128x44x128 : Shape := ⟨4, ![16, 128, 44, 128]⟩
abbrev S16x1x44x1 : Shape := ⟨4, ![16, 1, 44, 1]⟩
abbrev S8192x5632 : Shape := ⟨2, ![8192, 5632]⟩
abbrev S2048x2048 : Shape := ⟨2, ![2048, 2048]⟩
abbrev S256x2048 : Shape := ⟨2, ![256, 2048]⟩
abbrev S2048x256 : Shape := ⟨2, ![2048, 256]⟩
abbrev S2048x512 : Shape := ⟨2, ![2048, 512]⟩
abbrev S1024x512 : Shape := ⟨2, ![1024, 512]⟩
abbrev S2048x1024 : Shape := ⟨2, ![2048, 1024]⟩

abbrev nBuf : Space → Nat
  | .hbm => 28
  | .vmem => 15
  | .smem => 0
  | _ => 0

abbrev bufTy : (tb : Table) → Fin (tcTables nBuf tb) → BufTy
  | .hbm, ⟨0, _⟩ => ⟨S8192x2048, .f32⟩
  | .hbm, ⟨1, _⟩ => ⟨S5632x2048, .f32⟩
  | .hbm, ⟨2, _⟩ => ⟨S44x16, .f32⟩
  | .hbm, ⟨3, _⟩ => ⟨S5632x2048, .f32⟩
  | .hbm, ⟨4, _⟩ => ⟨S44x16, .f32⟩
  | .hbm, ⟨5, _⟩ => ⟨S2048x5632, .f32⟩
  | .hbm, ⟨6, _⟩ => ⟨S16x44, .f32⟩
  | .hbm, ⟨7, _⟩ => ⟨S44x128x16x128, .f32⟩
  | .hbm, ⟨8, _⟩ => ⟨S44x1x16x1, .f32⟩
  | .hbm, ⟨9, _⟩ => ⟨S44x128x16x128, .f32⟩
  | .hbm, ⟨10, _⟩ => ⟨S44x128x16x128, .f32⟩
  | .hbm, ⟨11, _⟩ => ⟨S5632x2048, .f32⟩
  | .hbm, ⟨12, _⟩ => ⟨S5632x2048, .bf16⟩
  | .hbm, ⟨13, _⟩ => ⟨S44x128x16x128, .f32⟩
  | .hbm, ⟨14, _⟩ => ⟨S44x1x16x1, .f32⟩
  | .hbm, ⟨15, _⟩ => ⟨S44x128x16x128, .f32⟩
  | .hbm, ⟨16, _⟩ => ⟨S44x128x16x128, .f32⟩
  | .hbm, ⟨17, _⟩ => ⟨S5632x2048, .f32⟩
  | .hbm, ⟨18, _⟩ => ⟨S5632x2048, .bf16⟩
  | .hbm, ⟨19, _⟩ => ⟨S16x128x44x128, .f32⟩
  | .hbm, ⟨20, _⟩ => ⟨S16x1x44x1, .f32⟩
  | .hbm, ⟨21, _⟩ => ⟨S16x128x44x128, .f32⟩
  | .hbm, ⟨22, _⟩ => ⟨S16x128x44x128, .f32⟩
  | .hbm, ⟨23, _⟩ => ⟨S2048x5632, .f32⟩
  | .hbm, ⟨24, _⟩ => ⟨S2048x5632, .bf16⟩
  | .hbm, ⟨25, _⟩ => ⟨S8192x2048, .bf16⟩
  | .hbm, ⟨26, _⟩ => ⟨S8192x5632, .bf16⟩
  | .hbm, ⟨27, _⟩ => ⟨S8192x2048, .f32⟩
  | .local _ .vmem, ⟨0, _⟩ => ⟨S2048x2048, .bf16⟩
  | .local _ .vmem, ⟨1, _⟩ => ⟨S2048x2048, .bf16⟩
  | .local _ .vmem, ⟨2, _⟩ => ⟨S256x2048, .bf16⟩
  | .local _ .vmem, ⟨3, _⟩ => ⟨S256x2048, .bf16⟩
  | .local _ .vmem, ⟨4, _⟩ => ⟨S256x2048, .bf16⟩
  | .local _ .vmem, ⟨5, _⟩ => ⟨S256x2048, .bf16⟩
  | .local _ .vmem, ⟨6, _⟩ => ⟨S2048x256, .bf16⟩
  | .local _ .vmem, ⟨7, _⟩ => ⟨S2048x256, .bf16⟩
  | .local _ .vmem, ⟨8, _⟩ => ⟨S2048x512, .bf16⟩
  | .local _ .vmem, ⟨9, _⟩ => ⟨S2048x512, .bf16⟩
  | .local _ .vmem, ⟨10, _⟩ => ⟨S1024x512, .bf16⟩
  | .local _ .vmem, ⟨11, _⟩ => ⟨S1024x512, .bf16⟩
  | .local _ .vmem, ⟨12, _⟩ => ⟨S2048x1024, .f32⟩
  | .local _ .vmem, ⟨13, _⟩ => ⟨S2048x1024, .f32⟩
  | .local _ .vmem, ⟨14, _⟩ => ⟨S2048x1024, .f32⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_call0_v0 : Ref sig .tc := ⟨.hbm, 7, rfl⟩
abbrev main_call0_v1 : Ref sig .tc := ⟨.hbm, 8, rfl⟩
abbrev main_call0_v2 : Ref sig .tc := ⟨.hbm, 9, rfl⟩
abbrev main_call0_v3 : Ref sig .tc := ⟨.hbm, 10, rfl⟩
abbrev main_call0_v4 : Ref sig .tc := ⟨.hbm, 11, rfl⟩
abbrev main_call0_v5 : Ref sig .tc := ⟨.hbm, 12, rfl⟩
abbrev main_call0_v6 : Ref sig .tc := ⟨.hbm, 13, rfl⟩
abbrev main_call0_v7 : Ref sig .tc := ⟨.hbm, 14, rfl⟩
abbrev main_call0_v8 : Ref sig .tc := ⟨.hbm, 15, rfl⟩
abbrev main_call0_v9 : Ref sig .tc := ⟨.hbm, 16, rfl⟩
abbrev main_call0_v10 : Ref sig .tc := ⟨.hbm, 17, rfl⟩
abbrev main_call0_v11 : Ref sig .tc := ⟨.hbm, 18, rfl⟩
abbrev main_call0_v12 : Ref sig .tc := ⟨.hbm, 19, rfl⟩
abbrev main_call0_v13 : Ref sig .tc := ⟨.hbm, 20, rfl⟩
abbrev main_call0_v14 : Ref sig .tc := ⟨.hbm, 21, rfl⟩
abbrev main_call0_v15 : Ref sig .tc := ⟨.hbm, 22, rfl⟩
abbrev main_call0_v16 : Ref sig .tc := ⟨.hbm, 23, rfl⟩
abbrev main_call0_v17 : Ref sig .tc := ⟨.hbm, 24, rfl⟩
abbrev main_call0_v18 : Ref sig .tc := ⟨.hbm, 25, rfl⟩
abbrev main_call0_v19 : Ref sig .tc := ⟨.hbm, 26, rfl⟩
abbrev main_v0 : Ref sig .tc := ⟨.hbm, 27, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc1_stg0_0 : Ref sig .tc := ⟨.vmem, 8, rfl⟩
abbrev cc1_stg0_1 : Ref sig .tc := ⟨.vmem, 9, rfl⟩
abbrev cc1_stg1_0 : Ref sig .tc := ⟨.vmem, 10, rfl⟩
abbrev cc1_stg1_1 : Ref sig .tc := ⟨.vmem, 11, rfl⟩
abbrev cc1_stg2_0 : Ref sig .tc := ⟨.vmem, 12, rfl⟩
abbrev cc1_stg2_1 : Ref sig .tc := ⟨.vmem, 13, rfl⟩
abbrev cc1_scratch0 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc1_sem0_0 : DmaSem sig := 8
abbrev cc1_sem0_1 : DmaSem sig := 9
abbrev cc1_sem1_0 : DmaSem sig := 10
abbrev cc1_sem1_1 : DmaSem sig := 11
abbrev cc1_sem2_0 : DmaSem sig := 12
abbrev cc1_sem2_1 : DmaSem sig := 13

abbrev nD : Nat := 1
abbrev τ : Topo := Topo.v7x

variable {F : FTy → Type} [FloatOps F]

abbrev grid0 : Pipeline.Grid := ⟨2, ![4, 22], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S2048x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S256x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S256x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S2048x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev grid1 : Pipeline.Grid := ⟨3, ![4, 2, 11], ![false, false, false]⟩

def k1_cond2 (i : grid1.Coords) : BitVec 1 :=
  let arg2 : BitVec 32 := BitVec.ofNat 32 (i 2).val
  let c10_i32 : BitVec 32 := 10#32
  let v13 : BitVec 1 := Scalar.cmpi .eq arg2 c10_i32
  let v14 : BitVec 32 := Scalar.extui v13
  let c0_i32_8 : BitVec 32 := 0#32
  let v15 : BitVec 1 := Scalar.cmpi .ne v14 c0_i32_8
  v15

def cc1_transform_0 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc1_transform_1 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc1_transform_2 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage1_0 : Fin 2 → Memref sig .tc .vmem S2048x512 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, false, true]

abbrev stage1_1 : Fin 2 → Memref sig .tc .vmem S1024x512 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![false, true, true]

abbrev stage1_2 : Fin 2 → Memref sig .tc .vmem S2048x1024 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true, false]

class Facts₀ : Prop where
  shapeCasts_S5632x2048_S44x128x16x128 : S5632x2048.ShapeCasts S44x128x16x128
  bcast_S44x16_S44x1x16x1_0_2 : S44x16.BroadcastsInDim S44x1x16x1 (![0, 2] : Fin 2 → Fin S44x1x16x1.rank)
  bcast_S44x1x16x1_S44x128x16x128_0_1_2_3 : S44x1x16x1.BroadcastsInDim S44x128x16x128 (![0, 1, 2, 3] : Fin 4 → Fin S44x128x16x128.rank)
  shapeCasts_S44x128x16x128_S5632x2048 : S44x128x16x128.ShapeCasts S5632x2048
  bitsLt_bf16_f32 : FTy.bits .bf16 < FTy.bits .f32
  shapeCasts_S2048x5632_S16x128x44x128 : S2048x5632.ShapeCasts S16x128x44x128
  bcast_S16x44_S16x1x44x1_0_2 : S16x44.BroadcastsInDim S16x1x44x1 (![0, 2] : Fin 2 → Fin S16x1x44x1.rank)
  bcast_S16x1x44x1_S16x128x44x128_0_1_2_3 : S16x1x44x1.BroadcastsInDim S16x128x44x128 (![0, 1, 2, 3] : Fin 4 → Fin S16x128x44x128.rank)
  shapeCasts_S16x128x44x128_S2048x5632 : S16x128x44x128.ShapeCasts S2048x5632
  inb_S2048x2048_S2048x2048_0_0 : ∀ a, (![0, 0] : Fin 2 → Nat) a + S2048x2048.size a ≤ S2048x2048.size a
  h_S2048x2048 : 0 < S2048x2048.numel
  shapeCasts_S2048x2048_S2048x2048 : S2048x2048.ShapeCasts S2048x2048
  inb_S256x2048_S256x2048_0_0 : ∀ a, (![0, 0] : Fin 2 → Nat) a + S256x2048.size a ≤ S256x2048.size a
  h_S256x2048 : 0 < S256x2048.numel
  shapeCasts_S256x2048_S256x2048 : S256x2048.ShapeCasts S256x2048
  inb_S2048x256_S2048x256_0_0 : ∀ a, (![0, 0] : Fin 2 → Nat) a + S2048x256.size a ≤ S2048x256.size a
  h_S2048x256 : 0 < S2048x256.numel
  packedbf16_S2048x256_S2048x256_0_0 : (Rect.unit (s := S2048x256) ![0, 0] S2048x256.size inb_S2048x256_S2048x256_0_0).PackedRows (EltTy.packing .bf16)
  inb_S2048x1024_S2048x1024_0_0 : ∀ a, (![0, 0] : Fin 2 → Nat) a + S2048x1024.size a ≤ S2048x1024.size a
  h_S2048x1024 : 0 < S2048x1024.numel
  shapeCasts_S2048x1024_S2048x1024 : S2048x1024.ShapeCasts S2048x1024
  inb_S2048x512_S2048x512_0_0 : ∀ a, (![0, 0] : Fin 2 → Nat) a + S2048x512.size a ≤ S2048x512.size a
  h_S2048x512 : 0 < S2048x512.numel
  shapeCasts_S2048x512_S2048x512 : S2048x512.ShapeCasts S2048x512
  inb_S1024x512_S1024x512_0_0 : ∀ a, (![0, 0] : Fin 2 → Nat) a + S1024x512.size a ≤ S1024x512.size a
  h_S1024x512 : 0 < S1024x512.numel
  shapeCasts_S1024x512_S1024x512 : S1024x512.ShapeCasts S1024x512
  dot_S2048x2048_S256x2048_S2048x256_1_1_0_0_n_n_wf : DotDims.WF S2048x2048 S256x2048 S2048x256 [1] [1] [0] [0] [] []
  dot_S2048x512_S1024x512_S2048x1024_1_1_0_0_n_n_wf : DotDims.WF S2048x512 S1024x512 S2048x1024 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2048x2048.size a ≤ S8192x2048.size a
  hwx0_0 : ∀ i : grid0.Coords, EltTy.bits .bf16 = 32 ∨ (Rect.block (s := S8192x2048) S2048x2048.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S256x2048.size a ≤ S5632x2048.size a
  hwx0_1 : ∀ i : grid0.Coords, EltTy.bits .bf16 = 32 ∨ (Rect.block (s := S5632x2048) S256x2048.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S256x2048.size a ≤ S5632x2048.size a
  hwx0_2 : ∀ i : grid0.Coords, EltTy.bits .bf16 = 32 ∨ (Rect.block (s := S5632x2048) S256x2048.size (cc0_transform_2 i) (hinb0_2 i)).WholeWords (EltTy.packing .bf16)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S2048x256.size a ≤ S8192x5632.size a
  hwx0_3 : ∀ i : grid0.Coords, EltTy.bits .bf16 = 32 ∨ (Rect.block (s := S8192x5632) S2048x256.size (cc0_transform_3 i) (hinb0_3 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2048x512.size a ≤ S8192x5632.size a
  hwx1_0 : ∀ i : grid1.Coords, EltTy.bits .bf16 = 32 ∨ (Rect.block (s := S8192x5632) S2048x512.size (cc1_transform_0 i) (hinb1_0 i)).WholeWords (EltTy.packing .bf16)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1024x512.size a ≤ S2048x5632.size a
  hwx1_1 : ∀ i : grid1.Coords, EltTy.bits .bf16 = 32 ∨ (Rect.block (s := S2048x5632) S1024x512.size (cc1_transform_1 i) (hinb1_1 i)).WholeWords (EltTy.packing .bf16)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S2048x1024.size a ≤ S8192x2048.size a
  hwx1_2 : ∀ i : grid1.Coords, EltTy.bits .f32 = 32 ∨ (Rect.block (s := S8192x2048) S2048x1024.size (cc1_transform_2 i) (hinb1_2 i)).WholeWords (EltTy.packing .f32)

variable [Facts₀]

def dot_S2048x2048_S256x2048_S2048x256_1_1_0_0_n_n : DotDims S2048x2048 S256x2048 S2048x256 where
  lhsContracting := [1]
  rhsContracting := [1]
  lhsNonContracting := [0]
  rhsNonContracting := [0]
  lhsBatch := []
  rhsBatch := []
  wf := dot_S2048x2048_S256x2048_S2048x256_1_1_0_0_n_n_wf
def dot_S2048x512_S1024x512_S2048x1024_1_1_0_0_n_n : DotDims S2048x512 S1024x512 S2048x1024 where
  lhsContracting := [1]
  rhsContracting := [1]
  lhsNonContracting := [0]
  rhsNonContracting := [0]
  lhsBatch := []
  rhsBatch := []
  wf := dot_S2048x512_S1024x512_S2048x1024_1_1_0_0_n_n_wf

abbrev win0_0 : Pipeline.Window sig grid0 :=
  Pipeline.Window.ofSpec (Memref.whole main_call0_v18) S2048x2048.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_call0_v5) S256x2048.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_call0_v11) S256x2048.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_call0_v19) S2048x256.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_call0_v19) S2048x512.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_call0_v17) S1024x512.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v0) S2048x1024.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev idle1 : Fin 3 → grid1.Coords → Bool := fun | 0 => fun _ => false | 1 => fun _ => false | 2 => fun i => !(k1_cond2 i == 1#1) | ⟨_ + 3, h⟩ => absurd h (Nat.not_lt.2 (Nat.le_add_left _ _))

class Facts : Prop extends Facts₀ where

variable [Facts]
-- ==== ReferenceIdeal.lean ====
abbrev S8192x2048 : Shape := ⟨2, ![8192, 2048]⟩
abbrev S5632x2048 : Shape := ⟨2, ![5632, 2048]⟩
abbrev S44x16 : Shape := ⟨2, ![44, 16]⟩
abbrev S2048x5632 : Shape := ⟨2, ![2048, 5632]⟩
abbrev S16x44 : Shape := ⟨2, ![16, 44]⟩
abbrev S44x128x16x128 : Shape := ⟨4, ![44, 128, 16, 128]⟩
abbrev S44x1x16x1 : Shape := ⟨4, ![44, 1, 16, 1]⟩
abbrev S8192x5632 : Shape := ⟨2, ![8192, 5632]⟩
abbrev S_ : Shape := ⟨0, ![]⟩
abbrev S16x128x44x128 : Shape := ⟨4, ![16, 128, 44, 128]⟩
abbrev S16x1x44x1 : Shape := ⟨4, ![16, 1, 44, 1]⟩

abbrev nBuf : Space → Nat
  | .hbm => 38
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S5632x2048, .f32⟩
  | .hbm, ⟨2, _⟩ => ⟨S44x16, .f32⟩
  | .hbm, ⟨3, _⟩ => ⟨S5632x2048, .f32⟩
  | .hbm, ⟨4, _⟩ => ⟨S44x16, .f32⟩
  | .hbm, ⟨5, _⟩ => ⟨S2048x5632, .f32⟩
  | .hbm, ⟨6, _⟩ => ⟨S16x44, .f32⟩
  | .hbm, ⟨7, _⟩ => ⟨S44x128x16x128, .f32⟩
  | .hbm, ⟨8, _⟩ => ⟨S44x1x16x1, .f32⟩
  | .hbm, ⟨9, _⟩ => ⟨S44x128x16x128, .f32⟩
  | .hbm, ⟨10, _⟩ => ⟨S44x128x16x128, .f32⟩
  | .hbm, ⟨11, _⟩ => ⟨S5632x2048, .f32⟩
  | .hbm, ⟨12, _⟩ => ⟨S2048x5632, .f32⟩
  | .hbm, ⟨13, _⟩ => ⟨S8192x5632, .f32⟩
  | .hbm, ⟨14, _⟩ => ⟨S8192x5632, .f32⟩
  | .hbm, ⟨15, _⟩ => ⟨S8192x5632, .f32⟩
  | .hbm, ⟨16, _⟩ => ⟨S_, .f32⟩
  | .hbm, ⟨17, _⟩ => ⟨S8192x5632, .f32⟩
  | .hbm, ⟨18, _⟩ => ⟨S8192x5632, .f32⟩
  | .hbm, ⟨19, _⟩ => ⟨S_, .f32⟩
  | .hbm, ⟨20, _⟩ => ⟨S8192x5632, .f32⟩
  | .hbm, ⟨21, _⟩ => ⟨S8192x5632, .f32⟩
  | .hbm, ⟨22, _⟩ => ⟨S8192x5632, .f32⟩
  | .hbm, ⟨23, _⟩ => ⟨S44x128x16x128, .f32⟩
  | .hbm, ⟨24, _⟩ => ⟨S44x1x16x1, .f32⟩
  | .hbm, ⟨25, _⟩ => ⟨S44x128x16x128, .f32⟩
  | .hbm, ⟨26, _⟩ => ⟨S44x128x16x128, .f32⟩
  | .hbm, ⟨27, _⟩ => ⟨S5632x2048, .f32⟩
  | .hbm, ⟨28, _⟩ => ⟨S2048x5632, .f32⟩
  | .hbm, ⟨29, _⟩ => ⟨S8192x5632, .f32⟩
  | .hbm, ⟨30, _⟩ => ⟨S16x128x44x128, .f32⟩
  | .hbm, ⟨31, _⟩ => ⟨S16x1x44x1, .f32⟩
  | .hbm, ⟨32, _⟩ => ⟨S16x128x44x128, .f32⟩
  | .hbm, ⟨33, _⟩ => ⟨S16x128x44x128, .f32⟩
  | .hbm, ⟨34, _⟩ => ⟨S2048x5632, .f32⟩
  | .hbm, ⟨35, _⟩ => ⟨S8192x5632, .f32⟩
  | .hbm, ⟨36, _⟩ => ⟨S5632x2048, .f32⟩
  | .hbm, ⟨37, _⟩ => ⟨S8192x2048, .f32⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_call0_v0 : Ref sig .tc := ⟨.hbm, 14, rfl⟩
abbrev main_call0_v1 : Ref sig .tc := ⟨.hbm, 15, rfl⟩
abbrev main_call0_cst : Ref sig .tc := ⟨.hbm, 16, rfl⟩
abbrev main_call0_v2 : Ref sig .tc := ⟨.hbm, 17, rfl⟩
abbrev main_call0_v3 : Ref sig .tc := ⟨.hbm, 18, rfl⟩
abbrev main_call0_cst_0 : Ref sig .tc := ⟨.hbm, 19, rfl⟩
abbrev main_call0_v4 : Ref sig .tc := ⟨.hbm, 20, rfl⟩
abbrev main_call0_v5 : Ref sig .tc := ⟨.hbm, 21, rfl⟩
abbrev main_v7 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩

abbrev nD : Nat := 1
abbrev τ : Topo := Topo.v7x

variable {F : FTy → Type} [FloatOps F]

class Facts₀ : Prop where
  shapeCasts_S5632x2048_S44x128x16x128 : S5632x2048.ShapeCasts S44x128x16x128
  bcast_S44x16_S44x1x16x1_0_2 : S44x16.BroadcastsInDim S44x1x16x1 (![0, 2] : Fin 2 → Fin S44x1x16x1.rank)
  bcast_S44x1x16x1_S44x128x16x128_0_1_2_3 : S44x1x16x1.BroadcastsInDim S44x128x16x128 (![0, 1, 2, 3] : Fin 4 → Fin S44x128x16x128.rank)
  shapeCasts_S44x128x16x128_S5632x2048 : S44x128x16x128.ShapeCasts S5632x2048
  transposes_S5632x2048_S2048x5632_1_0 : S5632x2048.Transposes [1, 0] S2048x5632
  bcast_S_S8192x5632 : S_.BroadcastsInDim S8192x5632 (![] : Fin 0 → Fin S8192x5632.rank)
  shapeCasts_S2048x5632_S16x128x44x128 : S2048x5632.ShapeCasts S16x128x44x128
  bcast_S16x44_S16x1x44x1_0_2 : S16x44.BroadcastsInDim S16x1x44x1 (![0, 2] : Fin 2 → Fin S16x1x44x1.rank)
  bcast_S16x1x44x1_S16x128x44x128_0_1_2_3 : S16x1x44x1.BroadcastsInDim S16x128x44x128 (![0, 1, 2, 3] : Fin 4 → Fin S16x128x44x128.rank)
  shapeCasts_S16x128x44x128_S2048x5632 : S16x128x44x128.ShapeCasts S2048x5632
  transposes_S2048x5632_S5632x2048_1_0 : S2048x5632.Transposes [1, 0] S5632x2048
  dot_S8192x2048_S2048x5632_S8192x5632_1_0_0_1_n_n_wf : DotDims.WF S8192x2048 S2048x5632 S8192x5632 [1] [0] [0] [1] [] []
  dot_S8192x5632_S5632x2048_S8192x2048_1_0_0_1_n_n_wf : DotDims.WF S8192x5632 S5632x2048 S8192x2048 [1] [0] [0] [1] [] []

variable [Facts₀]

def dot_S8192x2048_S2048x5632_S8192x5632_1_0_0_1_n_n : DotDims S8192x2048 S2048x5632 S8192x5632 where
  lhsContracting := [1]
  rhsContracting := [0]
  lhsNonContracting := [0]
  rhsNonContracting := [1]
  lhsBatch := []
  rhsBatch := []
  wf := dot_S8192x2048_S2048x5632_S8192x5632_1_0_0_1_n_n_wf
def dot_S8192x5632_S5632x2048_S8192x2048_1_0_0_1_n_n : DotDims S8192x5632 S5632x2048 S8192x2048 where
  lhsContracting := [1]
  rhsContracting := [0]
  lhsNonContracting := [0]
  rhsNonContracting := [1]
  lhsBatch := []
  rhsBatch := []
  wf := dot_S8192x5632_S5632x2048_S8192x2048_1_0_0_1_n_n_wf

class Facts : Prop extends Facts₀ where

variable [Facts]
-- ==== Proof.KB.R0.lean ====
/-
  The first kernel region (gate and up projections with the gated activation) at a generic grid point.
  A grid point (i, j) of the 4 × 22 grid reads rows 2048·i … 2048·i + 2047 of the tokens, rows 256·j … 256·j + 255 of
  each of the two rescaled projection matrices, and writes the [2048, 256] block (i, j) of the activations: one store
  of one value computed from the three loaded blocks. Stated here, for any float instance and for any contents `V` of
  the buffers when the region is entered: what the body leaves in the output block's buffer, the body's triple, the
  data describing the region point by point, and the obligation that the body meets that description at every point.
-/
import proofs.«125092_j13889924235944_2_alg».proof.Proof.Gen.Kernel.Launch
import proofs.«125092_j13889924235944_2_alg».proof.Proof.Gen.Kernel.Skeleton
import proofs.«125092_j13889924235944_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region0

variable (V : (c : Dev nD) → (b : Ref sig .tc) → Buf (Elt F) ((c : Thread nD τ).loc b))

/-- Window `w`'s block at grid point `t`, read off the window's array as the region finds it. -/
def blk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- An input window's current buffer holds its block at every point, whether the point fetched it or an earlier one
    did and the block index has not moved since: the token rows. -/
theorem before0_0_of {c : Dev nD} (dat : Dat τ (Elt F) Unit ℕ (UR sig nD τ) ℕ cfg0 c) (hA : dat.A 0 = V c (Pipeline.arrRef spec0 0))
    (hafter : ∀ t, dat.after 0 t = blk0 V c 0 t) (t : Fin cfg0.N) (d) : dat.before 0 t d = blk0 V c 0 t :=
  (dat.before_in_eq_fetched 0 rfl (fun _ => rfl) (fun _ _ _ => rfl) (fun t => by rw [hafter]; unfold Dat.blockOf blk0; rw [hA]; try rfl) t d).trans
    (by unfold Dat.fetched Dat.blockOf blk0; rw [hA]; try rfl)
/-- The same for the rows of the first projection matrix. -/
theorem before0_1_of {c : Dev nD} (dat : Dat τ (Elt F) Unit ℕ (UR sig nD τ) ℕ cfg0 c) (hA : dat.A 1 = V c (Pipeline.arrRef spec0 1))
    (hafter : ∀ t, dat.after 1 t = blk0 V c 1 t) (t : Fin cfg0.N) (d) : dat.before 1 t d = blk0 V c 1 t :=
  (dat.before_in_eq_fetched 1 rfl (fun _ => rfl) (fun _ _ _ => rfl) (fun t => by rw [hafter]; unfold Dat.blockOf blk0; rw [hA]; try rfl) t d).trans
    (by unfold Dat.fetched Dat.blockOf blk0; rw [hA]; try rfl)
/-- The same for the rows of the second projection matrix. -/
theorem before0_2_of {c : Dev nD} (dat : Dat τ (Elt F) Unit ℕ (UR sig nD τ) ℕ cfg0 c) (hA : dat.A 2 = V c (Pipeline.arrRef spec0 2))
    (hafter : ∀ t, dat.after 2 t = blk0 V c 2 t) (t : Fin cfg0.N) (d) : dat.before 2 t d = blk0 V c 2 t :=
  (dat.before_in_eq_fetched 2 rfl (fun _ => rfl) (fun _ _ _ => rfl) (fun t => by rw [hafter]; unfold Dat.blockOf blk0; rw [hA]; try rfl) t d).trans
    (by unfold Dat.fetched Dat.blockOf blk0; rw [hA]; try rfl)

/-- The whole-block rectangles the body loads and stores through. -/
abbrev rTok : Rect S2048x2048 := Rect.unit (s := S2048x2048) ![0, 0] S2048x2048.size inb_S2048x2048_S2048x2048_0_0
abbrev rWt : Rect S256x2048 := Rect.unit (s := S256x2048) ![0, 0] S256x2048.size inb_S256x2048_S256x2048_0_0
abbrev rAct : Rect S2048x256 := Rect.unit (s := S2048x256) ![0, 0] S2048x256.size inb_S2048x256_S2048x256_0_0

/-- What the body leaves in the activation block's buffer, from the three input blocks: its one store. -/
def actOut (x0 : Vec F S2048x2048 .bf16) (x1 x2 : Vec F S256x2048 .bf16) : Vec F S2048x256 .bf16 :=
  View.canon [⟨rAct, k0_pay1 (View.ld x0 rTok) (View.ld x1 rWt) (View.ld x2 rWt)⟩]

/-- The one store is of the whole block, so it covers it. -/
theorem actCover (p0 : Vec F S2048x256 .bf16) (y : S2048x256.Idx) :
    ∃ pc ∈ ([⟨rAct, p0⟩] : List (View.Piece (Elt F) S2048x256 .bf16)), y ∈ pc.1.set :=
  View.cover_of_tiled [⟨rAct, p0⟩] S2048x256.size (by rfl) y

set_option maxHeartbeats 1000000 in
/-- The body on whole buffers, the inputs' at contents `x0 x1 x2` and the output's at anything, runs to the continuation
    holding the inputs' as they were and the output's at `actOut` of them. -/
theorem sound_kernel0 (c : Dev nD) (E : Set ℕ) (i : grid0.Coords) (arg2 : Memref sig .tc .vmem S2048x2048 .bf16) (harg2 : arg2.IsWhole)
    (arg3 : Memref sig .tc .vmem S256x2048 .bf16) (harg3 : arg3.IsWhole) (arg4 : Memref sig .tc .vmem S256x2048 .bf16) (harg4 : arg4.IsWhole)
    (arg5 : Memref sig .tc .vmem S2048x256 .bf16) (harg5 : arg5.IsWhole)
    (x0 : Vec F S2048x2048 .bf16) (x1 x2 : Vec F S256x2048 .bf16) (K : PUnit → sProp 𝕄) :
    iprop(owns (c : Thread nD τ) arg2 fullShare x0 ∗ owns (c : Thread nD τ) arg3 fullShare x1 ∗ owns (c : Thread nD τ) arg4 fullShare x2
        ∗ (∃ d, owns (c : Thread nD τ) arg5 fullShare d)
        ∗ (iprop(owns (c : Thread nD τ) arg2 fullShare x0 ∗ owns (c : Thread nD τ) arg3 fullShare x1 ∗ owns (c : Thread nD τ) arg4 fullShare x2
            ∗ owns (c : Thread nD τ) arg5 fullShare (actOut x0 x1 x2)) -∗ K ⟨⟩))
      ⊢ wp frame (wpE (defs₀ (F := F)) Variants.none c none) E (cc0_gate_up_kernel i arg2 harg2 arg3 harg3 arg4 harg4 arg5 harg5) K := by
  simp only [cc0_gate_up_kernel_eq_skeleton]; unfold cc0_gate_up_kernel_skel
  unfold owns
  iintro ⟨⟨%f0, %hf0, H0⟩, ⟨%f1, %hf1, H1⟩, ⟨%f2, %hf2, H2⟩, ⟨%d3, %f3, -, H3⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (actCover _)

/-- The region's description on core `c`: the arrays as the region finds them; after the body at point `t` each
    input's buffer still at its block and the output's at `actOut` of the three input blocks; the region keeps the
    scoped buffers it does not stage and the generator register untouched; nothing is owed; full shares. -/
def dat0 (c : Dev nD) : Dat τ (Elt F) Unit ℕ (UR sig nD τ) ℕ cfg0 c where
  A w := V c (Pipeline.arrRef spec0 w)
  after w t := match w with
    | ⟨0, _⟩ => blk0 V c 0 t
    | ⟨1, _⟩ => blk0 V c 1 t
    | ⟨2, _⟩ => blk0 V c 2 t
    | ⟨3, _⟩ => actOut (blk0 V c 0 t) (blk0 V c 1 t) (blk0 V c 2 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = blk0 V c 0 t := by dsimp only [dat0]
theorem after0_1 (c : Dev nD) (t : Fin cfg0.N) : (dat0 V c).after 1 t = blk0 V c 1 t := by dsimp only [dat0]
theorem after0_2 (c : Dev nD) (t : Fin cfg0.N) : (dat0 V c).after 2 t = blk0 V c 2 t := by dsimp only [dat0]
theorem after0_3 (c : Dev nD) (t : Fin cfg0.N) :
    (dat0 V c).after 3 t = actOut (blk0 V c 0 t) (blk0 V c 1 t) (blk0 V c 2 t) := by dsimp only [dat0]

theorem before0_0 (c : Dev nD) (t : Fin cfg0.N) (d) : (dat0 V c).before 0 t d = blk0 V c 0 t :=
  before0_0_of V (dat0 V c) (A_eq0 V c 0) (after0_0 V c) t d
theorem before0_1 (c : Dev nD) (t : Fin cfg0.N) (d) : (dat0 V c).before 1 t d = blk0 V c 1 t :=
  before0_1_of V (dat0 V c) (A_eq0 V c 1) (after0_1 V c) t d
theorem before0_2 (c : Dev nD) (t : Fin cfg0.N) (d) : (dat0 V c).before 2 t d = blk0 V c 2 t :=
  before0_2_of V (dat0 V c) (A_eq0 V c 2) (after0_2 V c) t d

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t))

/-- The body at any point: the inputs' buffers hold their blocks, so the body's triple applies; what the region keeps
    and what the core owes pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2]
  rw [show (dat0 V c).Φ t.succ = (dat0 V c).Φ t.castSucc from rfl,
    show (dat0 V c).owesAt () t.succ = (dat0 V c).owesAt () t.castSucc from rfl,
    after0_0, after0_1, after0_2, after0_3]
  iintro ⟨HΦ, Ho, ⟨%d0, H0⟩, ⟨%d1, H1⟩, ⟨%d2, H2⟩, ⟨%d3, H3⟩⟩
  iapply (sound_kernel0 c Set.univ _ _ _ _ _ _ _ _ _ (blk0 V c 0 t) (blk0 V c 1 t) (blk0 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The body obligation of the first region, at every point. -/
theorem body_obligation0 (c : Dev nD) : BodyObligation (dat0 (F := F) V c) (defs₀ (F := F)) Variants.none () Set.univ := fun t => by
  rw [bigSep_W0, bigSep_W0]
  exact sound_body0 V c t

end Region0

end Cert.Kernel.Hand

end
-- ==== Proof.KB.R1Base.lean ====
/-
  The second kernel region (the down projection) — what its three control cases share.
  The grid is 4 × 2 × 11; its last coordinate k walks the 11 blocks of 512 hidden units. At k = 0 the body first
  clears an accumulator kept in a buffer of its own, at every k it adds to the accumulator the product of the
  [2048, 512] block (i, k) of the activations with the transposed [1024, 512] block (j, k) of the output matrix, and at
  k = 10 it copies the accumulator into the output block (i, j). So a point is in one of three cases: first of its
  row of eleven (clear, add), middle (add), last (add, copy out). Here: when each case occurs, in closed form over
  the 88 points; where the output window is idle; the buffers' names; and the invariant's plain form.
-/
import proofs.«125092_j13889924235944_2_alg».proof.Proof.Gen.Kernel.Launch
import proofs.«125092_j13889924235944_2_alg».proof.Proof.Gen.Kernel.Skeleton
import proofs.«125092_j13889924235944_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region1

variable (V : (c : Dev nD) → (b : Ref sig .tc) → Buf (Elt F) ((c : Thread nD τ).loc b))

/-- Window `w`'s block at grid point `t`, read off the window's array as the region finds it. -/
def blk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The activation block's buffer holds the block at every point. -/
theorem before1_0_of {c : Dev nD} (dat : Dat τ (Elt F) Unit ℕ (UR sig nD τ) ℕ cfg1 c) (hA : dat.A 0 = V c (Pipeline.arrRef spec1 0))
    (hafter : ∀ t, dat.after 0 t = blk1 V c 0 t) (t : Fin cfg1.N) (d) : dat.before 0 t d = blk1 V c 0 t :=
  (dat.before_in_eq_fetched 0 rfl (fun _ => rfl) (fun _ _ _ => rfl) (fun t => by rw [hafter]; unfold Dat.blockOf blk1; rw [hA]; try rfl) t d).trans
    (by unfold Dat.fetched Dat.blockOf blk1; rw [hA]; try rfl)
/-- The output matrix's block buffer holds the block at every point. -/
theorem before1_1_of {c : Dev nD} (dat : Dat τ (Elt F) Unit ℕ (UR sig nD τ) ℕ cfg1 c) (hA : dat.A 1 = V c (Pipeline.arrRef spec1 1))
    (hafter : ∀ t, dat.after 1 t = blk1 V c 1 t) (t : Fin cfg1.N) (d) : dat.before 1 t d = blk1 V c 1 t :=
  (dat.before_in_eq_fetched 1 rfl (fun _ => rfl) (fun _ _ _ => rfl) (fun t => by rw [hafter]; unfold Dat.blockOf blk1; rw [hA]; try rfl) t d).trans
    (by unfold Dat.fetched Dat.blockOf blk1; rw [hA]; try rfl)

/-! ## The two conditions, in closed form over the grid -/

/-- "k = 0", as the body computes it from the grid point. -/
abbrev isFirst (i : grid1.Coords) : Prop := (Scalar.cmpi .ne (Scalar.extui (Scalar.cmpi .eq (BitVec.ofNat 32 (i 2).val) 0#32)) 0#32) = 1#1
/-- It holds at the points ≡ 0 (mod 11). -/
theorem isFirst_iff : ∀ t : Fin cfg1.N, isFirst (grid1.coords t) ↔ t.val % 11 = 0 :=
  (by decide +kernel : ∀ t : Fin grid1.N, isFirst (grid1.coords t) ↔ t.val % 11 = 0)
/-- "k = 10", as the body computes it from the grid point. -/
abbrev isLast (i : grid1.Coords) : Prop := k1_cond2 i = 1#1
/-- It holds at the points ≡ 10 (mod 11). -/
theorem isLast_iff : ∀ t : Fin cfg1.N, isLast (grid1.coords t) ↔ t.val % 11 = 10 :=
  (by decide +kernel : ∀ t : Fin grid1.N, isLast (grid1.coords t) ↔ t.val % 11 = 10)

/-! ## Where the windows are idle -/

theorem live1_0 : ∀ t : Fin cfg1.N, cfg1.idle 0 (grid1.coords t) = false := by decide +kernel
theorem live1_1 : ∀ t : Fin cfg1.N, cfg1.idle 1 (grid1.coords t) = false := by decide +kernel
/-- At a first point the output window is idle and not written back. -/
theorem idle1_2_first : ∀ t : Fin cfg1.N, isFirst (grid1.coords t) → ¬isLast (grid1.coords t) → cfg1.idle 2 (grid1.coords t) = true := by decide +kernel
theorem noFlush1_2_first : ∀ t : Fin cfg1.N, isFirst (grid1.coords t) → ¬isLast (grid1.coords t) → (cfg1.win 2).flush t = false := by decide +kernel
/-- At a middle point likewise. -/
theorem idle1_2_mid : ∀ t : Fin cfg1.N, ¬isFirst (grid1.coords t) → ¬isLast (grid1.coords t) → cfg1.idle 2 (grid1.coords t) = true := by decide +kernel
theorem noFlush1_2_mid : ∀ t : Fin cfg1.N, ¬isFirst (grid1.coords t) → ¬isLast (grid1.coords t) → (cfg1.win 2).flush t = false := by decide +kernel
/-- At a last point the output window is live: the body stores into it. -/
theorem live1_2_last : ∀ t : Fin cfg1.N, ¬isFirst (grid1.coords t) → isLast (grid1.coords t) → cfg1.idle 2 (grid1.coords t) = false := by decide +kernel

/-! ## The buffers -/

/-- One buffer of the output window, through which its contents are stated (the choice does not matter). -/
abbrev outView : View sig .tc .vmem S2048x1024 .f32 := (Memref.whole cc1_stg2_0 : Memref sig .tc .vmem S2048x1024 .f32).view
abbrev ms1_0 (t : Fin cfg1.N) : Memref sig .tc .vmem S2048x512 .bf16 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S1024x512 .bf16 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S2048x1024 .f32 := win1_2.stage (cfg1.slots t 2)
abbrev hs1_2 (t : Fin cfg1.N) : (ms1_2 t).IsWhole := hstage1_2 ((cfg1.slots t 2).cast nbuf1_2)
/-- The accumulator: a whole buffer of the kernel's own, passed beside the windows. -/
abbrev accM : Memref sig .tc .vmem S2048x1024 .f32 := Memref.whole cc1_scratch0
abbrev accView : View sig .tc .vmem S2048x1024 .f32 := accM.view

/-- A scoped buffer the region does not use, whole at some contents. -/
abbrev idleBuf (c : Dev nD) (b : Ref sig .tc) : sProp 𝕄 :=
  iprop(∃ f : Buf (Elt F) ((c : Thread nD τ).loc b), ((c : Thread nD τ).loc b) ↦{fullShare} f)

/-- What the region keeps when it names nothing: the first region's eight staging buffers and the accumulator, each
    whole at some contents, and the generator register at some state. -/
theorem keepsPlain (c : Dev nD) :
    (Pipeline.ΦA spec1 c : sProp 𝕄)
      = iprop(iprop(idleBuf c cc0_stg0_0 ∗ idleBuf c cc0_stg0_1 ∗ idleBuf c cc0_stg1_0 ∗ idleBuf c cc0_stg1_1 ∗ idleBuf c cc0_stg2_0
          ∗ idleBuf c cc0_stg2_1 ∗ idleBuf c cc0_stg3_0 ∗ idleBuf c cc0_stg3_1 ∗ (∃ d, owns (c : Thread nD τ) accM fullShare d)) ∗ (∃ r, prngReg c r)) := by
  unfold Pipeline.ΦA; rw [scopedRest1_eq]; simp only [accM, owns_whole]; try rfl

end Region1

end Cert.Kernel.Hand

end
-- ==== Proof.KB.R1First.lean ====
/-
  The second kernel region's body run as a whole, at a FIRST point (k = 0): the accumulator is cleared, then the first partial product is added to it; nothing is stored into the output block.
  The run is stated as a dependent pair: the lists of stores each buffer ends with (found while the run is checked)
  together with the triple saying that, on whole buffers, the body runs to the continuation holding each buffer with
  exactly those stores written.
-/
import proofs.«125092_j13889924235944_2_alg».proof.Proof.KB.R1Base

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- (the run's proof term is large)
set_option maxHeartbeats 1000000 in
/-- At a first point: the two input blocks at `x0 x1`, the output block's buffer at contents handed back untouched, the
    accumulator at anything; afterwards the accumulator holds the found stores. -/
noncomputable def runFirst (c : Dev nD) (i : grid1.Coords) (arg3 : Memref sig .tc .vmem S2048x512 .bf16) (harg3 : arg3.IsWhole) (arg4 : Memref sig .tc .vmem S1024x512 .bf16) (harg4 : arg4.IsWhole) (arg5 : Memref sig .tc .vmem S2048x1024 .f32) (harg5 : arg5.IsWhole) (arg6 : Memref sig .tc .vmem S2048x1024 .f32) (harg6 : arg6.IsWhole) (hc0 : isFirst i) (hc1 : ¬isLast i)
    (x0 : Vec F S2048x512 .bf16) (x1 : Vec F S1024x512 .bf16) :
    Σ' (L2 : List (View.Piece (Elt F) S2048x1024 .f32)), { LS : List (View.Piece (Elt F) S2048x1024 .f32) //
      ∀ (xi2 : Vec F S2048x1024 .f32) (E : Set ℕ) (K : PUnit → sProp 𝕄),
        iprop(owns (c : Thread nD τ) arg3 fullShare x0 ∗ owns (c : Thread nD τ) arg4 fullShare x1 ∗ owns (c : Thread nD τ) arg5 fullShare xi2 ∗ (∃ d, owns (c : Thread nD τ) arg6 fullShare d)
            ∗ (iprop(owns (c : Thread nD τ) arg3 fullShare x0 ∗ owns (c : Thread nD τ) arg4 fullShare x1 ∗ owns (c : Thread nD τ) arg5 fullShare xi2 ∗ (∃ f, arg6.view.loc (c : Thread nD τ) ↦[arg6.view.set]{fullShare} arg6.view.writes (Elt F) f LS)) -∗ K ⟨⟩))
          ⊢ wp frame (wpE (defs₀ (F := F)) Variants.none c none) E (cc1_down_kernel i arg3 harg3 arg4 harg4 arg5 harg5 arg6 harg6) K } := by
  refine ⟨[], ?_, fun xi2 E K => ?run⟩
  case run =>
    simp only [cc1_down_kernel_eq_skeleton]; unfold cc1_down_kernel_skel
    unfold owns
    iintro ⟨⟨%f0, %hf0, H0⟩, ⟨%f1, %hf1, H1⟩, ⟨%f2, %hf2, H2⟩, ⟨%ds, %fs, -, HS⟩, Hk⟩
    obtain rfl := harg3.eq_unread hf0; obtain rfl := harg4.eq_unread hf1; obtain rfl := harg5.eq_unread hf2
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    iexists _; iexact HS

end Cert.Kernel.Hand

end
-- ==== Proof.KB.R1Mid.lean ====
/-
  The second kernel region's body run as a whole, at a MIDDLE point (0 < k < 10): one more partial product is added to the accumulator; nothing is stored into the output block.
  The run is stated as a dependent pair: the lists of stores each buffer ends with (found while the run is checked)
  together with the triple saying that, on whole buffers, the body runs to the continuation holding each buffer with
  exactly those stores written.
-/
import proofs.«125092_j13889924235944_2_alg».proof.Proof.KB.R1First

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- (the run's proof term is large)
set_option maxHeartbeats 1000000 in
/-- At a middle point: the two input blocks at `x0 x1`, the output block's buffer at contents handed back untouched, the
    accumulator at what the point before left (`xs`); afterwards the accumulator holds the found stores. -/
noncomputable def runMid (c : Dev nD) (i : grid1.Coords) (arg3 : Memref sig .tc .vmem S2048x512 .bf16) (harg3 : arg3.IsWhole) (arg4 : Memref sig .tc .vmem S1024x512 .bf16) (harg4 : arg4.IsWhole) (arg5 : Memref sig .tc .vmem S2048x1024 .f32) (harg5 : arg5.IsWhole) (arg6 : Memref sig .tc .vmem S2048x1024 .f32) (harg6 : arg6.IsWhole) (hc0 : ¬isFirst i) (hc1 : ¬isLast i)
    (x0 : Vec F S2048x512 .bf16) (x1 : Vec F S1024x512 .bf16) (xs : Vec F S2048x1024 .f32) :
    Σ' (L2 : List (View.Piece (Elt F) S2048x1024 .f32)), { LS : List (View.Piece (Elt F) S2048x1024 .f32) //
      ∀ (xi2 : Vec F S2048x1024 .f32) (E : Set ℕ) (K : PUnit → sProp 𝕄),
        iprop(owns (c : Thread nD τ) arg3 fullShare x0 ∗ owns (c : Thread nD τ) arg4 fullShare x1 ∗ owns (c : Thread nD τ) arg5 fullShare xi2 ∗ owns (c : Thread nD τ) arg6 fullShare xs
            ∗ (iprop(owns (c : Thread nD τ) arg3 fullShare x0 ∗ owns (c : Thread nD τ) arg4 fullShare x1 ∗ owns (c : Thread nD τ) arg5 fullShare xi2 ∗ (∃ f, arg6.view.loc (c : Thread nD τ) ↦[arg6.view.set]{fullShare} arg6.view.writes (Elt F) f LS)) -∗ K ⟨⟩))
          ⊢ wp frame (wpE (defs₀ (F := F)) Variants.none c none) E (cc1_down_kernel i arg3 harg3 arg4 harg4 arg5 harg5 arg6 harg6) K } := by
  refine ⟨[], ?_, fun xi2 E K => ?run⟩
  case run =>
    simp only [cc1_down_kernel_eq_skeleton]; unfold cc1_down_kernel_skel
    unfold owns
    iintro ⟨⟨%f0, %hf0, H0⟩, ⟨%f1, %hf1, H1⟩, ⟨%f2, %hf2, H2⟩, ⟨%fs, %hfs, HS⟩, Hk⟩
    obtain rfl := harg3.eq_unread hf0; obtain rfl := harg4.eq_unread hf1; obtain rfl := harg5.eq_unread hf2; obtain rfl := harg6.eq_unread hfs
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    iexists _; iexact HS

end Cert.Kernel.Hand

end
-- ==== Proof.KB.R1Last.lean ====
/-
  The second kernel region's body run as a whole, at a LAST point (k = 10): the last partial product is added to the accumulator, and the accumulator is copied into the output block.
  The run is stated as a dependent pair: the lists of stores each buffer ends with (found while the run is checked)
  together with the triple saying that, on whole buffers, the body runs to the continuation holding each buffer with
  exactly those stores written.
-/
import proofs.«125092_j13889924235944_2_alg».proof.Proof.KB.R1Mid

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- (the run's proof term is large)
set_option maxHeartbeats 1000000 in
/-- At a last point: the two input blocks at `x0 x1`, the output block's buffer at anything, the accumulator at what the
    point before left (`xs`); afterwards the output block's buffer and the accumulator hold the found stores. -/
noncomputable def runLast (c : Dev nD) (i : grid1.Coords) (arg3 : Memref sig .tc .vmem S2048x512 .bf16) (harg3 : arg3.IsWhole) (arg4 : Memref sig .tc .vmem S1024x512 .bf16) (harg4 : arg4.IsWhole) (arg5 : Memref sig .tc .vmem S2048x1024 .f32) (harg5 : arg5.IsWhole) (arg6 : Memref sig .tc .vmem S2048x1024 .f32) (harg6 : arg6.IsWhole) (hc0 : ¬isFirst i) (hc1 : isLast i)
    (x0 : Vec F S2048x512 .bf16) (x1 : Vec F S1024x512 .bf16) (xs : Vec F S2048x1024 .f32) :
    Σ' (L2 : List (View.Piece (Elt F) S2048x1024 .f32)), { LS : List (View.Piece (Elt F) S2048x1024 .f32) //
      ∀ (E : Set ℕ) (K : PUnit → sProp 𝕄),
        iprop(owns (c : Thread nD τ) arg3 fullShare x0 ∗ owns (c : Thread nD τ) arg4 fullShare x1 ∗ (∃ d, owns (c : Thread nD τ) arg5 fullShare d) ∗ owns (c : Thread nD τ) arg6 fullShare xs
            ∗ (iprop(owns (c : Thread nD τ) arg3 fullShare x0 ∗ owns (c : Thread nD τ) arg4 fullShare x1 ∗ (∃ f, arg5.view.loc (c : Thread nD τ) ↦[arg5.view.set]{fullShare} arg5.view.writes (Elt F) f L2) ∗ (∃ f, arg6.view.loc (c : Thread nD τ) ↦[arg6.view.set]{fullShare} arg6.view.writes (Elt F) f LS)) -∗ K ⟨⟩))
          ⊢ wp frame (wpE (defs₀ (F := F)) Variants.none c none) E (cc1_down_kernel i arg3 harg3 arg4 harg4 arg5 harg5 arg6 harg6) K } := by
  refine ⟨?_, ?_, fun E K => ?run⟩
  case run =>
    simp only [cc1_down_kernel_eq_skeleton]; unfold cc1_down_kernel_skel
    unfold owns
    iintro ⟨⟨%f0, %hf0, H0⟩, ⟨%f1, %hf1, H1⟩, ⟨%d2, %f2, -, H2⟩, ⟨%fs, %hfs, HS⟩, Hk⟩
    obtain rfl := harg3.eq_unread hf0; obtain rfl := harg4.eq_unread hf1; obtain rfl := harg6.eq_unread hfs
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]; · iexists _; iexact H2
    iexists _; iexact HS

end Cert.Kernel.Hand

end
-- ==== Proof.KB.R1.lean ====
/-
  The second kernel region point by point.
  What the output block's buffer and the accumulator hold after each of the 88 points is defined by recursion on the
  point: a first point (k = 0) starts the accumulator afresh, a middle point adds to what the point before left, a last
  point (k = 10) adds and copies the sum into the output block. The region's invariant carries the accumulator at
  exactly that value from one point to the next; the body meets the description at every point, case by case.
-/
import proofs.«125092_j13889924235944_2_alg».proof.Proof.KB.R1Last

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region1

variable (V : (c : Dev nD) → (b : Ref sig .tc) → Buf (Elt F) ((c : Thread nD τ).loc b))

/-! ## What each case leaves -/

/-- A first point stores nothing into the output block: a placeholder nothing consults. -/
def outFirst (c : Dev nD) (i : grid1.Coords) (arg3 : Memref sig .tc .vmem S2048x512 .bf16) (harg3 : arg3.IsWhole) (arg4 : Memref sig .tc .vmem S1024x512 .bf16) (harg4 : arg4.IsWhole) (arg5 : Memref sig .tc .vmem S2048x1024 .f32) (harg5 : arg5.IsWhole) (arg6 : Memref sig .tc .vmem S2048x1024 .f32) (harg6 : arg6.IsWhole) (hc0 : isFirst i) (hc1 : ¬isLast i) (x0 : Vec F S2048x512 .bf16) (x1 : Vec F S1024x512 .bf16) : Vec F S2048x1024 .f32 :=
  outView.read (Elt F) (outView.writes (Elt F) outView.junk (runFirst c i arg3 harg3 arg4 harg4 arg5 harg5 arg6 harg6 hc0 hc1 x0 x1).1)
/-- A first point's stores into the accumulator cover it. -/
theorem accCoverFirst (c : Dev nD) (i : grid1.Coords) (arg3 : Memref sig .tc .vmem S2048x512 .bf16) (harg3 : arg3.IsWhole) (arg4 : Memref sig .tc .vmem S1024x512 .bf16) (harg4 : arg4.IsWhole) (arg5 : Memref sig .tc .vmem S2048x1024 .f32) (harg5 : arg5.IsWhole) (arg6 : Memref sig .tc .vmem S2048x1024 .f32) (harg6 : arg6.IsWhole) (hc0 : isFirst i) (hc1 : ¬isLast i) (x0 : Vec F S2048x512 .bf16) (x1 : Vec F S1024x512 .bf16) (y : S2048x1024.Idx) :
    ∃ pc ∈ (runFirst c i arg3 harg3 arg4 harg4 arg5 harg5 arg6 harg6 hc0 hc1 x0 x1).2.1, y ∈ pc.1.set :=
  View.cover_of_tiledL (runFirst c i arg3 harg3 arg4 harg4 arg5 harg5 arg6 harg6 hc0 hc1 x0 x1).2.1 S2048x1024.size (by sl_kernel_rfl) y
/-- What a first point leaves in the accumulator. -/
def accFirst (c : Dev nD) (i : grid1.Coords) (arg3 : Memref sig .tc .vmem S2048x512 .bf16) (harg3 : arg3.IsWhole) (arg4 : Memref sig .tc .vmem S1024x512 .bf16) (harg4 : arg4.IsWhole) (arg5 : Memref sig .tc .vmem S2048x1024 .f32) (harg5 : arg5.IsWhole) (arg6 : Memref sig .tc .vmem S2048x1024 .f32) (harg6 : arg6.IsWhole) (hc0 : isFirst i) (hc1 : ¬isLast i) (x0 : Vec F S2048x512 .bf16) (x1 : Vec F S1024x512 .bf16) : Vec F S2048x1024 .f32 :=
  accView.read (Elt F) (accView.writes (Elt F) accView.junk (runFirst c i arg3 harg3 arg4 harg4 arg5 harg5 arg6 harg6 hc0 hc1 x0 x1).2.1)

/-- A middle point stores nothing into the output block: a placeholder nothing consults. -/
def outMid (c : Dev nD) (i : grid1.Coords) (arg3 : Memref sig .tc .vmem S2048x512 .bf16) (harg3 : arg3.IsWhole) (arg4 : Memref sig .tc .vmem S1024x512 .bf16) (harg4 : arg4.IsWhole) (arg5 : Memref sig .tc .vmem S2048x1024 .f32) (harg5 : arg5.IsWhole) (arg6 : Memref sig .tc .vmem S2048x1024 .f32) (harg6 : arg6.IsWhole) (hc0 : ¬isFirst i) (hc1 : ¬isLast i) (x0 : Vec F S2048x512 .bf16) (x1 : Vec F S1024x512 .bf16) (xs : Vec F S2048x1024 .f32) : Vec F S2048x1024 .f32 :=
  outView.read (Elt F) (outView.writes (Elt F) outView.junk (runMid c i arg3 harg3 arg4 harg4 arg5 harg5 arg6 harg6 hc0 hc1 x0 x1 xs).1)
theorem accCoverMid (c : Dev nD) (i : grid1.Coords) (arg3 : Memref sig .tc .vmem S2048x512 .bf16) (harg3 : arg3.IsWhole) (arg4 : Memref sig .tc .vmem S1024x512 .bf16) (harg4 : arg4.IsWhole) (arg5 : Memref sig .tc .vmem S2048x1024 .f32) (harg5 : arg5.IsWhole) (arg6 : Memref sig .tc .vmem S2048x1024 .f32) (harg6 : arg6.IsWhole) (hc0 : ¬isFirst i) (hc1 : ¬isLast i) (x0 : Vec F S2048x512 .bf16) (x1 : Vec F S1024x512 .bf16) (xs : Vec F S2048x1024 .f32) (y : S2048x1024.Idx) :
    ∃ pc ∈ (runMid c i arg3 harg3 arg4 harg4 arg5 harg5 arg6 harg6 hc0 hc1 x0 x1 xs).2.1, y ∈ pc.1.set :=
  View.cover_of_tiledL (runMid c i arg3 harg3 arg4 harg4 arg5 harg5 arg6 harg6 hc0 hc1 x0 x1 xs).2.1 S2048x1024.size (by sl_kernel_rfl) y
/-- What a middle point leaves in the accumulator, from what the point before left (`xs`). -/
def accMid (c : Dev nD) (i : grid1.Coords) (arg3 : Memref sig .tc .vmem S2048x512 .bf16) (harg3 : arg3.IsWhole) (arg4 : Memref sig .tc .vmem S1024x512 .bf16) (harg4 : arg4.IsWhole) (arg5 : Memref sig .tc .vmem S2048x1024 .f32) (harg5 : arg5.IsWhole) (arg6 : Memref sig .tc .vmem S2048x1024 .f32) (harg6 : arg6.IsWhole) (hc0 : ¬isFirst i) (hc1 : ¬isLast i) (x0 : Vec F S2048x512 .bf16) (x1 : Vec F S1024x512 .bf16) (xs : Vec F S2048x1024 .f32) : Vec F S2048x1024 .f32 :=
  accView.read (Elt F) (accView.writes (Elt F) accView.junk (runMid c i arg3 harg3 arg4 harg4 arg5 harg5 arg6 harg6 hc0 hc1 x0 x1 xs).2.1)

/-- A last point's store into the output block covers it. -/
theorem outCoverLast (c : Dev nD) (i : grid1.Coords) (arg3 : Memref sig .tc .vmem S2048x512 .bf16) (harg3 : arg3.IsWhole) (arg4 : Memref sig .tc .vmem S1024x512 .bf16) (harg4 : arg4.IsWhole) (arg5 : Memref sig .tc .vmem S2048x1024 .f32) (harg5 : arg5.IsWhole) (arg6 : Memref sig .tc .vmem S2048x1024 .f32) (harg6 : arg6.IsWhole) (hc0 : ¬isFirst i) (hc1 : isLast i) (x0 : Vec F S2048x512 .bf16) (x1 : Vec F S1024x512 .bf16) (xs : Vec F S2048x1024 .f32) (y : S2048x1024.Idx) :
    ∃ pc ∈ (runLast c i arg3 harg3 arg4 harg4 arg5 harg5 arg6 harg6 hc0 hc1 x0 x1 xs).1, y ∈ pc.1.set :=
  View.cover_of_tiledL (runLast c i arg3 harg3 arg4 harg4 arg5 harg5 arg6 harg6 hc0 hc1 x0 x1 xs).1 S2048x1024.size (by sl_kernel_rfl) y
/-- What a last point leaves in the output block's buffer. -/
def outLast (c : Dev nD) (i : grid1.Coords) (arg3 : Memref sig .tc .vmem S2048x512 .bf16) (harg3 : arg3.IsWhole) (arg4 : Memref sig .tc .vmem S1024x512 .bf16) (harg4 : arg4.IsWhole) (arg5 : Memref sig .tc .vmem S2048x1024 .f32) (harg5 : arg5.IsWhole) (arg6 : Memref sig .tc .vmem S2048x1024 .f32) (harg6 : arg6.IsWhole) (hc0 : ¬isFirst i) (hc1 : isLast i) (x0 : Vec F S2048x512 .bf16) (x1 : Vec F S1024x512 .bf16) (xs : Vec F S2048x1024 .f32) : Vec F S2048x1024 .f32 :=
  outView.read (Elt F) (outView.writes (Elt F) outView.junk (runLast c i arg3 harg3 arg4 harg4 arg5 harg5 arg6 harg6 hc0 hc1 x0 x1 xs).1)
theorem accCoverLast (c : Dev nD) (i : grid1.Coords) (arg3 : Memref sig .tc .vmem S2048x512 .bf16) (harg3 : arg3.IsWhole) (arg4 : Memref sig .tc .vmem S1024x512 .bf16) (harg4 : arg4.IsWhole) (arg5 : Memref sig .tc .vmem S2048x1024 .f32) (harg5 : arg5.IsWhole) (arg6 : Memref sig .tc .vmem S2048x1024 .f32) (harg6 : arg6.IsWhole) (hc0 : ¬isFirst i) (hc1 : isLast i) (x0 : Vec F S2048x512 .bf16) (x1 : Vec F S1024x512 .bf16) (xs : Vec F S2048x1024 .f32) (y : S2048x1024.Idx) :
    ∃ pc ∈ (runLast c i arg3 harg3 arg4 harg4 arg5 harg5 arg6 harg6 hc0 hc1 x0 x1 xs).2.1, y ∈ pc.1.set :=
  View.cover_of_tiledL (runLast c i arg3 harg3 arg4 harg4 arg5 harg5 arg6 harg6 hc0 hc1 x0 x1 xs).2.1 S2048x1024.size (by sl_kernel_rfl) y
/-- What a last point leaves in the accumulator. -/
def accLast (c : Dev nD) (i : grid1.Coords) (arg3 : Memref sig .tc .vmem S2048x512 .bf16) (harg3 : arg3.IsWhole) (arg4 : Memref sig .tc .vmem S1024x512 .bf16) (harg4 : arg4.IsWhole) (arg5 : Memref sig .tc .vmem S2048x1024 .f32) (harg5 : arg5.IsWhole) (arg6 : Memref sig .tc .vmem S2048x1024 .f32) (harg6 : arg6.IsWhole) (hc0 : ¬isFirst i) (hc1 : isLast i) (x0 : Vec F S2048x512 .bf16) (x1 : Vec F S1024x512 .bf16) (xs : Vec F S2048x1024 .f32) : Vec F S2048x1024 .f32 :=
  accView.read (Elt F) (accView.writes (Elt F) accView.junk (runLast c i arg3 harg3 arg4 harg4 arg5 harg5 arg6 harg6 hc0 hc1 x0 x1 xs).2.1)

/-! ## Point by point -/

/-- What the output block's buffer (first component) and the accumulator (second) hold after the body at position `n`:
    the case the closed forms select, run on the point's input blocks, a middle or last point over what the point
    before left in the accumulator. -/
def stateAt (c : Dev nD) : (n : ℕ) → n < cfg1.N → Vec F S2048x1024 .f32 × Vec F S2048x1024 .f32
  | 0, hn => (outFirst c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) accM (Memref.isWhole_whole _) ((isFirst_iff ⟨0, hn⟩).mpr (Nat.zero_mod _)) (fun h => (fun h => by (try dsimp only at h); omega) ((isLast_iff ⟨0, hn⟩).mp h)) (blk1 V c 0 ⟨0, hn⟩) (blk1 V c 1 ⟨0, hn⟩),
      accFirst c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) accM (Memref.isWhole_whole _) ((isFirst_iff ⟨0, hn⟩).mpr (Nat.zero_mod _)) (fun h => (fun h => by (try dsimp only at h); omega) ((isLast_iff ⟨0, hn⟩).mp h)) (blk1 V c 0 ⟨0, hn⟩) (blk1 V c 1 ⟨0, hn⟩))
  | n + 1, hn =>
    if h0 : (n + 1) % 11 = 0 then
      if h1 : (n + 1) % 11 = 10 then
        False.elim (by omega)
      else
        (outFirst c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) accM (Memref.isWhole_whole _) ((isFirst_iff ⟨n + 1, hn⟩).mpr h0) (fun h => h1 ((isLast_iff ⟨n + 1, hn⟩).mp h)) (blk1 V c 0 ⟨n + 1, hn⟩) (blk1 V c 1 ⟨n + 1, hn⟩),
          accFirst c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) accM (Memref.isWhole_whole _) ((isFirst_iff ⟨n + 1, hn⟩).mpr h0) (fun h => h1 ((isLast_iff ⟨n + 1, hn⟩).mp h)) (blk1 V c 0 ⟨n + 1, hn⟩) (blk1 V c 1 ⟨n + 1, hn⟩))
    else
      if h1 : (n + 1) % 11 = 10 then
        (outLast c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) accM (Memref.isWhole_whole _) (fun h => h0 ((isFirst_iff ⟨n + 1, hn⟩).mp h)) ((isLast_iff ⟨n + 1, hn⟩).mpr h1) (blk1 V c 0 ⟨n + 1, hn⟩) (blk1 V c 1 ⟨n + 1, hn⟩) (stateAt c n (Nat.lt_of_succ_lt hn)).2,
          accLast c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) accM (Memref.isWhole_whole _) (fun h => h0 ((isFirst_iff ⟨n + 1, hn⟩).mp h)) ((isLast_iff ⟨n + 1, hn⟩).mpr h1) (blk1 V c 0 ⟨n + 1, hn⟩) (blk1 V c 1 ⟨n + 1, hn⟩) (stateAt c n (Nat.lt_of_succ_lt hn)).2)
      else
        (outMid c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) accM (Memref.isWhole_whole _) (fun h => h0 ((isFirst_iff ⟨n + 1, hn⟩).mp h)) (fun h => h1 ((isLast_iff ⟨n + 1, hn⟩).mp h)) (blk1 V c 0 ⟨n + 1, hn⟩) (blk1 V c 1 ⟨n + 1, hn⟩) (stateAt c n (Nat.lt_of_succ_lt hn)).2,
          accMid c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) accM (Memref.isWhole_whole _) (fun h => h0 ((isFirst_iff ⟨n + 1, hn⟩).mp h)) (fun h => h1 ((isLast_iff ⟨n + 1, hn⟩).mp h)) (blk1 V c 0 ⟨n + 1, hn⟩) (blk1 V c 1 ⟨n + 1, hn⟩) (stateAt c n (Nat.lt_of_succ_lt hn)).2)

/-- At a first point. -/
theorem stateAt_first (c : Dev nD) (t : Fin cfg1.N) (h0 : t.val % 11 = 0) (h1 : ¬t.val % 11 = 10) :
    stateAt V c t.val t.isLt = (outFirst c (grid1.coords t) (ms1_0 t) (hs1_0 t) (ms1_1 t) (hs1_1 t) (ms1_2 t) (hs1_2 t) accM (Memref.isWhole_whole _) ((isFirst_iff t).mpr h0) (fun h => h1 ((isLast_iff t).mp h)) (blk1 V c 0 t) (blk1 V c 1 t),
      accFirst c (grid1.coords t) (ms1_0 t) (hs1_0 t) (ms1_1 t) (hs1_1 t) (ms1_2 t) (hs1_2 t) accM (Memref.isWhole_whole _) ((isFirst_iff t).mpr h0) (fun h => h1 ((isLast_iff t).mp h)) (blk1 V c 0 t) (blk1 V c 1 t)) := by
  obtain ⟨n, hn⟩ := t
  cases n with
  | zero => exact rfl
  | succ n => exact (dif_pos h0).trans ((dif_neg h1).trans rfl)

/-- At a middle point, over what the point before left. -/
theorem stateAt_mid (c : Dev nD) (t : Fin cfg1.N) (h0 : ¬t.val % 11 = 0) (h1 : ¬t.val % 11 = 10) :
    stateAt V c t.val t.isLt = (outMid c (grid1.coords t) (ms1_0 t) (hs1_0 t) (ms1_1 t) (hs1_1 t) (ms1_2 t) (hs1_2 t) accM (Memref.isWhole_whole _) (fun h => h0 ((isFirst_iff t).mp h)) (fun h => h1 ((isLast_iff t).mp h)) (blk1 V c 0 t) (blk1 V c 1 t) (stateAt V c (t.val - 1) (Nat.lt_of_le_of_lt (Nat.sub_le _ _) t.isLt)).2,
      accMid c (grid1.coords t) (ms1_0 t) (hs1_0 t) (ms1_1 t) (hs1_1 t) (ms1_2 t) (hs1_2 t) accM (Memref.isWhole_whole _) (fun h => h0 ((isFirst_iff t).mp h)) (fun h => h1 ((isLast_iff t).mp h)) (blk1 V c 0 t) (blk1 V c 1 t) (stateAt V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_neg h1).trans rfl)

/-- At a last point, over what the point before left. -/
theorem stateAt_last (c : Dev nD) (t : Fin cfg1.N) (h0 : ¬t.val % 11 = 0) (h1 : t.val % 11 = 10) :
    stateAt V c t.val t.isLt = (outLast c (grid1.coords t) (ms1_0 t) (hs1_0 t) (ms1_1 t) (hs1_1 t) (ms1_2 t) (hs1_2 t) accM (Memref.isWhole_whole _) (fun h => h0 ((isFirst_iff t).mp h)) ((isLast_iff t).mpr h1) (blk1 V c 0 t) (blk1 V c 1 t) (stateAt V c (t.val - 1) (Nat.lt_of_le_of_lt (Nat.sub_le _ _) t.isLt)).2,
      accLast c (grid1.coords t) (ms1_0 t) (hs1_0 t) (ms1_1 t) (hs1_1 t) (ms1_2 t) (hs1_2 t) accM (Memref.isWhole_whole _) (fun h => h0 ((isFirst_iff t).mp h)) ((isLast_iff t).mpr h1) (blk1 V c 0 t) (blk1 V c 1 t) (stateAt V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_pos h1).trans rfl)

/-- The region's invariant before position `n`: before the first point everything the region keeps is at anything;
    afterwards the accumulator is at what the point before left in it, the eight buffers the region does not use at
    anything, the generator register at some state. -/
def keeps (c : Dev nD) : (n : ℕ) → n ≤ cfg1.N → sProp 𝕄
  | 0, _ => Pipeline.ΦA spec1 c
  | n + 1, hn => iprop(iprop(idleBuf c cc0_stg0_0 ∗ idleBuf c cc0_stg0_1 ∗ idleBuf c cc0_stg1_0 ∗ idleBuf c cc0_stg1_1 ∗ idleBuf c cc0_stg2_0 ∗ idleBuf c cc0_stg2_1 ∗ idleBuf c cc0_stg3_0 ∗ idleBuf c cc0_stg3_1 ∗ owns (c : Thread nD τ) accM fullShare ((stateAt V c n hn).2)) ∗ (∃ r, prngReg c r))

theorem keeps_zero (c : Dev nD) (n : ℕ) (h : n ≤ cfg1.N) (hz : n = 0) : keeps V c n h = Pipeline.ΦA spec1 c := by
  subst hz; rfl

theorem keeps_succ (c : Dev nD) (n : ℕ) (hn : n < cfg1.N) :
    keeps V c (n + 1) hn = iprop(iprop(idleBuf c cc0_stg0_0 ∗ idleBuf c cc0_stg0_1 ∗ idleBuf c cc0_stg1_0 ∗ idleBuf c cc0_stg1_1 ∗ idleBuf c cc0_stg2_0 ∗ idleBuf c cc0_stg2_1 ∗ idleBuf c cc0_stg3_0 ∗ idleBuf c cc0_stg3_1 ∗ owns (c : Thread nD τ) accM fullShare ((stateAt V c n hn).2)) ∗ (∃ r, prngReg c r)) := rfl

theorem keeps_pos (c : Dev nD) (n : ℕ) (h : n ≤ cfg1.N) (hz : n ≠ 0) :
    keeps V c n h = iprop(iprop(idleBuf c cc0_stg0_0 ∗ idleBuf c cc0_stg0_1 ∗ idleBuf c cc0_stg1_0 ∗ idleBuf c cc0_stg1_1 ∗ idleBuf c cc0_stg2_0 ∗ idleBuf c cc0_stg2_1 ∗ idleBuf c cc0_stg3_0 ∗ idleBuf c cc0_stg3_1 ∗ owns (c : Thread nD τ) accM fullShare ((stateAt V c (n - 1) (by omega)).2)) ∗ (∃ r, prngReg c r)) := by
  cases n with
  | zero => exact absurd rfl hz
  | succ n => rfl

/-! ## The region's description -/

/-- On core `c`: the arrays as the region finds them; after the body at point `t` each input's buffer at its block
    and the output block's at `stateAt`'s first component; the invariant above; nothing owed; full shares. -/
def dat1 (c : Dev nD) : Dat τ (Elt F) Unit ℕ (UR sig nD τ) ℕ cfg1 c where
  A w := V c (Pipeline.arrRef spec1 w)
  after w t := match w with
    | ⟨0, _⟩ => blk1 V c 0 t
    | ⟨1, _⟩ => blk1 V c 1 t
    | ⟨2, _⟩ => (stateAt V c t.val t.isLt).1
  Φ t := keeps V c t.val (Nat.le_of_lt_succ t.isLt)
  q _ := fullShare
  owed _ := 0

theorem A_eq1 (c : Dev nD) (w : Fin cfg1.W) : (dat1 V c).A w = V c (Pipeline.arrRef spec1 w) := by
  dsimp only [dat1]

theorem keeps_castSucc (c : Dev nD) (t : Fin cfg1.N) :
    (dat1 V c).Φ t.castSucc = keeps V c t.val (Nat.le_of_lt t.isLt) := by
  dsimp only [dat1]; simp only [Fin.coe_castSucc]

theorem after1_0 (c : Dev nD) (t : Fin cfg1.N) : (dat1 V c).after 0 t = blk1 V c 0 t := by dsimp only [dat1]
theorem after1_1 (c : Dev nD) (t : Fin cfg1.N) : (dat1 V c).after 1 t = blk1 V c 1 t := by dsimp only [dat1]
theorem after1_2 (c : Dev nD) (t : Fin cfg1.N) : (dat1 V c).after 2 t = (stateAt V c t.val t.isLt).1 := by dsimp only [dat1]

theorem before1_0 (c : Dev nD) (t : Fin cfg1.N) (d) : (dat1 V c).before 0 t d = blk1 V c 0 t :=
  before1_0_of V (dat1 V c) (A_eq1 V c 0) (after1_0 V c) t d
theorem before1_1 (c : Dev nD) (t : Fin cfg1.N) (d) : (dat1 V c).before 1 t d = blk1 V c 1 t :=
  before1_1_of V (dat1 V c) (A_eq1 V c 1) (after1_1 V c) t d

/-! ## The body obligation, at a generic point -/

def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d)))

def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t)

set_option maxHeartbeats 4800000 in
/-- The body at any point: the inputs' buffers hold their blocks; the closed forms say which case the point is in;
    the invariant hands the body the accumulator at what the point before left (at anything at the very first point)
    and takes it back at this point's value; the core owes nothing throughout. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1]
  rw [show (dat1 V c).owesAt () t.succ = (dat1 V c).owesAt () t.castSucc from rfl]
  rw [show (dat1 V c).Φ t.succ = keeps V c (t.val + 1) t.isLt from rfl, keeps_succ]
  have hN : t.val < 88 := lt_of_lt_of_eq t.isLt (show cfg1.N = 88 from N_1)
  rw [show (dat1 V c).leavesExact 0 t = owns (c : Thread nD τ) (ms1_0 t) fullShare ((dat1 V c).after 0 t) from by
    unfold Dat.leavesExact; rw [live1_0 t], after1_0]
  rw [show (dat1 V c).leavesExact 1 t = owns (c : Thread nD τ) (ms1_1 t) fullShare ((dat1 V c).after 1 t) from by
    unfold Dat.leavesExact; rw [live1_1 t], after1_1]
  by_cases h0 : t.val % 11 = 0
  · by_cases h1 : t.val % 11 = 10
    · exfalso; omega
    · rw [Dat.leavesExact_idle (dat1 V c) 2 t (idle1_2_first t ((isFirst_iff t).mpr h0) (fun h => h1 ((isLast_iff t).mp h))) (noFlush1_2_first t ((isFirst_iff t).mpr h0) (fun h => h1 ((isLast_iff t).mp h)))]
      rw [stateAt_first V c t h0 h1]
      unfold accFirst; (try dsimp only)
      by_cases hz : t.val = 0
      · rw [keeps_castSucc V c t, keeps_zero V c _ _ hz, keepsPlain]
        iintro ⟨⟨⟨B0, B1, B2, B3, B4, B5, B6, B7, HS⟩, Hg⟩, Ho, ⟨%d0, H0⟩, ⟨%d1, H1⟩, ⟨%d2, H2⟩⟩
        iapply ((runFirst c (grid1.coords t) _ _ _ _ _ _ _ _ ((isFirst_iff t).mpr h0) (fun h => h1 ((isLast_iff t).mp h)) (blk1 V c 0 t) (blk1 V c 1 t)).2.2 _ Set.univ _)
        isplitl [H0]; · iexact H0
        isplitl [H1]; · iexact H1
        isplitl [H2]; · iexact H2
        isplitl [HS]; · iexact HS
        iintro ⟨H0, H1, H2, ⟨%es, HS⟩⟩
        isplitl [B0 B1 B2 B3 B4 B5 B6 B7 HS Hg]
        · isplitr [Hg]
          isplitl [B0]; · iexact B0
          isplitl [B1]; · iexact B1
          isplitl [B2]; · iexact B2
          isplitl [B3]; · iexact B3
          isplitl [B4]; · iexact B4
          isplitl [B5]; · iexact B5
          isplitl [B6]; · iexact B6
          isplitl [B7]; · iexact B7
          · unfold owns; iexists _; isplitr
            swap; · iexact HS
            ipureintro; exact View.read_writes_of_cover _ _ _ _ _ (accCoverFirst c _ _ _ _ _ _ _ _ _ _ _ _ _)
          iexact Hg
        isplitl [Ho]; · iexact Ho
        isplitl [H0]; · iexact H0
        isplitl [H1]; · iexact H1
        iexists _; iexact H2
      · rw [keeps_castSucc V c t, keeps_pos V c _ _ hz]
        iintro ⟨⟨⟨B0, B1, B2, B3, B4, B5, B6, B7, HS⟩, Hg⟩, Ho, ⟨%d0, H0⟩, ⟨%d1, H1⟩, ⟨%d2, H2⟩⟩
        iapply ((runFirst c (grid1.coords t) _ _ _ _ _ _ _ _ ((isFirst_iff t).mpr h0) (fun h => h1 ((isLast_iff t).mp h)) (blk1 V c 0 t) (blk1 V c 1 t)).2.2 _ Set.univ _)
        isplitl [H0]; · iexact H0
        isplitl [H1]; · iexact H1
        isplitl [H2]; · iexact H2
        isplitl [HS]; · iexists _; iexact HS
        iintro ⟨H0, H1, H2, ⟨%es, HS⟩⟩
        isplitl [B0 B1 B2 B3 B4 B5 B6 B7 HS Hg]
        · isplitr [Hg]
          isplitl [B0]; · iexact B0
          isplitl [B1]; · iexact B1
          isplitl [B2]; · iexact B2
          isplitl [B3]; · iexact B3
          isplitl [B4]; · iexact B4
          isplitl [B5]; · iexact B5
          isplitl [B6]; · iexact B6
          isplitl [B7]; · iexact B7
          · unfold owns; iexists _; isplitr
            swap; · iexact HS
            ipureintro; exact View.read_writes_of_cover _ _ _ _ _ (accCoverFirst c _ _ _ _ _ _ _ _ _ _ _ _ _)
          iexact Hg
        isplitl [Ho]; · iexact Ho
        isplitl [H0]; · iexact H0
        isplitl [H1]; · iexact H1
        iexists _; iexact H2
  · have hz : t.val ≠ 0 := fun h => h0 (by rw [h])
    by_cases h1 : t.val % 11 = 10
    · rw [show (dat1 V c).leavesExact 2 t = owns (c : Thread nD τ) (ms1_2 t) fullShare ((dat1 V c).after 2 t) from by
        unfold Dat.leavesExact; rw [live1_2_last t (fun h => h0 ((isFirst_iff t).mp h)) ((isLast_iff t).mpr h1)], after1_2]
      rw [stateAt_last V c t h0 h1]
      unfold outLast accLast; (try dsimp only)
      rw [keeps_castSucc V c t, keeps_pos V c _ _ hz]
      iintro ⟨⟨⟨B0, B1, B2, B3, B4, B5, B6, B7, HS⟩, Hg⟩, Ho, ⟨%d0, H0⟩, ⟨%d1, H1⟩, ⟨%d2, H2⟩⟩
      iapply ((runLast c (grid1.coords t) _ _ _ _ _ _ _ _ (fun h => h0 ((isFirst_iff t).mp h)) ((isLast_iff t).mpr h1) (blk1 V c 0 t) (blk1 V c 1 t) _).2.2 Set.univ _)
      isplitl [H0]; · iexact H0
      isplitl [H1]; · iexact H1
      isplitl [H2]; · iexists _; iexact H2
      isplitl [HS]; · iexact HS
      iintro ⟨H0, H1, ⟨%e2, H2⟩, ⟨%es, HS⟩⟩
      isplitl [B0 B1 B2 B3 B4 B5 B6 B7 HS Hg]
      · isplitr [Hg]
        isplitl [B0]; · iexact B0
        isplitl [B1]; · iexact B1
        isplitl [B2]; · iexact B2
        isplitl [B3]; · iexact B3
        isplitl [B4]; · iexact B4
        isplitl [B5]; · iexact B5
        isplitl [B6]; · iexact B6
        isplitl [B7]; · iexact B7
        · unfold owns; iexists _; isplitr
          swap; · iexact HS
          ipureintro; exact View.read_writes_of_cover _ _ _ _ _ (accCoverLast c _ _ _ _ _ _ _ _ _ _ _ _ _ _)
        iexact Hg
      isplitl [Ho]; · iexact Ho
      isplitl [H0]; · iexact H0
      isplitl [H1]; · iexact H1
      unfold owns; iexists _; isplitr
      swap; · iexact H2
      ipureintro; exact View.read_writes_of_cover _ _ _ _ _ (outCoverLast c _ _ _ _ _ _ _ _ _ _ _ _ _ _)
    · rw [Dat.leavesExact_idle (dat1 V c) 2 t (idle1_2_mid t (fun h => h0 ((isFirst_iff t).mp h)) (fun h => h1 ((isLast_iff t).mp h))) (noFlush1_2_mid t (fun h => h0 ((isFirst_iff t).mp h)) (fun h => h1 ((isLast_iff t).mp h)))]
      rw [stateAt_mid V c t h0 h1]
      unfold accMid; (try dsimp only)
      rw [keeps_castSucc V c t, keeps_pos V c _ _ hz]
      iintro ⟨⟨⟨B0, B1, B2, B3, B4, B5, B6, B7, HS⟩, Hg⟩, Ho, ⟨%d0, H0⟩, ⟨%d1, H1⟩, ⟨%d2, H2⟩⟩
      iapply ((runMid c (grid1.coords t) _ _ _ _ _ _ _ _ (fun h => h0 ((isFirst_iff t).mp h)) (fun h => h1 ((isLast_iff t).mp h)) (blk1 V c 0 t) (blk1 V c 1 t) _).2.2 _ Set.univ _)
      isplitl [H0]; · iexact H0
      isplitl [H1]; · iexact H1
      isplitl [H2]; · iexact H2
      isplitl [HS]; · iexact HS
      iintro ⟨H0, H1, H2, ⟨%es, HS⟩⟩
      isplitl [B0 B1 B2 B3 B4 B5 B6 B7 HS Hg]
      · isplitr [Hg]
        isplitl [B0]; · iexact B0
        isplitl [B1]; · iexact B1
        isplitl [B2]; · iexact B2
        isplitl [B3]; · iexact B3
        isplitl [B4]; · iexact B4
        isplitl [B5]; · iexact B5
        isplitl [B6]; · iexact B6
        isplitl [B7]; · iexact B7
        · unfold owns; iexists _; isplitr
          swap; · iexact HS
          ipureintro; exact View.read_writes_of_cover _ _ _ _ _ (accCoverMid c _ _ _ _ _ _ _ _ _ _ _ _ _ _)
        iexact Hg
      isplitl [Ho]; · iexact Ho
      isplitl [H0]; · iexact H0
      isplitl [H1]; · iexact H1
      iexists _; iexact H2

/-- The body obligation of the second region, at every point. -/
theorem body_obligation1 (c : Dev nD) : BodyObligation (dat1 (F := F) V c) (defs₀ (F := F)) Variants.none () Set.univ := fun t => by
  rw [bigSep_W1, bigSep_W1]
  exact sound_body1 V c t

/-- What the region is entered with is the invariant before the first point. -/
theorem keeps_in (c : Dev nD) : Pipeline.ΦA spec1 c ⊢ (dat1 V c).Φ 0 := by
  rw [show (dat1 V c).Φ 0 = keeps V c 0 (Nat.zero_le _) from rfl, keeps_zero V c 0 _ rfl]
  try exact Idealize.SL.BI.Entails.refl _

/-- After any point but none, the invariant gives the plain form back: the accumulator's value is forgotten. -/
theorem keeps_forget (c : Dev nD) (t : Fin (cfg1.N + 1)) (ht : t.val ≠ 0) : (dat1 V c).Φ t ⊢ Pipeline.ΦA spec1 c := by
  rw [show (dat1 V c).Φ t = keeps V c t.val (Nat.le_of_lt_succ t.isLt) from rfl, keeps_pos V c _ _ ht, keepsPlain]
  iintro ⟨⟨B0, B1, B2, B3, B4, B5, B6, B7, HS⟩, Hg⟩
  isplitr [Hg]
  · isplitl [B0]; · iexact B0
    isplitl [B1]; · iexact B1
    isplitl [B2]; · iexact B2
    isplitl [B3]; · iexact B3
    isplitl [B4]; · iexact B4
    isplitl [B5]; · iexact B5
    isplitl [B6]; · iexact B6
    isplitl [B7]; · iexact B7
    iexists _; iexact HS
  iexact Hg

/-- The same after the last point. -/
theorem keeps_out (c : Dev nD) : (dat1 V c).Φ (Fin.last cfg1.N) ⊢ Pipeline.ΦA spec1 c :=
  keeps_forget V c _ (by rw [Fin.val_last]; have : cfg1.N = 88 := N_1; omega)

end Region1

end Cert.Kernel.Hand

end
-- ==== Proof.KB.Run.lean ====
/-
  The whole program's run: nineteen host operations (the block-wise rescaling of the three weight matrices and the
  format changes), then the two kernel regions one after the other.
  Between the items a core holds every unscoped buffer whole at named contents: the launch memory; then that after the
  host operations; then the same with the activations array at what the first region's write-backs leave; then the same
  with the result array at what the second region's write-backs leave. Each region is entered from one such state and
  left at the next; the launch makes the first state and the last one is read against the final memory. The conclusion
  names every unscoped buffer's final contents — in particular the arguments, which no item writes, and the result.
-/
import proofs.«125092_j13889924235944_2_alg».proof.Proof.KB.R0
import proofs.«125092_j13889924235944_2_alg».proof.Proof.KB.R1
import proofs.«125092_j13889924235944_2_alg».proof.Proof.Gen.Kernel.Regions

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffers' contents between the items -/

/-- Core `c`'s buffers at launch. -/
abbrev W0 : Dev nD → Valuation τ sig (Elt F) := fun c b => m (c, b)
/-- After the host operations (the first region's entry). -/
abbrev W1 : Dev nD → Valuation τ sig (Elt F) := fun c => StableHlo.after hostOps0 (W0 m c)
abbrev V1 : (c : Dev nD) → (b : Ref sig .tc) → Buf (Elt F) ((c : Thread nD τ).loc b) := fun c b => W1 m c b
/-- At the first region's exit: the activations array at what the write-backs leave, every other buffer as entered. -/
def W2 (c : Dev nD) : Valuation τ sig (Elt F) :=
  Pipeline.withArrays spec0 c (W1 m c) fun w => (dat0 (V1 m) c).arrAt w cfg0.N
theorem W2_arr (c : Dev nD) (w : Fin cfg0.W) :
    W2 m c (Proc.devRef .tc (Pipeline.arrRef spec0 w)) = (dat0 (V1 m) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m c (Proc.devRef .tc b) = W1 m c (Proc.devRef .tc b) := by
  unfold W2; exact Pipeline.withArrays_of_ne spec0 c _ _ b hb
abbrev V2 : (c : Dev nD) → (b : Ref sig .tc) → Buf (Elt F) ((c : Thread nD τ).loc b) := fun c b => W2 m c b
theorem exit0 (c : Dev nD) (w : Fin cfg0.W) : (dat0 (V1 m) c).arrAt w cfg0.N = V2 m c (Pipeline.arrRef spec0 w) :=
  (W2_arr m c w).symm
theorem rest0 (c : Dev nD) : ∀ b, b ∉ Finset.univ.image (Pipeline.arrRef spec0) → V2 m c b = V1 m c b :=
  fun b hb => W2_of_ne m c b fun w e => hb (Finset.mem_image.mpr ⟨w, Finset.mem_univ _, e⟩)

/-- At the second region's exit: the result array at what the write-backs leave, every other buffer as entered. -/
def W3 (c : Dev nD) : Valuation τ sig (Elt F) :=
  Pipeline.withArrays spec1 c (W2 m c) fun w => (dat1 (V2 m) c).arrAt w cfg1.N
theorem W3_arr (c : Dev nD) (w : Fin cfg1.W) :
    W3 m c (Proc.devRef .tc (Pipeline.arrRef spec1 w)) = (dat1 (V2 m) c).arrAt w cfg1.N := by
  unfold W3; exact Pipeline.withArrays_arr spec1 launch1.win.arr_inj c _ _ w
theorem W3_of_ne (c : Dev nD) (b : Ref sig .tc) (hb : ∀ w, Pipeline.arrRef spec1 w ≠ b) :
    W3 m c (Proc.devRef .tc b) = W2 m c (Proc.devRef .tc b) := by
  unfold W3; exact Pipeline.withArrays_of_ne spec1 c _ _ b hb
abbrev V3 : (c : Dev nD) → (b : Ref sig .tc) → Buf (Elt F) ((c : Thread nD τ).loc b) := fun c b => W3 m c b
theorem exit1 (c : Dev nD) (w : Fin cfg1.W) : (dat1 (V2 m) c).arrAt w cfg1.N = V3 m c (Pipeline.arrRef spec1 w) :=
  (W3_arr m c w).symm
theorem rest1 (c : Dev nD) : ∀ b, b ∉ Finset.univ.image (Pipeline.arrRef spec1) → V3 m c b = V2 m c b :=
  fun b hb => W3_of_ne m c b fun w e => hb (Finset.mem_image.mpr ⟨w, Finset.mem_univ _, e⟩)

/-- An argument array reaches the end as launched: it is no array of either region's windows and no host operation
    writes it. -/
theorem W3_arg (c : Dev nD) (b : Ref sig .tc) (h1 : ∀ w, Pipeline.arrRef spec1 w ≠ b) (h0 : ∀ w, Pipeline.arrRef spec0 w ≠ b)
    (hw : b ∉ hostOps0_W) : W3 m c (Proc.devRef .tc b) = m ((c : Thread nD τ).loc b) :=
  (W3_of_ne m c b h1).trans ((W2_of_ne m c b h0).trans (Gen.V1_of m c b hw))

/-! ## The regions' descriptions together, and what rides beside the buffers -/

abbrev adm : (p : Fin 2) → (pcfgs (F := F) p).Adm := fun p => (cfgs p).toPCfg_adm
/-- Both regions' descriptions, each at its region's entry contents. -/
def pdats : (p : Fin 2) → (c : Dev nD) → Dat τ (Elt F) Unit ℕ (UR sig nD τ) ℕ (Pipeline.pin (pcfgs (F := F)) adm p) c
  | ⟨0, _⟩ => fun c => dat0 (V1 m) c
  | ⟨1, _⟩ => fun c => dat1 (V2 m) c
abbrev 𝒱₀ : Variants := Variants.none
abbrev L : GSem nD τ sig → Finset Unit := fun _ => ∅
abbrev lv : GSem nD τ sig → Unit → ℕ := fun _ _ => 0
/-- Beside the buffers through every item: the generator register at some state, and the core owing nothing. -/
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last state without what the core owes. -/
abbrev Tₙ (c : Dev nD) : sProp 𝕄 := iprop(StableHlo.held (c : Thread nD τ) (Pipeline.ucRefs τ sig) (W3 m c) ∗ ∃ r, prngReg c r)

/-! ## The regions as items -/

set_option backward.isDefEq.respectTransparency.types false in
/-- The first region: entered with every unscoped buffer at `W1`, left with them at `W2`. Its four arrays are split
    out of the unscoped buffers and put back at their exit contents; the generator register goes into the region and
    comes back; nothing is owed; the kernel has no semaphore of its own. -/
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m) c).loose
  hwaits := Pipeline.hwaits_of_owed_zero _ _ _ _ L lv 0 fun _ _ => rfl
  pre c := iprop(StableHlo.held (c : Thread nD τ) (Pipeline.ucRefs τ sig) (W1 m c) ∗ R c)
  post c := iprop(StableHlo.held (c : Thread nD τ) (Pipeline.ucRefs τ sig) (W2 m c) ∗ R c)
  X c := iprop(∃ r, prngReg c r)
  Y c := iprop(∃ r, prngReg c r)
  Z c := Pipeline.unscopedRest (Ix := Unit) (Name := ℕ) (U := UR sig nD τ) (Lvl := ℕ) spec0 c (V1 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (V1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (V1 m c) (V2 m c) ((pdats m 0 c).arrAt · cfg0.N) (exit0 m c) (rest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- The second region: entered with every unscoped buffer at `W2`, left with them at `W3`. As the first, except
    that its invariant names the accumulator's contents from one point to the next; at the two ends it is the plain one. -/
def reg1 : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V2 m) c).loose
  hwaits := Pipeline.hwaits_of_owed_zero _ _ _ _ L lv 1 fun _ _ => rfl
  pre c := iprop(StableHlo.held (c : Thread nD τ) (Pipeline.ucRefs τ sig) (W2 m c) ∗ R c)
  post c := iprop(Tₙ m c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (V2 m c)
  hentry c := by
    rw [Pipeline.ownSems0_none]
    have hsplit := Pipeline.arrays_of_unscopedBufs (p := 1) (pcfgs (F := F)) adm (pdats m) launch1.win launch1.arr_whole c
      ((pdats m 1 c).share_full fun _ => rfl) (V2 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none]
    exact (keeps_out (V2 m) c).trans (by
      unfold Pipeline.ΦA
      iintro ⟨Hr, Hp⟩
      isplitl [Hp]; · iexact Hp
      isplitr; · iempintro
      iexact Hr)
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (V2 m c) (V3 m c) ((pdats m 1 c).arrAt · cfg1.N) (exit1 m c) (rest1 m c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## The program as items, and the launch -/

abbrev segs : List (Pipeline.Seg (pcfgs (F := F)) adm (pdats m) () defs₀ 𝒱₀ L lv) :=
  [ .host (hseg hostOps0 hostOps0_sub Gen.hostOps0_fresh (W0 m)),
    .region (reg0 m),
    .region (reg1 m) ]
theorem main_run (c : Dev nD) : main (F := F) c = Pipeline.Seg.run (segs m) := (main_chain c).trans (by chain_rfl)

set_option backward.isDefEq.respectTransparency.types false in
/-- From any memory with zero counters, every weakly fair execution of the program on the TensorCores terminates,
    nothing faulting, and in every final state each unscoped buffer holds the last state's contents `W3`. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W3 m c b) :=
  Pipeline.θ_run_regions_kit (pcfgs (F := F)) adm (pdats m) () cellOf_inj emb₁ defs₀ 𝒱₀ L lv m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c)) (Tₙ := Tₙ m)
    (hch := ⟨fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W3 m c b)
    (hfin := fun c s' => by
      iintro ⟨⟨Hh, -⟩, HSI⟩
      unfold StableHlo.held
      imodintro
      iapply (pointsTo_read_all (Pipeline.ucRefs τ sig) (fun b => (((c : Thread nD τ)).1, b)) (W3 m c) s')
      isplitl [Hh] <;> iassumption)
    (hQ := fun s h c => h c)

/-- The program's run with the result array named and the arguments unchanged. -/
theorem run_result : θ_run defs (onTc (τ := τ) (main (F := F))) ⟨m, fun _ => 0, ρ⟩ (fun r => ∀ c : Dev nD,
      r.2.mem ((c.tc : Thread nD τ).loc main_v0) = (dat1 (V2 m) c).arrAt 2 cfg1.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun _ h c =>
    ⟨(h c _ (mem_uc main_v0 (by decide))).trans (W3_arr m c 2),
     (h c _ (mem_uc main_arg0 (by decide))).trans (W3_arg m c main_arg0 (by decide) (by decide) (by decide)),
     (h c _ (mem_uc main_arg1 (by decide))).trans (W3_arg m c main_arg1 (by decide) (by decide) (by decide)),
     (h c _ (mem_uc main_arg2 (by decide))).trans (W3_arg m c main_arg2 (by decide) (by decide) (by decide)),
     (h c _ (mem_uc main_arg3 (by decide))).trans (W3_arg m c main_arg3 (by decide) (by decide) (by decide)),
     (h c _ (mem_uc main_arg4 (by decide))).trans (W3_arg m c main_arg4 (by decide) (by decide) (by decide)),
     (h c _ (mem_uc main_arg5 (by decide))).trans (W3_arg m c main_arg5 (by decide) (by decide) (by decide)),
     (h c _ (mem_uc main_arg6 (by decide))).trans (W3_arg m c main_arg6 (by decide) (by decide) (by decide))⟩)
    (run_all m ρ)

/-- The frame: the program runs and its argument arrays end unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun _ h c => (h c).2) (run_result m ρ)

end Cert.Kernel.Hand

end
-- ==== Proof.KI.R0.lean ====
/-
  The first kernel region (gate and up projections with the gated activation) at a generic grid point.
  A grid point (i, j) of the 4 × 22 grid reads rows 2048·i … 2048·i + 2047 of the tokens, rows 256·j … 256·j + 255 of
  each of the two rescaled projection matrices, and writes the [2048, 256] block (i, j) of the activations: one store
  of one value computed from the three loaded blocks. Stated here, for any float instance and for any contents `V` of
  the buffers when the region is entered: what the body leaves in the output block's buffer, the body's triple, the
  data describing the region point by point, and the obligation that the body meets that description at every point.
-/
import proofs.«125092_j13889924235944_2_alg».proof.Proof.Gen.KernelIdeal.Launch
import proofs.«125092_j13889924235944_2_alg».proof.Proof.Gen.KernelIdeal.Skeleton
import proofs.«125092_j13889924235944_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region0

variable (V : (c : Dev nD) → (b : Ref sig .tc) → Buf (Elt F) ((c : Thread nD τ).loc b))

/-- Window `w`'s block at grid point `t`, read off the window's array as the region finds it. -/
def blk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- An input window's current buffer holds its block at every point, whether the point fetched it or an earlier one
    did and the block index has not moved since: the token rows. -/
theorem before0_0_of {c : Dev nD} (dat : Dat τ (Elt F) Unit ℕ (UR sig nD τ) ℕ cfg0 c) (hA : dat.A 0 = V c (Pipeline.arrRef spec0 0))
    (hafter : ∀ t, dat.after 0 t = blk0 V c 0 t) (t : Fin cfg0.N) (d) : dat.before 0 t d = blk0 V c 0 t :=
  (dat.before_in_eq_fetched 0 rfl (fun _ => rfl) (fun _ _ _ => rfl) (fun t => by rw [hafter]; unfold Dat.blockOf blk0; rw [hA]; try rfl) t d).trans
    (by unfold Dat.fetched Dat.blockOf blk0; rw [hA]; try rfl)
/-- The same for the rows of the first projection matrix. -/
theorem before0_1_of {c : Dev nD} (dat : Dat τ (Elt F) Unit ℕ (UR sig nD τ) ℕ cfg0 c) (hA : dat.A 1 = V c (Pipeline.arrRef spec0 1))
    (hafter : ∀ t, dat.after 1 t = blk0 V c 1 t) (t : Fin cfg0.N) (d) : dat.before 1 t d = blk0 V c 1 t :=
  (dat.before_in_eq_fetched 1 rfl (fun _ => rfl) (fun _ _ _ => rfl) (fun t => by rw [hafter]; unfold Dat.blockOf blk0; rw [hA]; try rfl) t d).trans
    (by unfold Dat.fetched Dat.blockOf blk0; rw [hA]; try rfl)
/-- The same for the rows of the second projection matrix. -/
theorem before0_2_of {c : Dev nD} (dat : Dat τ (Elt F) Unit ℕ (UR sig nD τ) ℕ cfg0 c) (hA : dat.A 2 = V c (Pipeline.arrRef spec0 2))
    (hafter : ∀ t, dat.after 2 t = blk0 V c 2 t) (t : Fin cfg0.N) (d) : dat.before 2 t d = blk0 V c 2 t :=
  (dat.before_in_eq_fetched 2 rfl (fun _ => rfl) (fun _ _ _ => rfl) (fun t => by rw [hafter]; unfold Dat.blockOf blk0; rw [hA]; try rfl) t d).trans
    (by unfold Dat.fetched Dat.blockOf blk0; rw [hA]; try rfl)

/-- The whole-block rectangles the body loads and stores through. -/
abbrev rTok : Rect S2048x2048 := Rect.unit (s := S2048x2048) ![0, 0] S2048x2048.size inb_S2048x2048_S2048x2048_0_0
abbrev rWt : Rect S256x2048 := Rect.unit (s := S256x2048) ![0, 0] S256x2048.size inb_S256x2048_S256x2048_0_0
abbrev rAct : Rect S2048x256 := Rect.unit (s := S2048x256) ![0, 0] S2048x256.size inb_S2048x256_S2048x256_0_0

/-- What the body leaves in the activation block's buffer, from the three input blocks: its one store. -/
def actOut (x0 : Vec F S2048x2048 .bf16) (x1 x2 : Vec F S256x2048 .bf16) : Vec F S2048x256 .bf16 :=
  View.canon [⟨rAct, k0_pay1 (View.ld x0 rTok) (View.ld x1 rWt) (View.ld x2 rWt)⟩]

/-- The one store is of the whole block, so it covers it. -/
theorem actCover (p0 : Vec F S2048x256 .bf16) (y : S2048x256.Idx) :
    ∃ pc ∈ ([⟨rAct, p0⟩] : List (View.Piece (Elt F) S2048x256 .bf16)), y ∈ pc.1.set :=
  View.cover_of_tiled [⟨rAct, p0⟩] S2048x256.size (by rfl) y

set_option maxHeartbeats 1000000 in
/-- The body on whole buffers, the inputs' at contents `x0 x1 x2` and the output's at anything, runs to the continuation
    holding the inputs' as they were and the output's at `actOut` of them. -/
theorem sound_kernel0 (c : Dev nD) (E : Set ℕ) (i : grid0.Coords) (arg2 : Memref sig .tc .vmem S2048x2048 .bf16) (harg2 : arg2.IsWhole)
    (arg3 : Memref sig .tc .vmem S256x2048 .bf16) (harg3 : arg3.IsWhole) (arg4 : Memref sig .tc .vmem S256x2048 .bf16) (harg4 : arg4.IsWhole)
    (arg5 : Memref sig .tc .vmem S2048x256 .bf16) (harg5 : arg5.IsWhole)
    (x0 : Vec F S2048x2048 .bf16) (x1 x2 : Vec F S256x2048 .bf16) (K : PUnit → sProp 𝕄) :
    iprop(owns (c : Thread nD τ) arg2 fullShare x0 ∗ owns (c : Thread nD τ) arg3 fullShare x1 ∗ owns (c : Thread nD τ) arg4 fullShare x2
        ∗ (∃ d, owns (c : Thread nD τ) arg5 fullShare d)
        ∗ (iprop(owns (c : Thread nD τ) arg2 fullShare x0 ∗ owns (c : Thread nD τ) arg3 fullShare x1 ∗ owns (c : Thread nD τ) arg4 fullShare x2
            ∗ owns (c : Thread nD τ) arg5 fullShare (actOut x0 x1 x2)) -∗ K ⟨⟩))
      ⊢ wp frame (wpE (defs₀ (F := F)) Variants.none c none) E (cc0_gate_up_kernel i arg2 harg2 arg3 harg3 arg4 harg4 arg5 harg5) K := by
  simp only [cc0_gate_up_kernel_eq_skeleton]; unfold cc0_gate_up_kernel_skel
  unfold owns
  iintro ⟨⟨%f0, %hf0, H0⟩, ⟨%f1, %hf1, H1⟩, ⟨%f2, %hf2, H2⟩, ⟨%d3, %f3, -, H3⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (actCover _)

/-- The region's description on core `c`: the arrays as the region finds them; after the body at point `t` each
    input's buffer still at its block and the output's at `actOut` of the three input blocks; the region keeps the
    scoped buffers it does not stage and the generator register untouched; nothing is owed; full shares. -/
def dat0 (c : Dev nD) : Dat τ (Elt F) Unit ℕ (UR sig nD τ) ℕ cfg0 c where
  A w := V c (Pipeline.arrRef spec0 w)
  after w t := match w with
    | ⟨0, _⟩ => blk0 V c 0 t
    | ⟨1, _⟩ => blk0 V c 1 t
    | ⟨2, _⟩ => blk0 V c 2 t
    | ⟨3, _⟩ => actOut (blk0 V c 0 t) (blk0 V c 1 t) (blk0 V c 2 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = blk0 V c 0 t := by dsimp only [dat0]
theorem after0_1 (c : Dev nD) (t : Fin cfg0.N) : (dat0 V c).after 1 t = blk0 V c 1 t := by dsimp only [dat0]
theorem after0_2 (c : Dev nD) (t : Fin cfg0.N) : (dat0 V c).after 2 t = blk0 V c 2 t := by dsimp only [dat0]
theorem after0_3 (c : Dev nD) (t : Fin cfg0.N) :
    (dat0 V c).after 3 t = actOut (blk0 V c 0 t) (blk0 V c 1 t) (blk0 V c 2 t) := by dsimp only [dat0]

theorem before0_0 (c : Dev nD) (t : Fin cfg0.N) (d) : (dat0 V c).before 0 t d = blk0 V c 0 t :=
  before0_0_of V (dat0 V c) (A_eq0 V c 0) (after0_0 V c) t d
theorem before0_1 (c : Dev nD) (t : Fin cfg0.N) (d) : (dat0 V c).before 1 t d = blk0 V c 1 t :=
  before0_1_of V (dat0 V c) (A_eq0 V c 1) (after0_1 V c) t d
theorem before0_2 (c : Dev nD) (t : Fin cfg0.N) (d) : (dat0 V c).before 2 t d = blk0 V c 2 t :=
  before0_2_of V (dat0 V c) (A_eq0 V c 2) (after0_2 V c) t d

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t))

/-- The body at any point: the inputs' buffers hold their blocks, so the body's triple applies; what the region keeps
    and what the core owes pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2]
  rw [show (dat0 V c).Φ t.succ = (dat0 V c).Φ t.castSucc from rfl,
    show (dat0 V c).owesAt () t.succ = (dat0 V c).owesAt () t.castSucc from rfl,
    after0_0, after0_1, after0_2, after0_3]
  iintro ⟨HΦ, Ho, ⟨%d0, H0⟩, ⟨%d1, H1⟩, ⟨%d2, H2⟩, ⟨%d3, H3⟩⟩
  iapply (sound_kernel0 c Set.univ _ _ _ _ _ _ _ _ _ (blk0 V c 0 t) (blk0 V c 1 t) (blk0 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The body obligation of the first region, at every point. -/
theorem body_obligation0 (c : Dev nD) : BodyObligation (dat0 (F := F) V c) (defs₀ (F := F)) Variants.none () Set.univ := fun t => by
  rw [bigSep_W0, bigSep_W0]
  exact sound_body0 V c t

end Region0

end Cert.KernelIdeal.Hand

end
-- ==== Proof.KI.R1Base.lean ====
/-
  The second kernel region (the down projection) — what its three control cases share.
  The grid is 4 × 2 × 11; its last coordinate k walks the 11 blocks of 512 hidden units. At k = 0 the body first
  clears an accumulator kept in a buffer of its own, at every k it adds to the accumulator the product of the
  [2048, 512] block (i, k) of the activations with the transposed [1024, 512] block (j, k) of the output matrix, and at
  k = 10 it copies the accumulator into the output block (i, j). So a point is in one of three cases: first of its
  row of eleven (clear, add), middle (add), last (add, copy out). Here: when each case occurs, in closed form over
  the 88 points; where the output window is idle; the buffers' names; and the invariant's plain form.
-/
import proofs.«125092_j13889924235944_2_alg».proof.Proof.Gen.KernelIdeal.Launch
import proofs.«125092_j13889924235944_2_alg».proof.Proof.Gen.KernelIdeal.Skeleton
import proofs.«125092_j13889924235944_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region1

variable (V : (c : Dev nD) → (b : Ref sig .tc) → Buf (Elt F) ((c : Thread nD τ).loc b))

/-- Window `w`'s block at grid point `t`, read off the window's array as the region finds it. -/
def blk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The activation block's buffer holds the block at every point. -/
theorem before1_0_of {c : Dev nD} (dat : Dat τ (Elt F) Unit ℕ (UR sig nD τ) ℕ cfg1 c) (hA : dat.A 0 = V c (Pipeline.arrRef spec1 0))
    (hafter : ∀ t, dat.after 0 t = blk1 V c 0 t) (t : Fin cfg1.N) (d) : dat.before 0 t d = blk1 V c 0 t :=
  (dat.before_in_eq_fetched 0 rfl (fun _ => rfl) (fun _ _ _ => rfl) (fun t => by rw [hafter]; unfold Dat.blockOf blk1; rw [hA]; try rfl) t d).trans
    (by unfold Dat.fetched Dat.blockOf blk1; rw [hA]; try rfl)
/-- The output matrix's block buffer holds the block at every point. -/
theorem before1_1_of {c : Dev nD} (dat : Dat τ (Elt F) Unit ℕ (UR sig nD τ) ℕ cfg1 c) (hA : dat.A 1 = V c (Pipeline.arrRef spec1 1))
    (hafter : ∀ t, dat.after 1 t = blk1 V c 1 t) (t : Fin cfg1.N) (d) : dat.before 1 t d = blk1 V c 1 t :=
  (dat.before_in_eq_fetched 1 rfl (fun _ => rfl) (fun _ _ _ => rfl) (fun t => by rw [hafter]; unfold Dat.blockOf blk1; rw [hA]; try rfl) t d).trans
    (by unfold Dat.fetched Dat.blockOf blk1; rw [hA]; try rfl)

/-! ## The two conditions, in closed form over the grid -/

/-- "k = 0", as the body computes it from the grid point. -/
abbrev isFirst (i : grid1.Coords) : Prop := (Scalar.cmpi .ne (Scalar.extui (Scalar.cmpi .eq (BitVec.ofNat 32 (i 2).val) 0#32)) 0#32) = 1#1
/-- It holds at the points ≡ 0 (mod 11). -/
theorem isFirst_iff : ∀ t : Fin cfg1.N, isFirst (grid1.coords t) ↔ t.val % 11 = 0 :=
  (by decide +kernel : ∀ t : Fin grid1.N, isFirst (grid1.coords t) ↔ t.val % 11 = 0)
/-- "k = 10", as the body computes it from the grid point. -/
abbrev isLast (i : grid1.Coords) : Prop := k1_cond2 i = 1#1
/-- It holds at the points ≡ 10 (mod 11). -/
theorem isLast_iff : ∀ t : Fin cfg1.N, isLast (grid1.coords t) ↔ t.val % 11 = 10 :=
  (by decide +kernel : ∀ t : Fin grid1.N, isLast (grid1.coords t) ↔ t.val % 11 = 10)

/-! ## Where the windows are idle -/

theorem live1_0 : ∀ t : Fin cfg1.N, cfg1.idle 0 (grid1.coords t) = false := by decide +kernel
theorem live1_1 : ∀ t : Fin cfg1.N, cfg1.idle 1 (grid1.coords t) = false := by decide +kernel
/-- At a first point the output window is idle and not written back. -/
theorem idle1_2_first : ∀ t : Fin cfg1.N, isFirst (grid1.coords t) → ¬isLast (grid1.coords t) → cfg1.idle 2 (grid1.coords t) = true := by decide +kernel
theorem noFlush1_2_first : ∀ t : Fin cfg1.N, isFirst (grid1.coords t) → ¬isLast (grid1.coords t) → (cfg1.win 2).flush t = false := by decide +kernel
/-- At a middle point likewise. -/
theorem idle1_2_mid : ∀ t : Fin cfg1.N, ¬isFirst (grid1.coords t) → ¬isLast (grid1.coords t) → cfg1.idle 2 (grid1.coords t) = true := by decide +kernel
theorem noFlush1_2_mid : ∀ t : Fin cfg1.N, ¬isFirst (grid1.coords t) → ¬isLast (grid1.coords t) → (cfg1.win 2).flush t = false := by decide +kernel
/-- At a last point the output window is live: the body stores into it. -/
theorem live1_2_last : ∀ t : Fin cfg1.N, ¬isFirst (grid1.coords t) → isLast (grid1.coords t) → cfg1.idle 2 (grid1.coords t) = false := by decide +kernel

/-! ## The buffers -/

/-- One buffer of the output window, through which its contents are stated (the choice does not matter). -/
abbrev outView : View sig .tc .vmem S2048x1024 .f32 := (Memref.whole cc1_stg2_0 : Memref sig .tc .vmem S2048x1024 .f32).view
abbrev ms1_0 (t : Fin cfg1.N) : Memref sig .tc .vmem S2048x512 .bf16 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S1024x512 .bf16 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S2048x1024 .f32 := win1_2.stage (cfg1.slots t 2)
abbrev hs1_2 (t : Fin cfg1.N) : (ms1_2 t).IsWhole := hstage1_2 ((cfg1.slots t 2).cast nbuf1_2)
/-- The accumulator: a whole buffer of the kernel's own, passed beside the windows. -/
abbrev accM : Memref sig .tc .vmem S2048x1024 .f32 := Memref.whole cc1_scratch0
abbrev accView : View sig .tc .vmem S2048x1024 .f32 := accM.view

/-- A scoped buffer the region does not use, whole at some contents. -/
abbrev idleBuf (c : Dev nD) (b : Ref sig .tc) : sProp 𝕄 :=
  iprop(∃ f : Buf (Elt F) ((c : Thread nD τ).loc b), ((c : Thread nD τ).loc b) ↦{fullShare} f)

/-- What the region keeps when it names nothing: the first region's eight staging buffers and the accumulator, each
    whole at some contents, and the generator register at some state. -/
theorem keepsPlain (c : Dev nD) :
    (Pipeline.ΦA spec1 c : sProp 𝕄)
      = iprop(iprop(idleBuf c cc0_stg0_0 ∗ idleBuf c cc0_stg0_1 ∗ idleBuf c cc0_stg1_0 ∗ idleBuf c cc0_stg1_1 ∗ idleBuf c cc0_stg2_0
          ∗ idleBuf c cc0_stg2_1 ∗ idleBuf c cc0_stg3_0 ∗ idleBuf c cc0_stg3_1 ∗ (∃ d, owns (c : Thread nD τ) accM fullShare d)) ∗ (∃ r, prngReg c r)) := by
  unfold Pipeline.ΦA; rw [scopedRest1_eq]; simp only [accM, owns_whole]; try rfl

end Region1

end Cert.KernelIdeal.Hand

end
-- ==== Proof.KI.R1First.lean ====
/-
  The second kernel region's body run as a whole, at a FIRST point (k = 0): the accumulator is cleared, then the first partial product is added to it; nothing is stored into the output block.
  The run is stated as a dependent pair: the lists of stores each buffer ends with (found while the run is checked)
  together with the triple saying that, on whole buffers, the body runs to the continuation holding each buffer with
  exactly those stores written.
-/
import proofs.«125092_j13889924235944_2_alg».proof.Proof.KI.R1Base

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- (the run's proof term is large)
set_option maxHeartbeats 1000000 in
/-- At a first point: the two input blocks at `x0 x1`, the output block's buffer at contents handed back untouched, the
    accumulator at anything; afterwards the accumulator holds the found stores. -/
noncomputable def runFirst (c : Dev nD) (i : grid1.Coords) (arg3 : Memref sig .tc .vmem S2048x512 .bf16) (harg3 : arg3.IsWhole) (arg4 : Memref sig .tc .vmem S1024x512 .bf16) (harg4 : arg4.IsWhole) (arg5 : Memref sig .tc .vmem S2048x1024 .f32) (harg5 : arg5.IsWhole) (arg6 : Memref sig .tc .vmem S2048x1024 .f32) (harg6 : arg6.IsWhole) (hc0 : isFirst i) (hc1 : ¬isLast i)
    (x0 : Vec F S2048x512 .bf16) (x1 : Vec F S1024x512 .bf16) :
    Σ' (L2 : List (View.Piece (Elt F) S2048x1024 .f32)), { LS : List (View.Piece (Elt F) S2048x1024 .f32) //
      ∀ (xi2 : Vec F S2048x1024 .f32) (E : Set ℕ) (K : PUnit → sProp 𝕄),
        iprop(owns (c : Thread nD τ) arg3 fullShare x0 ∗ owns (c : Thread nD τ) arg4 fullShare x1 ∗ owns (c : Thread nD τ) arg5 fullShare xi2 ∗ (∃ d, owns (c : Thread nD τ) arg6 fullShare d)
            ∗ (iprop(owns (c : Thread nD τ) arg3 fullShare x0 ∗ owns (c : Thread nD τ) arg4 fullShare x1 ∗ owns (c : Thread nD τ) arg5 fullShare xi2 ∗ (∃ f, arg6.view.loc (c : Thread nD τ) ↦[arg6.view.set]{fullShare} arg6.view.writes (Elt F) f LS)) -∗ K ⟨⟩))
          ⊢ wp frame (wpE (defs₀ (F := F)) Variants.none c none) E (cc1_down_kernel i arg3 harg3 arg4 harg4 arg5 harg5 arg6 harg6) K } := by
  refine ⟨[], ?_, fun xi2 E K => ?run⟩
  case run =>
    simp only [cc1_down_kernel_eq_skeleton]; unfold cc1_down_kernel_skel
    unfold owns
    iintro ⟨⟨%f0, %hf0, H0⟩, ⟨%f1, %hf1, H1⟩, ⟨%f2, %hf2, H2⟩, ⟨%ds, %fs, -, HS⟩, Hk⟩
    obtain rfl := harg3.eq_unread hf0; obtain rfl := harg4.eq_unread hf1; obtain rfl := harg5.eq_unread hf2
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    iexists _; iexact HS

end Cert.KernelIdeal.Hand

end
-- ==== Proof.KI.R1Mid.lean ====
/-
  The second kernel region's body run as a whole, at a MIDDLE point (0 < k < 10): one more partial product is added to the accumulator; nothing is stored into the output block.
  The run is stated as a dependent pair: the lists of stores each buffer ends with (found while the run is checked)
  together with the triple saying that, on whole buffers, the body runs to the continuation holding each buffer with
  exactly those stores written.
-/
import proofs.«125092_j13889924235944_2_alg».proof.Proof.KI.R1First

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- (the run's proof term is large)
set_option maxHeartbeats 1000000 in
/-- At a middle point: the two input blocks at `x0 x1`, the output block's buffer at contents handed back untouched, the
    accumulator at what the point before left (`xs`); afterwards the accumulator holds the found stores. -/
noncomputable def runMid (c : Dev nD) (i : grid1.Coords) (arg3 : Memref sig .tc .vmem S2048x512 .bf16) (harg3 : arg3.IsWhole) (arg4 : Memref sig .tc .vmem S1024x512 .bf16) (harg4 : arg4.IsWhole) (arg5 : Memref sig .tc .vmem S2048x1024 .f32) (harg5 : arg5.IsWhole) (arg6 : Memref sig .tc .vmem S2048x1024 .f32) (harg6 : arg6.IsWhole) (hc0 : ¬isFirst i) (hc1 : ¬isLast i)
    (x0 : Vec F S2048x512 .bf16) (x1 : Vec F S1024x512 .bf16) (xs : Vec F S2048x1024 .f32) :
    Σ' (L2 : List (View.Piece (Elt F) S2048x1024 .f32)), { LS : List (View.Piece (Elt F) S2048x1024 .f32) //
      ∀ (xi2 : Vec F S2048x1024 .f32) (E : Set ℕ) (K : PUnit → sProp 𝕄),
        iprop(owns (c : Thread nD τ) arg3 fullShare x0 ∗ owns (c : Thread nD τ) arg4 fullShare x1 ∗ owns (c : Thread nD τ) arg5 fullShare xi2 ∗ owns (c : Thread nD τ) arg6 fullShare xs
            ∗ (iprop(owns (c : Thread nD τ) arg3 fullShare x0 ∗ owns (c : Thread nD τ) arg4 fullShare x1 ∗ owns (c : Thread nD τ) arg5 fullShare xi2 ∗ (∃ f, arg6.view.loc (c : Thread nD τ) ↦[arg6.view.set]{fullShare} arg6.view.writes (Elt F) f LS)) -∗ K ⟨⟩))
          ⊢ wp frame (wpE (defs₀ (F := F)) Variants.none c none) E (cc1_down_kernel i arg3 harg3 arg4 harg4 arg5 harg5 arg6 harg6) K } := by
  refine ⟨[], ?_, fun xi2 E K => ?run⟩
  case run =>
    simp only [cc1_down_kernel_eq_skeleton]; unfold cc1_down_kernel_skel
    unfold owns
    iintro ⟨⟨%f0, %hf0, H0⟩, ⟨%f1, %hf1, H1⟩, ⟨%f2, %hf2, H2⟩, ⟨%fs, %hfs, HS⟩, Hk⟩
    obtain rfl := harg3.eq_unread hf0; obtain rfl := harg4.eq_unread hf1; obtain rfl := harg5.eq_unread hf2; obtain rfl := harg6.eq_unread hfs
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    iexists _; iexact HS

end Cert.KernelIdeal.Hand

end
-- ==== Proof.KI.R1Last.lean ====
/-
  The second kernel region's body run as a whole, at a LAST point (k = 10): the last partial product is added to the accumulator, and the accumulator is copied into the output block.
  The run is stated as a dependent pair: the lists of stores each buffer ends with (found while the run is checked)
  together with the triple saying that, on whole buffers, the body runs to the continuation holding each buffer with
  exactly those stores written.
-/
import proofs.«125092_j13889924235944_2_alg».proof.Proof.KI.R1Mid

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- (the run's proof term is large)
set_option maxHeartbeats 1000000 in
/-- At a last point: the two input blocks at `x0 x1`, the output block's buffer at anything, the accumulator at what the
    point before left (`xs`); afterwards the output block's buffer and the accumulator hold the found stores. -/
noncomputable def runLast (c : Dev nD) (i : grid1.Coords) (arg3 : Memref sig .tc .vmem S2048x512 .bf16) (harg3 : arg3.IsWhole) (arg4 : Memref sig .tc .vmem S1024x512 .bf16) (harg4 : arg4.IsWhole) (arg5 : Memref sig .tc .vmem S2048x1024 .f32) (harg5 : arg5.IsWhole) (arg6 : Memref sig .tc .vmem S2048x1024 .f32) (harg6 : arg6.IsWhole) (hc0 : ¬isFirst i) (hc1 : isLast i)
    (x0 : Vec F S2048x512 .bf16) (x1 : Vec F S1024x512 .bf16) (xs : Vec F S2048x1024 .f32) :
    Σ' (L2 : List (View.Piece (Elt F) S2048x1024 .f32)), { LS : List (View.Piece (Elt F) S2048x1024 .f32) //
      ∀ (E : Set ℕ) (K : PUnit → sProp 𝕄),
        iprop(owns (c : Thread nD τ) arg3 fullShare x0 ∗ owns (c : Thread nD τ) arg4 fullShare x1 ∗ (∃ d, owns (c : Thread nD τ) arg5 fullShare d) ∗ owns (c : Thread nD τ) arg6 fullShare xs
            ∗ (iprop(owns (c : Thread nD τ) arg3 fullShare x0 ∗ owns (c : Thread nD τ) arg4 fullShare x1 ∗ (∃ f, arg5.view.loc (c : Thread nD τ) ↦[arg5.view.set]{fullShare} arg5.view.writes (Elt F) f L2) ∗ (∃ f, arg6.view.loc (c : Thread nD τ) ↦[arg6.view.set]{fullShare} arg6.view.writes (Elt F) f LS)) -∗ K ⟨⟩))
          ⊢ wp frame (wpE (defs₀ (F := F)) Variants.none c none) E (cc1_down_kernel i arg3 harg3 arg4 harg4 arg5 harg5 arg6 harg6) K } := by
  refine ⟨?_, ?_, fun E K => ?run⟩
  case run =>
    simp only [cc1_down_kernel_eq_skeleton]; unfold cc1_down_kernel_skel
    unfold owns
    iintro ⟨⟨%f0, %hf0, H0⟩, ⟨%f1, %hf1, H1⟩, ⟨%d2, %f2, -, H2⟩, ⟨%fs, %hfs, HS⟩, Hk⟩
    obtain rfl := harg3.eq_unread hf0; obtain rfl := harg4.eq_unread hf1; obtain rfl := harg6.eq_unread hfs
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]; · iexists _; iexact H2
    iexists _; iexact HS

end Cert.KernelIdeal.Hand

end
-- ==== Proof.KI.R1.lean ====
/-
  The second kernel region point by point.
  What the output block's buffer and the accumulator hold after each of the 88 points is defined by recursion on the
  point: a first point (k = 0) starts the accumulator afresh, a middle point adds to what the point before left, a last
  point (k = 10) adds and copies the sum into the output block. The region's invariant carries the accumulator at
  exactly that value from one point to the next; the body meets the description at every point, case by case.
-/
import proofs.«125092_j13889924235944_2_alg».proof.Proof.KI.R1Last

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region1

variable (V : (c : Dev nD) → (b : Ref sig .tc) → Buf (Elt F) ((c : Thread nD τ).loc b))

/-! ## What each case leaves -/

/-- A first point stores nothing into the output block: a placeholder nothing consults. -/
def outFirst (c : Dev nD) (i : grid1.Coords) (arg3 : Memref sig .tc .vmem S2048x512 .bf16) (harg3 : arg3.IsWhole) (arg4 : Memref sig .tc .vmem S1024x512 .bf16) (harg4 : arg4.IsWhole) (arg5 : Memref sig .tc .vmem S2048x1024 .f32) (harg5 : arg5.IsWhole) (arg6 : Memref sig .tc .vmem S2048x1024 .f32) (harg6 : arg6.IsWhole) (hc0 : isFirst i) (hc1 : ¬isLast i) (x0 : Vec F S2048x512 .bf16) (x1 : Vec F S1024x512 .bf16) : Vec F S2048x1024 .f32 :=
  outView.read (Elt F) (outView.writes (Elt F) outView.junk (runFirst c i arg3 harg3 arg4 harg4 arg5 harg5 arg6 harg6 hc0 hc1 x0 x1).1)
/-- A first point's stores into the accumulator cover it. -/
theorem accCoverFirst (c : Dev nD) (i : grid1.Coords) (arg3 : Memref sig .tc .vmem S2048x512 .bf16) (harg3 : arg3.IsWhole) (arg4 : Memref sig .tc .vmem S1024x512 .bf16) (harg4 : arg4.IsWhole) (arg5 : Memref sig .tc .vmem S2048x1024 .f32) (harg5 : arg5.IsWhole) (arg6 : Memref sig .tc .vmem S2048x1024 .f32) (harg6 : arg6.IsWhole) (hc0 : isFirst i) (hc1 : ¬isLast i) (x0 : Vec F S2048x512 .bf16) (x1 : Vec F S1024x512 .bf16) (y : S2048x1024.Idx) :
    ∃ pc ∈ (runFirst c i arg3 harg3 arg4 harg4 arg5 harg5 arg6 harg6 hc0 hc1 x0 x1).2.1, y ∈ pc.1.set :=
  View.cover_of_tiledL (runFirst c i arg3 harg3 arg4 harg4 arg5 harg5 arg6 harg6 hc0 hc1 x0 x1).2.1 S2048x1024.size (by sl_kernel_rfl) y
/-- What a first point leaves in the accumulator. -/
def accFirst (c : Dev nD) (i : grid1.Coords) (arg3 : Memref sig .tc .vmem S2048x512 .bf16) (harg3 : arg3.IsWhole) (arg4 : Memref sig .tc .vmem S1024x512 .bf16) (harg4 : arg4.IsWhole) (arg5 : Memref sig .tc .vmem S2048x1024 .f32) (harg5 : arg5.IsWhole) (arg6 : Memref sig .tc .vmem S2048x1024 .f32) (harg6 : arg6.IsWhole) (hc0 : isFirst i) (hc1 : ¬isLast i) (x0 : Vec F S2048x512 .bf16) (x1 : Vec F S1024x512 .bf16) : Vec F S2048x1024 .f32 :=
  accView.read (Elt F) (accView.writes (Elt F) accView.junk (runFirst c i arg3 harg3 arg4 harg4 arg5 harg5 arg6 harg6 hc0 hc1 x0 x1).2.1)

/-- A middle point stores nothing into the output block: a placeholder nothing consults. -/
def outMid (c : Dev nD) (i : grid1.Coords) (arg3 : Memref sig .tc .vmem S2048x512 .bf16) (harg3 : arg3.IsWhole) (arg4 : Memref sig .tc .vmem S1024x512 .bf16) (harg4 : arg4.IsWhole) (arg5 : Memref sig .tc .vmem S2048x1024 .f32) (harg5 : arg5.IsWhole) (arg6 : Memref sig .tc .vmem S2048x1024 .f32) (harg6 : arg6.IsWhole) (hc0 : ¬isFirst i) (hc1 : ¬isLast i) (x0 : Vec F S2048x512 .bf16) (x1 : Vec F S1024x512 .bf16) (xs : Vec F S2048x1024 .f32) : Vec F S2048x1024 .f32 :=
  outView.read (Elt F) (outView.writes (Elt F) outView.junk (runMid c i arg3 harg3 arg4 harg4 arg5 harg5 arg6 harg6 hc0 hc1 x0 x1 xs).1)
theorem accCoverMid (c : Dev nD) (i : grid1.Coords) (arg3 : Memref sig .tc .vmem S2048x512 .bf16) (harg3 : arg3.IsWhole) (arg4 : Memref sig .tc .vmem S1024x512 .bf16) (harg4 : arg4.IsWhole) (arg5 : Memref sig .tc .vmem S2048x1024 .f32) (harg5 : arg5.IsWhole) (arg6 : Memref sig .tc .vmem S2048x1024 .f32) (harg6 : arg6.IsWhole) (hc0 : ¬isFirst i) (hc1 : ¬isLast i) (x0 : Vec F S2048x512 .bf16) (x1 : Vec F S1024x512 .bf16) (xs : Vec F S2048x1024 .f32) (y : S2048x1024.Idx) :
    ∃ pc ∈ (runMid c i arg3 harg3 arg4 harg4 arg5 harg5 arg6 harg6 hc0 hc1 x0 x1 xs).2.1, y ∈ pc.1.set :=
  View.cover_of_tiledL (runMid c i arg3 harg3 arg4 harg4 arg5 harg5 arg6 harg6 hc0 hc1 x0 x1 xs).2.1 S2048x1024.size (by sl_kernel_rfl) y
/-- What a middle point leaves in the accumulator, from what the point before left (`xs`). -/
def accMid (c : Dev nD) (i : grid1.Coords) (arg3 : Memref sig .tc .vmem S2048x512 .bf16) (harg3 : arg3.IsWhole) (arg4 : Memref sig .tc .vmem S1024x512 .bf16) (harg4 : arg4.IsWhole) (arg5 : Memref sig .tc .vmem S2048x1024 .f32) (harg5 : arg5.IsWhole) (arg6 : Memref sig .tc .vmem S2048x1024 .f32) (harg6 : arg6.IsWhole) (hc0 : ¬isFirst i) (hc1 : ¬isLast i) (x0 : Vec F S2048x512 .bf16) (x1 : Vec F S1024x512 .bf16) (xs : Vec F S2048x1024 .f32) : Vec F S2048x1024 .f32 :=
  accView.read (Elt F) (accView.writes (Elt F) accView.junk (runMid c i arg3 harg3 arg4 harg4 arg5 harg5 arg6 harg6 hc0 hc1 x0 x1 xs).2.1)

/-- A last point's store into the output block covers it. -/
theorem outCoverLast (c : Dev nD) (i : grid1.Coords) (arg3 : Memref sig .tc .vmem S2048x512 .bf16) (harg3 : arg3.IsWhole) (arg4 : Memref sig .tc .vmem S1024x512 .bf16) (harg4 : arg4.IsWhole) (arg5 : Memref sig .tc .vmem S2048x1024 .f32) (harg5 : arg5.IsWhole) (arg6 : Memref sig .tc .vmem S2048x1024 .f32) (harg6 : arg6.IsWhole) (hc0 : ¬isFirst i) (hc1 : isLast i) (x0 : Vec F S2048x512 .bf16) (x1 : Vec F S1024x512 .bf16) (xs : Vec F S2048x1024 .f32) (y : S2048x1024.Idx) :
    ∃ pc ∈ (runLast c i arg3 harg3 arg4 harg4 arg5 harg5 arg6 harg6 hc0 hc1 x0 x1 xs).1, y ∈ pc.1.set :=
  View.cover_of_tiledL (runLast c i arg3 harg3 arg4 harg4 arg5 harg5 arg6 harg6 hc0 hc1 x0 x1 xs).1 S2048x1024.size (by sl_kernel_rfl) y
/-- What a last point leaves in the output block's buffer. -/
def outLast (c : Dev nD) (i : grid1.Coords) (arg3 : Memref sig .tc .vmem S2048x512 .bf16) (harg3 : arg3.IsWhole) (arg4 : Memref sig .tc .vmem S1024x512 .bf16) (harg4 : arg4.IsWhole) (arg5 : Memref sig .tc .vmem S2048x1024 .f32) (harg5 : arg5.IsWhole) (arg6 : Memref sig .tc .vmem S2048x1024 .f32) (harg6 : arg6.IsWhole) (hc0 : ¬isFirst i) (hc1 : isLast i) (x0 : Vec F S2048x512 .bf16) (x1 : Vec F S1024x512 .bf16) (xs : Vec F S2048x1024 .f32) : Vec F S2048x1024 .f32 :=
  outView.read (Elt F) (outView.writes (Elt F) outView.junk (runLast c i arg3 harg3 arg4 harg4 arg5 harg5 arg6 harg6 hc0 hc1 x0 x1 xs).1)
theorem accCoverLast (c : Dev nD) (i : grid1.Coords) (arg3 : Memref sig .tc .vmem S2048x512 .bf16) (harg3 : arg3.IsWhole) (arg4 : Memref sig .tc .vmem S1024x512 .bf16) (harg4 : arg4.IsWhole) (arg5 : Memref sig .tc .vmem S2048x1024 .f32) (harg5 : arg5.IsWhole) (arg6 : Memref sig .tc .vmem S2048x1024 .f32) (harg6 : arg6.IsWhole) (hc0 : ¬isFirst i) (hc1 : isLast i) (x0 : Vec F S2048x512 .bf16) (x1 : Vec F S1024x512 .bf16) (xs : Vec F S2048x1024 .f32) (y : S2048x1024.Idx) :
    ∃ pc ∈ (runLast c i arg3 harg3 arg4 harg4 arg5 harg5 arg6 harg6 hc0 hc1 x0 x1 xs).2.1, y ∈ pc.1.set :=
  View.cover_of_tiledL (runLast c i arg3 harg3 arg4 harg4 arg5 harg5 arg6 harg6 hc0 hc1 x0 x1 xs).2.1 S2048x1024.size (by sl_kernel_rfl) y
/-- What a last point leaves in the accumulator. -/
def accLast (c : Dev nD) (i : grid1.Coords) (arg3 : Memref sig .tc .vmem S2048x512 .bf16) (harg3 : arg3.IsWhole) (arg4 : Memref sig .tc .vmem S1024x512 .bf16) (harg4 : arg4.IsWhole) (arg5 : Memref sig .tc .vmem S2048x1024 .f32) (harg5 : arg5.IsWhole) (arg6 : Memref sig .tc .vmem S2048x1024 .f32) (harg6 : arg6.IsWhole) (hc0 : ¬isFirst i) (hc1 : isLast i) (x0 : Vec F S2048x512 .bf16) (x1 : Vec F S1024x512 .bf16) (xs : Vec F S2048x1024 .f32) : Vec F S2048x1024 .f32 :=
  accView.read (Elt F) (accView.writes (Elt F) accView.junk (runLast c i arg3 harg3 arg4 harg4 arg5 harg5 arg6 harg6 hc0 hc1 x0 x1 xs).2.1)

/-! ## Point by point -/

/-- What the output block's buffer (first component) and the accumulator (second) hold after the body at position `n`:
    the case the closed forms select, run on the point's input blocks, a middle or last point over what the point
    before left in the accumulator. -/
def stateAt (c : Dev nD) : (n : ℕ) → n < cfg1.N → Vec F S2048x1024 .f32 × Vec F S2048x1024 .f32
  | 0, hn => (outFirst c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) accM (Memref.isWhole_whole _) ((isFirst_iff ⟨0, hn⟩).mpr (Nat.zero_mod _)) (fun h => (fun h => by (try dsimp only at h); omega) ((isLast_iff ⟨0, hn⟩).mp h)) (blk1 V c 0 ⟨0, hn⟩) (blk1 V c 1 ⟨0, hn⟩),
      accFirst c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) accM (Memref.isWhole_whole _) ((isFirst_iff ⟨0, hn⟩).mpr (Nat.zero_mod _)) (fun h => (fun h => by (try dsimp only at h); omega) ((isLast_iff ⟨0, hn⟩).mp h)) (blk1 V c 0 ⟨0, hn⟩) (blk1 V c 1 ⟨0, hn⟩))
  | n + 1, hn =>
    if h0 : (n + 1) % 11 = 0 then
      if h1 : (n + 1) % 11 = 10 then
        False.elim (by omega)
      else
        (outFirst c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) accM (Memref.isWhole_whole _) ((isFirst_iff ⟨n + 1, hn⟩).mpr h0) (fun h => h1 ((isLast_iff ⟨n + 1, hn⟩).mp h)) (blk1 V c 0 ⟨n + 1, hn⟩) (blk1 V c 1 ⟨n + 1, hn⟩),
          accFirst c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) accM (Memref.isWhole_whole _) ((isFirst_iff ⟨n + 1, hn⟩).mpr h0) (fun h => h1 ((isLast_iff ⟨n + 1, hn⟩).mp h)) (blk1 V c 0 ⟨n + 1, hn⟩) (blk1 V c 1 ⟨n + 1, hn⟩))
    else
      if h1 : (n + 1) % 11 = 10 then
        (outLast c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) accM (Memref.isWhole_whole _) (fun h => h0 ((isFirst_iff ⟨n + 1, hn⟩).mp h)) ((isLast_iff ⟨n + 1, hn⟩).mpr h1) (blk1 V c 0 ⟨n + 1, hn⟩) (blk1 V c 1 ⟨n + 1, hn⟩) (stateAt c n (Nat.lt_of_succ_lt hn)).2,
          accLast c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) accM (Memref.isWhole_whole _) (fun h => h0 ((isFirst_iff ⟨n + 1, hn⟩).mp h)) ((isLast_iff ⟨n + 1, hn⟩).mpr h1) (blk1 V c 0 ⟨n + 1, hn⟩) (blk1 V c 1 ⟨n + 1, hn⟩) (stateAt c n (Nat.lt_of_succ_lt hn)).2)
      else
        (outMid c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) accM (Memref.isWhole_whole _) (fun h => h0 ((isFirst_iff ⟨n + 1, hn⟩).mp h)) (fun h => h1 ((isLast_iff ⟨n + 1, hn⟩).mp h)) (blk1 V c 0 ⟨n + 1, hn⟩) (blk1 V c 1 ⟨n + 1, hn⟩) (stateAt c n (Nat.lt_of_succ_lt hn)).2,
          accMid c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) accM (Memref.isWhole_whole _) (fun h => h0 ((isFirst_iff ⟨n + 1, hn⟩).mp h)) (fun h => h1 ((isLast_iff ⟨n + 1, hn⟩).mp h)) (blk1 V c 0 ⟨n + 1, hn⟩) (blk1 V c 1 ⟨n + 1, hn⟩) (stateAt c n (Nat.lt_of_succ_lt hn)).2)

/-- At a first point. -/
theorem stateAt_first (c : Dev nD) (t : Fin cfg1.N) (h0 : t.val % 11 = 0) (h1 : ¬t.val % 11 = 10) :
    stateAt V c t.val t.isLt = (outFirst c (grid1.coords t) (ms1_0 t) (hs1_0 t) (ms1_1 t) (hs1_1 t) (ms1_2 t) (hs1_2 t) accM (Memref.isWhole_whole _) ((isFirst_iff t).mpr h0) (fun h => h1 ((isLast_iff t).mp h)) (blk1 V c 0 t) (blk1 V c 1 t),
      accFirst c (grid1.coords t) (ms1_0 t) (hs1_0 t) (ms1_1 t) (hs1_1 t) (ms1_2 t) (hs1_2 t) accM (Memref.isWhole_whole _) ((isFirst_iff t).mpr h0) (fun h => h1 ((isLast_iff t).mp h)) (blk1 V c 0 t) (blk1 V c 1 t)) := by
  obtain ⟨n, hn⟩ := t
  cases n with
  | zero => exact rfl
  | succ n => exact (dif_pos h0).trans ((dif_neg h1).trans rfl)

/-- At a middle point, over what the point before left. -/
theorem stateAt_mid (c : Dev nD) (t : Fin cfg1.N) (h0 : ¬t.val % 11 = 0) (h1 : ¬t.val % 11 = 10) :
    stateAt V c t.val t.isLt = (outMid c (grid1.coords t) (ms1_0 t) (hs1_0 t) (ms1_1 t) (hs1_1 t) (ms1_2 t) (hs1_2 t) accM (Memref.isWhole_whole _) (fun h => h0 ((isFirst_iff t).mp h)) (fun h => h1 ((isLast_iff t).mp h)) (blk1 V c 0 t) (blk1 V c 1 t) (stateAt V c (t.val - 1) (Nat.lt_of_le_of_lt (Nat.sub_le _ _) t.isLt)).2,
      accMid c (grid1.coords t) (ms1_0 t) (hs1_0 t) (ms1_1 t) (hs1_1 t) (ms1_2 t) (hs1_2 t) accM (Memref.isWhole_whole _) (fun h => h0 ((isFirst_iff t).mp h)) (fun h => h1 ((isLast_iff t).mp h)) (blk1 V c 0 t) (blk1 V c 1 t) (stateAt V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_neg h1).trans rfl)

/-- At a last point, over what the point before left. -/
theorem stateAt_last (c : Dev nD) (t : Fin cfg1.N) (h0 : ¬t.val % 11 = 0) (h1 : t.val % 11 = 10) :
    stateAt V c t.val t.isLt = (outLast c (grid1.coords t) (ms1_0 t) (hs1_0 t) (ms1_1 t) (hs1_1 t) (ms1_2 t) (hs1_2 t) accM (Memref.isWhole_whole _) (fun h => h0 ((isFirst_iff t).mp h)) ((isLast_iff t).mpr h1) (blk1 V c 0 t) (blk1 V c 1 t) (stateAt V c (t.val - 1) (Nat.lt_of_le_of_lt (Nat.sub_le _ _) t.isLt)).2,
      accLast c (grid1.coords t) (ms1_0 t) (hs1_0 t) (ms1_1 t) (hs1_1 t) (ms1_2 t) (hs1_2 t) accM (Memref.isWhole_whole _) (fun h => h0 ((isFirst_iff t).mp h)) ((isLast_iff t).mpr h1) (blk1 V c 0 t) (blk1 V c 1 t) (stateAt V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_pos h1).trans rfl)

/-- The region's invariant before position `n`: before the first point everything the region keeps is at anything;
    afterwards the accumulator is at what the point before left in it, the eight buffers the region does not use at
    anything, the generator register at some state. -/
def keeps (c : Dev nD) : (n : ℕ) → n ≤ cfg1.N → sProp 𝕄
  | 0, _ => Pipeline.ΦA spec1 c
  | n + 1, hn => iprop(iprop(idleBuf c cc0_stg0_0 ∗ idleBuf c cc0_stg0_1 ∗ idleBuf c cc0_stg1_0 ∗ idleBuf c cc0_stg1_1 ∗ idleBuf c cc0_stg2_0 ∗ idleBuf c cc0_stg2_1 ∗ idleBuf c cc0_stg3_0 ∗ idleBuf c cc0_stg3_1 ∗ owns (c : Thread nD τ) accM fullShare ((stateAt V c n hn).2)) ∗ (∃ r, prngReg c r))

theorem keeps_zero (c : Dev nD) (n : ℕ) (h : n ≤ cfg1.N) (hz : n = 0) : keeps V c n h = Pipeline.ΦA spec1 c := by
  subst hz; rfl

theorem keeps_succ (c : Dev nD) (n : ℕ) (hn : n < cfg1.N) :
    keeps V c (n + 1) hn = iprop(iprop(idleBuf c cc0_stg0_0 ∗ idleBuf c cc0_stg0_1 ∗ idleBuf c cc0_stg1_0 ∗ idleBuf c cc0_stg1_1 ∗ idleBuf c cc0_stg2_0 ∗ idleBuf c cc0_stg2_1 ∗ idleBuf c cc0_stg3_0 ∗ idleBuf c cc0_stg3_1 ∗ owns (c : Thread nD τ) accM fullShare ((stateAt V c n hn).2)) ∗ (∃ r, prngReg c r)) := rfl

theorem keeps_pos (c : Dev nD) (n : ℕ) (h : n ≤ cfg1.N) (hz : n ≠ 0) :
    keeps V c n h = iprop(iprop(idleBuf c cc0_stg0_0 ∗ idleBuf c cc0_stg0_1 ∗ idleBuf c cc0_stg1_0 ∗ idleBuf c cc0_stg1_1 ∗ idleBuf c cc0_stg2_0 ∗ idleBuf c cc0_stg2_1 ∗ idleBuf c cc0_stg3_0 ∗ idleBuf c cc0_stg3_1 ∗ owns (c : Thread nD τ) accM fullShare ((stateAt V c (n - 1) (by omega)).2)) ∗ (∃ r, prngReg c r)) := by
  cases n with
  | zero => exact absurd rfl hz
  | succ n => rfl

/-! ## The region's description -/

/-- On core `c`: the arrays as the region finds them; after the body at point `t` each input's buffer at its block
    and the output block's at `stateAt`'s first component; the invariant above; nothing owed; full shares. -/
def dat1 (c : Dev nD) : Dat τ (Elt F) Unit ℕ (UR sig nD τ) ℕ cfg1 c where
  A w := V c (Pipeline.arrRef spec1 w)
  after w t := match w with
    | ⟨0, _⟩ => blk1 V c 0 t
    | ⟨1, _⟩ => blk1 V c 1 t
    | ⟨2, _⟩ => (stateAt V c t.val t.isLt).1
  Φ t := keeps V c t.val (Nat.le_of_lt_succ t.isLt)
  q _ := fullShare
  owed _ := 0

theorem A_eq1 (c : Dev nD) (w : Fin cfg1.W) : (dat1 V c).A w = V c (Pipeline.arrRef spec1 w) := by
  dsimp only [dat1]

theorem keeps_castSucc (c : Dev nD) (t : Fin cfg1.N) :
    (dat1 V c).Φ t.castSucc = keeps V c t.val (Nat.le_of_lt t.isLt) := by
  dsimp only [dat1]; simp only [Fin.coe_castSucc]

theorem after1_0 (c : Dev nD) (t : Fin cfg1.N) : (dat1 V c).after 0 t = blk1 V c 0 t := by dsimp only [dat1]
theorem after1_1 (c : Dev nD) (t : Fin cfg1.N) : (dat1 V c).after 1 t = blk1 V c 1 t := by dsimp only [dat1]
theorem after1_2 (c : Dev nD) (t : Fin cfg1.N) : (dat1 V c).after 2 t = (stateAt V c t.val t.isLt).1 := by dsimp only [dat1]

theorem before1_0 (c : Dev nD) (t : Fin cfg1.N) (d) : (dat1 V c).before 0 t d = blk1 V c 0 t :=
  before1_0_of V (dat1 V c) (A_eq1 V c 0) (after1_0 V c) t d
theorem before1_1 (c : Dev nD) (t : Fin cfg1.N) (d) : (dat1 V c).before 1 t d = blk1 V c 1 t :=
  before1_1_of V (dat1 V c) (A_eq1 V c 1) (after1_1 V c) t d

/-! ## The body obligation, at a generic point -/

def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d)))

def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t)

set_option maxHeartbeats 4800000 in
/-- The body at any point: the inputs' buffers hold their blocks; the closed forms say which case the point is in;
    the invariant hands the body the accumulator at what the point before left (at anything at the very first point)
    and takes it back at this point's value; the core owes nothing throughout. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1]
  rw [show (dat1 V c).owesAt () t.succ = (dat1 V c).owesAt () t.castSucc from rfl]
  rw [show (dat1 V c).Φ t.succ = keeps V c (t.val + 1) t.isLt from rfl, keeps_succ]
  have hN : t.val < 88 := lt_of_lt_of_eq t.isLt (show cfg1.N = 88 from N_1)
  rw [show (dat1 V c).leavesExact 0 t = owns (c : Thread nD τ) (ms1_0 t) fullShare ((dat1 V c).after 0 t) from by
    unfold Dat.leavesExact; rw [live1_0 t], after1_0]
  rw [show (dat1 V c).leavesExact 1 t = owns (c : Thread nD τ) (ms1_1 t) fullShare ((dat1 V c).after 1 t) from by
    unfold Dat.leavesExact; rw [live1_1 t], after1_1]
  by_cases h0 : t.val % 11 = 0
  · by_cases h1 : t.val % 11 = 10
    · exfalso; omega
    · rw [Dat.leavesExact_idle (dat1 V c) 2 t (idle1_2_first t ((isFirst_iff t).mpr h0) (fun h => h1 ((isLast_iff t).mp h))) (noFlush1_2_first t ((isFirst_iff t).mpr h0) (fun h => h1 ((isLast_iff t).mp h)))]
      rw [stateAt_first V c t h0 h1]
      unfold accFirst; (try dsimp only)
      by_cases hz : t.val = 0
      · rw [keeps_castSucc V c t, keeps_zero V c _ _ hz, keepsPlain]
        iintro ⟨⟨⟨B0, B1, B2, B3, B4, B5, B6, B7, HS⟩, Hg⟩, Ho, ⟨%d0, H0⟩, ⟨%d1, H1⟩, ⟨%d2, H2⟩⟩
        iapply ((runFirst c (grid1.coords t) _ _ _ _ _ _ _ _ ((isFirst_iff t).mpr h0) (fun h => h1 ((isLast_iff t).mp h)) (blk1 V c 0 t) (blk1 V c 1 t)).2.2 _ Set.univ _)
        isplitl [H0]; · iexact H0
        isplitl [H1]; · iexact H1
        isplitl [H2]; · iexact H2
        isplitl [HS]; · iexact HS
        iintro ⟨H0, H1, H2, ⟨%es, HS⟩⟩
        isplitl [B0 B1 B2 B3 B4 B5 B6 B7 HS Hg]
        · isplitr [Hg]
          isplitl [B0]; · iexact B0
          isplitl [B1]; · iexact B1
          isplitl [B2]; · iexact B2
          isplitl [B3]; · iexact B3
          isplitl [B4]; · iexact B4
          isplitl [B5]; · iexact B5
          isplitl [B6]; · iexact B6
          isplitl [B7]; · iexact B7
          · unfold owns; iexists _; isplitr
            swap; · iexact HS
            ipureintro; exact View.read_writes_of_cover _ _ _ _ _ (accCoverFirst c _ _ _ _ _ _ _ _ _ _ _ _ _)
          iexact Hg
        isplitl [Ho]; · iexact Ho
        isplitl [H0]; · iexact H0
        isplitl [H1]; · iexact H1
        iexists _; iexact H2
      · rw [keeps_castSucc V c t, keeps_pos V c _ _ hz]
        iintro ⟨⟨⟨B0, B1, B2, B3, B4, B5, B6, B7, HS⟩, Hg⟩, Ho, ⟨%d0, H0⟩, ⟨%d1, H1⟩, ⟨%d2, H2⟩⟩
        iapply ((runFirst c (grid1.coords t) _ _ _ _ _ _ _ _ ((isFirst_iff t).mpr h0) (fun h => h1 ((isLast_iff t).mp h)) (blk1 V c 0 t) (blk1 V c 1 t)).2.2 _ Set.univ _)
        isplitl [H0]; · iexact H0
        isplitl [H1]; · iexact H1
        isplitl [H2]; · iexact H2
        isplitl [HS]; · iexists _; iexact HS
        iintro ⟨H0, H1, H2, ⟨%es, HS⟩⟩
        isplitl [B0 B1 B2 B3 B4 B5 B6 B7 HS Hg]
        · isplitr [Hg]
          isplitl [B0]; · iexact B0
          isplitl [B1]; · iexact B1
          isplitl [B2]; · iexact B2
          isplitl [B3]; · iexact B3
          isplitl [B4]; · iexact B4
          isplitl [B5]; · iexact B5
          isplitl [B6]; · iexact B6
          isplitl [B7]; · iexact B7
          · unfold owns; iexists _; isplitr
            swap; · iexact HS
            ipureintro; exact View.read_writes_of_cover _ _ _ _ _ (accCoverFirst c _ _ _ _ _ _ _ _ _ _ _ _ _)
          iexact Hg
        isplitl [Ho]; · iexact Ho
        isplitl [H0]; · iexact H0
        isplitl [H1]; · iexact H1
        iexists _; iexact H2
  · have hz : t.val ≠ 0 := fun h => h0 (by rw [h])
    by_cases h1 : t.val % 11 = 10
    · rw [show (dat1 V c).leavesExact 2 t = owns (c : Thread nD τ) (ms1_2 t) fullShare ((dat1 V c).after 2 t) from by
        unfold Dat.leavesExact; rw [live1_2_last t (fun h => h0 ((isFirst_iff t).mp h)) ((isLast_iff t).mpr h1)], after1_2]
      rw [stateAt_last V c t h0 h1]
      unfold outLast accLast; (try dsimp only)
      rw [keeps_castSucc V c t, keeps_pos V c _ _ hz]
      iintro ⟨⟨⟨B0, B1, B2, B3, B4, B5, B6, B7, HS⟩, Hg⟩, Ho, ⟨%d0, H0⟩, ⟨%d1, H1⟩, ⟨%d2, H2⟩⟩
      iapply ((runLast c (grid1.coords t) _ _ _ _ _ _ _ _ (fun h => h0 ((isFirst_iff t).mp h)) ((isLast_iff t).mpr h1) (blk1 V c 0 t) (blk1 V c 1 t) _).2.2 Set.univ _)
      isplitl [H0]; · iexact H0
      isplitl [H1]; · iexact H1
      isplitl [H2]; · iexists _; iexact H2
      isplitl [HS]; · iexact HS
      iintro ⟨H0, H1, ⟨%e2, H2⟩, ⟨%es, HS⟩⟩
      isplitl [B0 B1 B2 B3 B4 B5 B6 B7 HS Hg]
      · isplitr [Hg]
        isplitl [B0]; · iexact B0
        isplitl [B1]; · iexact B1
        isplitl [B2]; · iexact B2
        isplitl [B3]; · iexact B3
        isplitl [B4]; · iexact B4
        isplitl [B5]; · iexact B5
        isplitl [B6]; · iexact B6
        isplitl [B7]; · iexact B7
        · unfold owns; iexists _; isplitr
          swap; · iexact HS
          ipureintro; exact View.read_writes_of_cover _ _ _ _ _ (accCoverLast c _ _ _ _ _ _ _ _ _ _ _ _ _ _)
        iexact Hg
      isplitl [Ho]; · iexact Ho
      isplitl [H0]; · iexact H0
      isplitl [H1]; · iexact H1
      unfold owns; iexists _; isplitr
      swap; · iexact H2
      ipureintro; exact View.read_writes_of_cover _ _ _ _ _ (outCoverLast c _ _ _ _ _ _ _ _ _ _ _ _ _ _)
    · rw [Dat.leavesExact_idle (dat1 V c) 2 t (idle1_2_mid t (fun h => h0 ((isFirst_iff t).mp h)) (fun h => h1 ((isLast_iff t).mp h))) (noFlush1_2_mid t (fun h => h0 ((isFirst_iff t).mp h)) (fun h => h1 ((isLast_iff t).mp h)))]
      rw [stateAt_mid V c t h0 h1]
      unfold accMid; (try dsimp only)
      rw [keeps_castSucc V c t, keeps_pos V c _ _ hz]
      iintro ⟨⟨⟨B0, B1, B2, B3, B4, B5, B6, B7, HS⟩, Hg⟩, Ho, ⟨%d0, H0⟩, ⟨%d1, H1⟩, ⟨%d2, H2⟩⟩
      iapply ((runMid c (grid1.coords t) _ _ _ _ _ _ _ _ (fun h => h0 ((isFirst_iff t).mp h)) (fun h => h1 ((isLast_iff t).mp h)) (blk1 V c 0 t) (blk1 V c 1 t) _).2.2 _ Set.univ _)
      isplitl [H0]; · iexact H0
      isplitl [H1]; · iexact H1
      isplitl [H2]; · iexact H2
      isplitl [HS]; · iexact HS
      iintro ⟨H0, H1, H2, ⟨%es, HS⟩⟩
      isplitl [B0 B1 B2 B3 B4 B5 B6 B7 HS Hg]
      · isplitr [Hg]
        isplitl [B0]; · iexact B0
        isplitl [B1]; · iexact B1
        isplitl [B2]; · iexact B2
        isplitl [B3]; · iexact B3
        isplitl [B4]; · iexact B4
        isplitl [B5]; · iexact B5
        isplitl [B6]; · iexact B6
        isplitl [B7]; · iexact B7
        · unfold owns; iexists _; isplitr
          swap; · iexact HS
          ipureintro; exact View.read_writes_of_cover _ _ _ _ _ (accCoverMid c _ _ _ _ _ _ _ _ _ _ _ _ _ _)
        iexact Hg
      isplitl [Ho]; · iexact Ho
      isplitl [H0]; · iexact H0
      isplitl [H1]; · iexact H1
      iexists _; iexact H2

/-- The body obligation of the second region, at every point. -/
theorem body_obligation1 (c : Dev nD) : BodyObligation (dat1 (F := F) V c) (defs₀ (F := F)) Variants.none () Set.univ := fun t => by
  rw [bigSep_W1, bigSep_W1]
  exact sound_body1 V c t

/-- What the region is entered with is the invariant before the first point. -/
theorem keeps_in (c : Dev nD) : Pipeline.ΦA spec1 c ⊢ (dat1 V c).Φ 0 := by
  rw [show (dat1 V c).Φ 0 = keeps V c 0 (Nat.zero_le _) from rfl, keeps_zero V c 0 _ rfl]
  try exact Idealize.SL.BI.Entails.refl _

/-- After any point but none, the invariant gives the plain form back: the accumulator's value is forgotten. -/
theorem keeps_forget (c : Dev nD) (t : Fin (cfg1.N + 1)) (ht : t.val ≠ 0) : (dat1 V c).Φ t ⊢ Pipeline.ΦA spec1 c := by
  rw [show (dat1 V c).Φ t = keeps V c t.val (Nat.le_of_lt_succ t.isLt) from rfl, keeps_pos V c _ _ ht, keepsPlain]
  iintro ⟨⟨B0, B1, B2, B3, B4, B5, B6, B7, HS⟩, Hg⟩
  isplitr [Hg]
  · isplitl [B0]; · iexact B0
    isplitl [B1]; · iexact B1
    isplitl [B2]; · iexact B2
    isplitl [B3]; · iexact B3
    isplitl [B4]; · iexact B4
    isplitl [B5]; · iexact B5
    isplitl [B6]; · iexact B6
    isplitl [B7]; · iexact B7
    iexists _; iexact HS
  iexact Hg

/-- The same after the last point. -/
theorem keeps_out (c : Dev nD) : (dat1 V c).Φ (Fin.last cfg1.N) ⊢ Pipeline.ΦA spec1 c :=
  keeps_forget V c _ (by rw [Fin.val_last]; have : cfg1.N = 88 := N_1; omega)

end Region1

end Cert.KernelIdeal.Hand

end
-- ==== Proof.KI.Run.lean ====
/-
  The whole program's run: nineteen host operations (the block-wise rescaling of the three weight matrices and the
  format changes), then the two kernel regions one after the other.
  Between the items a core holds every unscoped buffer whole at named contents: the launch memory; then that after the
  host operations; then the same with the activations array at what the first region's write-backs leave; then the same
  with the result array at what the second region's write-backs leave. Each region is entered from one such state and
  left at the next; the launch makes the first state and the last one is read against the final memory. The conclusion
  names every unscoped buffer's final contents — in particular the arguments, which no item writes, and the result.
-/
import proofs.«125092_j13889924235944_2_alg».proof.Proof.KI.R0
import proofs.«125092_j13889924235944_2_alg».proof.Proof.KI.R1
import proofs.«125092_j13889924235944_2_alg».proof.Proof.Gen.KernelIdeal.Regions

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffers' contents between the items -/

/-- Core `c`'s buffers at launch. -/
abbrev W0 : Dev nD → Valuation τ sig (Elt F) := fun c b => m (c, b)
/-- After the host operations (the first region's entry). -/
abbrev W1 : Dev nD → Valuation τ sig (Elt F) := fun c => StableHlo.after hostOps0 (W0 m c)
abbrev V1 : (c : Dev nD) → (b : Ref sig .tc) → Buf (Elt F) ((c : Thread nD τ).loc b) := fun c b => W1 m c b
/-- At the first region's exit: the activations array at what the write-backs leave, every other buffer as entered. -/
def W2 (c : Dev nD) : Valuation τ sig (Elt F) :=
  Pipeline.withArrays spec0 c (W1 m c) fun w => (dat0 (V1 m) c).arrAt w cfg0.N
theorem W2_arr (c : Dev nD) (w : Fin cfg0.W) :
    W2 m c (Proc.devRef .tc (Pipeline.arrRef spec0 w)) = (dat0 (V1 m) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m c (Proc.devRef .tc b) = W1 m c (Proc.devRef .tc b) := by
  unfold W2; exact Pipeline.withArrays_of_ne spec0 c _ _ b hb
abbrev V2 : (c : Dev nD) → (b : Ref sig .tc) → Buf (Elt F) ((c : Thread nD τ).loc b) := fun c b => W2 m c b
theorem exit0 (c : Dev nD) (w : Fin cfg0.W) : (dat0 (V1 m) c).arrAt w cfg0.N = V2 m c (Pipeline.arrRef spec0 w) :=
  (W2_arr m c w).symm
theorem rest0 (c : Dev nD) : ∀ b, b ∉ Finset.univ.image (Pipeline.arrRef spec0) → V2 m c b = V1 m c b :=
  fun b hb => W2_of_ne m c b fun w e => hb (Finset.mem_image.mpr ⟨w, Finset.mem_univ _, e⟩)

/-- At the second region's exit: the result array at what the write-backs leave, every other buffer as entered. -/
def W3 (c : Dev nD) : Valuation τ sig (Elt F) :=
  Pipeline.withArrays spec1 c (W2 m c) fun w => (dat1 (V2 m) c).arrAt w cfg1.N
theorem W3_arr (c : Dev nD) (w : Fin cfg1.W) :
    W3 m c (Proc.devRef .tc (Pipeline.arrRef spec1 w)) = (dat1 (V2 m) c).arrAt w cfg1.N := by
  unfold W3; exact Pipeline.withArrays_arr spec1 launch1.win.arr_inj c _ _ w
theorem W3_of_ne (c : Dev nD) (b : Ref sig .tc) (hb : ∀ w, Pipeline.arrRef spec1 w ≠ b) :
    W3 m c (Proc.devRef .tc b) = W2 m c (Proc.devRef .tc b) := by
  unfold W3; exact Pipeline.withArrays_of_ne spec1 c _ _ b hb
abbrev V3 : (c : Dev nD) → (b : Ref sig .tc) → Buf (Elt F) ((c : Thread nD τ).loc b) := fun c b => W3 m c b
theorem exit1 (c : Dev nD) (w : Fin cfg1.W) : (dat1 (V2 m) c).arrAt w cfg1.N = V3 m c (Pipeline.arrRef spec1 w) :=
  (W3_arr m c w).symm
theorem rest1 (c : Dev nD) : ∀ b, b ∉ Finset.univ.image (Pipeline.arrRef spec1) → V3 m c b = V2 m c b :=
  fun b hb => W3_of_ne m c b fun w e => hb (Finset.mem_image.mpr ⟨w, Finset.mem_univ _, e⟩)

/-- An argument array reaches the end as launched: it is no array of either region's windows and no host operation
    writes it. -/
theorem W3_arg (c : Dev nD) (b : Ref sig .tc) (h1 : ∀ w, Pipeline.arrRef spec1 w ≠ b) (h0 : ∀ w, Pipeline.arrRef spec0 w ≠ b)
    (hw : b ∉ hostOps0_W) : W3 m c (Proc.devRef .tc b) = m ((c : Thread nD τ).loc b) :=
  (W3_of_ne m c b h1).trans ((W2_of_ne m c b h0).trans (Gen.V1_of m c b hw))

/-! ## The regions' descriptions together, and what rides beside the buffers -/

abbrev adm : (p : Fin 2) → (pcfgs (F := F) p).Adm := fun p => (cfgs p).toPCfg_adm
/-- Both regions' descriptions, each at its region's entry contents. -/
def pdats : (p : Fin 2) → (c : Dev nD) → Dat τ (Elt F) Unit ℕ (UR sig nD τ) ℕ (Pipeline.pin (pcfgs (F := F)) adm p) c
  | ⟨0, _⟩ => fun c => dat0 (V1 m) c
  | ⟨1, _⟩ => fun c => dat1 (V2 m) c
abbrev 𝒱₀ : Variants := Variants.none
abbrev L : GSem nD τ sig → Finset Unit := fun _ => ∅
abbrev lv : GSem nD τ sig → Unit → ℕ := fun _ _ => 0
/-- Beside the buffers through every item: the generator register at some state, and the core owing nothing. -/
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last state without what the core owes. -/
abbrev Tₙ (c : Dev nD) : sProp 𝕄 := iprop(StableHlo.held (c : Thread nD τ) (Pipeline.ucRefs τ sig) (W3 m c) ∗ ∃ r, prngReg c r)

/-! ## The regions as items -/

set_option backward.isDefEq.respectTransparency.types false in
/-- The first region: entered with every unscoped buffer at `W1`, left with them at `W2`. Its four arrays are split
    out of the unscoped buffers and put back at their exit contents; the generator register goes into the region and
    comes back; nothing is owed; the kernel has no semaphore of its own. -/
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m) c).loose
  hwaits := Pipeline.hwaits_of_owed_zero _ _ _ _ L lv 0 fun _ _ => rfl
  pre c := iprop(StableHlo.held (c : Thread nD τ) (Pipeline.ucRefs τ sig) (W1 m c) ∗ R c)
  post c := iprop(StableHlo.held (c : Thread nD τ) (Pipeline.ucRefs τ sig) (W2 m c) ∗ R c)
  X c := iprop(∃ r, prngReg c r)
  Y c := iprop(∃ r, prngReg c r)
  Z c := Pipeline.unscopedRest (Ix := Unit) (Name := ℕ) (U := UR sig nD τ) (Lvl := ℕ) spec0 c (V1 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (V1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (V1 m c) (V2 m c) ((pdats m 0 c).arrAt · cfg0.N) (exit0 m c) (rest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- The second region: entered with every unscoped buffer at `W2`, left with them at `W3`. As the first, except
    that its invariant names the accumulator's contents from one point to the next; at the two ends it is the plain one. -/
def reg1 : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V2 m) c).loose
  hwaits := Pipeline.hwaits_of_owed_zero _ _ _ _ L lv 1 fun _ _ => rfl
  pre c := iprop(StableHlo.held (c : Thread nD τ) (Pipeline.ucRefs τ sig) (W2 m c) ∗ R c)
  post c := iprop(Tₙ m c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (V2 m c)
  hentry c := by
    rw [Pipeline.ownSems0_none]
    have hsplit := Pipeline.arrays_of_unscopedBufs (p := 1) (pcfgs (F := F)) adm (pdats m) launch1.win launch1.arr_whole c
      ((pdats m 1 c).share_full fun _ => rfl) (V2 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none]
    exact (keeps_out (V2 m) c).trans (by
      unfold Pipeline.ΦA
      iintro ⟨Hr, Hp⟩
      isplitl [Hp]; · iexact Hp
      isplitr; · iempintro
      iexact Hr)
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (V2 m c) (V3 m c) ((pdats m 1 c).arrAt · cfg1.N) (exit1 m c) (rest1 m c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## The program as items, and the launch -/

abbrev segs : List (Pipeline.Seg (pcfgs (F := F)) adm (pdats m) () defs₀ 𝒱₀ L lv) :=
  [ .host (hseg hostOps0 hostOps0_sub Gen.hostOps0_fresh (W0 m)),
    .region (reg0 m),
    .region (reg1 m) ]
theorem main_run (c : Dev nD) : main (F := F) c = Pipeline.Seg.run (segs m) := (main_chain c).trans (by chain_rfl)

set_option backward.isDefEq.respectTransparency.types false in
/-- From any memory with zero counters, every weakly fair execution of the program on the TensorCores terminates,
    nothing faulting, and in every final state each unscoped buffer holds the last state's contents `W3`. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W3 m c b) :=
  Pipeline.θ_run_regions_kit (pcfgs (F := F)) adm (pdats m) () cellOf_inj emb₁ defs₀ 𝒱₀ L lv m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c)) (Tₙ := Tₙ m)
    (hch := ⟨fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W3 m c b)
    (hfin := fun c s' => by
      iintro ⟨⟨Hh, -⟩, HSI⟩
      unfold StableHlo.held
      imodintro
      iapply (pointsTo_read_all (Pipeline.ucRefs τ sig) (fun b => (((c : Thread nD τ)).1, b)) (W3 m c) s')
      isplitl [Hh] <;> iassumption)
    (hQ := fun s h c => h c)

/-- The program's run with the result array named and the arguments unchanged. -/
theorem run_result : θ_run defs (onTc (τ := τ) (main (F := F))) ⟨m, fun _ => 0, ρ⟩ (fun r => ∀ c : Dev nD,
      r.2.mem ((c.tc : Thread nD τ).loc main_v0) = (dat1 (V2 m) c).arrAt 2 cfg1.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun _ h c =>
    ⟨(h c _ (mem_uc main_v0 (by decide))).trans (W3_arr m c 2),
     (h c _ (mem_uc main_arg0 (by decide))).trans (W3_arg m c main_arg0 (by decide) (by decide) (by decide)),
     (h c _ (mem_uc main_arg1 (by decide))).trans (W3_arg m c main_arg1 (by decide) (by decide) (by decide)),
     (h c _ (mem_uc main_arg2 (by decide))).trans (W3_arg m c main_arg2 (by decide) (by decide) (by decide)),
     (h c _ (mem_uc main_arg3 (by decide))).trans (W3_arg m c main_arg3 (by decide) (by decide) (by decide)),
     (h c _ (mem_uc main_arg4 (by decide))).trans (W3_arg m c main_arg4 (by decide) (by decide) (by decide)),
     (h c _ (mem_uc main_arg5 (by decide))).trans (W3_arg m c main_arg5 (by decide) (by decide) (by decide)),
     (h c _ (mem_uc main_arg6 (by decide))).trans (W3_arg m c main_arg6 (by decide) (by decide) (by decide))⟩)
    (run_all m ρ)

/-- The frame: the program runs and its argument arrays end unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun _ h c => (h c).2) (run_result m ρ)

end Cert.KernelIdeal.Hand

end
-- ==== Proof.LibTransposedDot.lean ====
/-
  A matrix product whose right operand is contracted on its LAST axis, read at an index, at the ideal instance.

  For the dimension numbers "rows × contraction times columns × contraction" (`DotDims.transposedRhs M K N`: the
  product x · yᵀ written without a transpose) both the vector unit's matmul into a zero accumulator and the host's
  dot_general are, at output index (a, b), the sum over k of l (a, k) · r (b, k) on the extended reals. The sum over
  the one-axis contraction index is re-indexed by its one coordinate.
-/
import Idealize.ShloMosaic.PureOps.Ideal.Laws
import Idealize.ShloMosaic.Lib.ValueIdx

noncomputable section

open scoped BigOperators

namespace Idealize.ShloMosaic.TransposedDot

open Idealize.ShloMosaic Idealize.ShloMosaic.ValueIdx

theorem lhs0 (M K N : Nat) (i : (⟨2, ![M, N]⟩ : Shape).Idx) (q : (DotDims.transposedRhs M K N).contr.Idx) :
    ((DotDims.transposedRhs M K N).lhsIdx i q 0).val = (i 0).val := by
  unfold DotDims.lhsIdx
  rw [dif_neg (show ¬(0 : Fin 2) ∈ (DotDims.transposedRhs M K N).lhsBatch from List.not_mem_nil),
    dif_pos (show (0 : Fin 2) ∈ (DotDims.transposedRhs M K N).lhsNonContracting from List.mem_singleton.mpr rfl)]
  rfl
theorem lhs1 (M K N : Nat) (i : (⟨2, ![M, N]⟩ : Shape).Idx) (q : (DotDims.transposedRhs M K N).contr.Idx) :
    ((DotDims.transposedRhs M K N).lhsIdx i q 1).val = (q ⟨0, Nat.one_pos⟩).val :=
  (DotDims.transposedRhs M K N).lhsIdx_val_of_single rfl i q
theorem rhs0 (M K N : Nat) (i : (⟨2, ![M, N]⟩ : Shape).Idx) (q : (DotDims.transposedRhs M K N).contr.Idx) :
    ((DotDims.transposedRhs M K N).rhsIdx i q 0).val = (i 1).val := by
  unfold DotDims.rhsIdx
  rw [dif_neg (show ¬(0 : Fin 2) ∈ (DotDims.transposedRhs M K N).rhsBatch from List.not_mem_nil),
    dif_pos (show (0 : Fin 2) ∈ (DotDims.transposedRhs M K N).rhsNonContracting from List.mem_singleton.mpr rfl)]
  rfl
theorem rhs1 (M K N : Nat) (i : (⟨2, ![M, N]⟩ : Shape).Idx) (q : (DotDims.transposedRhs M K N).contr.Idx) :
    ((DotDims.transposedRhs M K N).rhsIdx i q 1).val = (q ⟨0, Nat.one_pos⟩).val :=
  (DotDims.transposedRhs M K N).rhsIdx_val_of_single rfl i q

/-- The contraction sum of such a product at (a, b), over the coordinate `k : Fin K`. -/
theorem sum_transposedRhs (M K N : Nat) {φ₁ φ₂ : FTy} (l : FVec Ideal ⟨2, ![M, K]⟩ φ₁) (r : FVec Ideal ⟨2, ![N, K]⟩ φ₂)
    (a : Fin M) (b : Fin N) :
    ∑ k : (DotDims.transposedRhs M K N).contr.Idx,
        l ((DotDims.transposedRhs M K N).lhsIdx (ix2 a b) k) * r ((DotDims.transposedRhs M K N).rhsIdx (ix2 a b) k)
      = ∑ k : Fin K, l (ix2 a k) * r (ix2 b k) := by
  rw [← Equiv.sum_comp (contrEquiv1 (DotDims.transposedRhs M K N) K rfl rfl).symm]
  refine Finset.sum_congr rfl fun k _ => ?_
  have hk := contrEquiv1_symm_val (DotDims.transposedRhs M K N) K rfl rfl k
  have el : (DotDims.transposedRhs M K N).lhsIdx (ix2 a b) ((contrEquiv1 (DotDims.transposedRhs M K N) K rfl rfl).symm k) = ix2 a k :=
    funext fun d => Fin.ext (by
      match d with
      | ⟨0, _⟩ => exact lhs0 M K N _ _
      | ⟨1, _⟩ => exact (lhs1 M K N _ _).trans hk)
  have er : (DotDims.transposedRhs M K N).rhsIdx (ix2 a b) ((contrEquiv1 (DotDims.transposedRhs M K N) K rfl rfl).symm k) = ix2 b k :=
    funext fun d => Fin.ext (by
      match d with
      | ⟨0, _⟩ => exact rhs0 M K N _ _
      | ⟨1, _⟩ => exact (rhs1 M K N _ _).trans hk)
  rw [el, er]

/-- The vector unit's matmul into the zero accumulator, at (a, b). -/
theorem matmul_transposedRhs {M K N : Nat} {φ₁ φ₂ : FTy} (D : DotDims ⟨2, ![M, K]⟩ ⟨2, ![N, K]⟩ ⟨2, ![M, N]⟩)
    (hD : D = DotDims.transposedRhs M K N) (prec : Option ContractPrecision)
    (l : FVec Ideal ⟨2, ![M, K]⟩ φ₁) (r : FVec Ideal ⟨2, ![N, K]⟩ φ₂) (a : Fin M) (b : Fin N) :
    matmul D prec l r (constant ⟨2, ![M, N]⟩ .f32 0x00000000#32) (ix2 a b) = ∑ k : Fin K, l (ix2 a k) * r (ix2 b k) := by
  subst hD
  exact (Ideal.matmul_constant_zero_apply _ prec l r (ix2 a b)).trans (sum_transposedRhs M K N l r a b)

/-- The host's dot_general, at (a, b). -/
theorem dotGeneral_transposedRhs {M K N : Nat} {φ₁ φ₂ : FTy} (D : DotDims ⟨2, ![M, K]⟩ ⟨2, ![N, K]⟩ ⟨2, ![M, N]⟩)
    (hD : D = DotDims.transposedRhs M K N) (prec : Option ContractPrecision)
    (l : FVec Ideal ⟨2, ![M, K]⟩ φ₁) (r : FVec Ideal ⟨2, ![N, K]⟩ φ₂) (a : Fin M) (b : Fin N) :
    Host.dotGeneral (F := Ideal) D prec l r (ix2 a b) = ∑ k : Fin K, l (ix2 a k) * r (ix2 b k) := by
  subst hD
  simp only [Host.dotGeneral]
  exact (Ideal.dotGeneral_apply _ prec _ l r (ix2 a b)).trans (sum_transposedRhs M K N l r a b)

end Idealize.ShloMosaic.TransposedDot

end
-- ==== Proof.KPay.lean ====
/-
  The kernel's three payloads read at one element, on the extended reals.

  The gate/up payload at (p, q): with gate = Σ_k x(p,k)·a(q,k) and up = Σ_k x(p,k)·b(q,k) — both matrix products
  contract the right operand on its last axis and accumulate into zero — the value is (gate · σ(gate)) · up, σ the
  logistic function; reshapes to the same shape and the narrowing of the format change nothing on the extended reals.
  The initial accumulator payload is 0 everywhere. The down payload at (p, q) is the accumulator there plus
  Σ_j h(p,j)·w(q,j).
-/
import proofs.«125092_j13889924235944_2_alg».proof.Proof.Gen.KernelIdeal.Skeleton
import proofs.«125092_j13889924235944_2_alg».proof.Proof.LibTransposedDot
import Idealize.ShloMosaic.Lib.ValueIdx
import Idealize.ShloMosaic.Lib.Pipeline.Value
import Idealize.ShloMosaic.PureOps.Ideal.Laws

noncomputable section

open scoped BigOperators

namespace Cert.KernelIdeal.Pay

open Cert.KernelIdeal Cert.KernelIdeal.Gen Idealize.ShloMosaic Idealize.ShloMosaic.ValueIdx

/-- The gate/up payload at (p, q) is (gate · σ(gate)) · up. -/
theorem pay0_apply (x0 : Vec Ideal S2048x2048 .bf16) (x1 x2 : Vec Ideal S256x2048 .bf16) (p : Fin 2048) (q : Fin 256) :
    k0_pay1 (F := Ideal) x0 x1 x2 (ix2 p q)
      = ((∑ k : Fin 2048, x0 (ix2 p k) * x1 (ix2 q k)) * Ideal.logistic (∑ k : Fin 2048, x0 (ix2 p k) * x1 (ix2 q k)))
          * (∑ k : Fin 2048, x0 (ix2 p k) * x2 (ix2 q k)) := by
  have hg := TransposedDot.matmul_transposedRhs (φ₁ := .bf16) (φ₂ := .bf16) dot_S2048x2048_S256x2048_S2048x256_1_1_0_0_n_n rfl none x0 x1 p q
  have hu := TransposedDot.matmul_transposedRhs (φ₁ := .bf16) (φ₂ := .bf16) dot_S2048x2048_S256x2048_S2048x256_1_1_0_0_n_n rfl none x0 x2 p q
  unfold k0_pay1
  simp only [shapeCast_self]
  exact congrArg₂ (· * ·) (congrArg₂ (· * ·) hg (congrArg Ideal.logistic hg)) hu

/-- The initial accumulator payload is zero at every index. -/
theorem pay1_apply (j : S2048x1024.Idx) : k1_pay1 (F := Ideal) j = 0 := by
  unfold k1_pay1
  simp only [shapeCast_self]
  exact Ideal.ofBits_zero_f32

/-- The down payload at (p, q) is the accumulator there plus the contraction of h's row p with w's row q. -/
theorem pay2_apply (h : Vec Ideal S2048x512 .bf16) (w : Vec Ideal S1024x512 .bf16) (acc : Vec Ideal S2048x1024 .f32) (p : Fin 2048) (q : Fin 1024) :
    k1_pay2 (F := Ideal) h w acc (ix2 p q) = acc (ix2 p q) + ∑ j : Fin 512, h (ix2 p j) * w (ix2 q j) := by
  have hm := TransposedDot.matmul_transposedRhs (φ₁ := .bf16) (φ₂ := .bf16) dot_S2048x512_S1024x512_S2048x1024_1_1_0_0_n_n rfl none h w p q
  unfold k1_pay2
  simp only [shapeCast_self]
  exact congrArg (acc (ix2 p q) + ·) hm

end Cert.KernelIdeal.Pay

end
-- ==== Proof.Spec.lean ====
/-
  What both programs compute, on the extended reals, as one function of four arrays: the tokens x [8192, 2048],
  two projection matrices a, b [5632, 2048] (already rescaled block by block) and the output matrix w [2048, 5632].
  For token t and hidden unit i, gate = Σ_k x(t,k)·a(i,k) and up = Σ_k x(t,k)·b(i,k); the hidden activation is
  (gate · σ(gate)) · up with σ the logistic function, in this order of the two products; and the result at
  (t, d) is Σ_i hidden(t,i) · w(d,i).
-/
import Idealize.ShloMosaic.PureOps.Ideal
import Idealize.ShloMosaic.Lib.ValueIdx

noncomputable section

open scoped BigOperators

namespace Cert.Spec

open Idealize.ShloMosaic Idealize.ShloMosaic.ValueIdx

/-- The gated activation (gate · σ(gate)) · up of token `t` at hidden unit `i`. -/
def hidden (x : (⟨2, ![8192, 2048]⟩ : Shape).Idx → EReal) (a b : (⟨2, ![5632, 2048]⟩ : Shape).Idx → EReal)
    (t : Fin 8192) (i : Fin 5632) : EReal :=
  ((∑ k : Fin 2048, x (ix2 t k) * a (ix2 i k)) * Ideal.logistic (∑ k : Fin 2048, x (ix2 t k) * a (ix2 i k)))
    * (∑ k : Fin 2048, x (ix2 t k) * b (ix2 i k))

/-- The activations as an [8192, 5632] array. -/
def hiddenArr (x : (⟨2, ![8192, 2048]⟩ : Shape).Idx → EReal) (a b : (⟨2, ![5632, 2048]⟩ : Shape).Idx → EReal) :
    (⟨2, ![8192, 5632]⟩ : Shape).Idx → EReal := fun j => hidden x a b (j 0) (j 1)

/-- The down projection of an activation array `h` at token `t` and model coordinate `d`. -/
def downAt (h : (⟨2, ![8192, 5632]⟩ : Shape).Idx → EReal) (w : (⟨2, ![2048, 5632]⟩ : Shape).Idx → EReal)
    (t : Fin 8192) (d : Fin 2048) : EReal :=
  ∑ i : Fin 5632, h (ix2 t i) * w (ix2 d i)

/-- The whole result, an [8192, 2048] array. -/
def out (x : (⟨2, ![8192, 2048]⟩ : Shape).Idx → EReal) (a b : (⟨2, ![5632, 2048]⟩ : Shape).Idx → EReal)
    (w : (⟨2, ![2048, 5632]⟩ : Shape).Idx → EReal) : (⟨2, ![8192, 2048]⟩ : Shape).Idx → EReal :=
  fun j => downAt (hiddenArr x a b) w (j 0) (j 1)

end Cert.Spec

end
-- ==== Proof.KIVal0.lean ====
/-
  The activations the first kernel region leaves in its output array, on the extended reals: the [8192, 5632] array
  hidden(t, i) = (gate · σ(gate)) · up of the specification, of the token array and the two projection arrays as the
  region finds them. Grid point (I, J) of the 4 × 22 grid writes the [2048, 256] block (I, J); its element (p, q) is
  computed from row p of token block I and row q of block J of each projection array, which are rows 2048·I + p and
  256·J + q of the arrays; the 88 blocks tile the array.
-/
import proofs.«125092_j13889924235944_2_alg».proof.Proof.KI.R0
import proofs.«125092_j13889924235944_2_alg».proof.Proof.KPay
import proofs.«125092_j13889924235944_2_alg».proof.Proof.Spec
import Idealize.ShloMosaic.Lib.Pipeline.Value
import Idealize.ShloMosaic.Lib.ValueIdx

noncomputable section

open scoped BigOperators

namespace Cert.KernelIdeal.Val0

open Cert.KernelIdeal Cert.KernelIdeal.Gen Idealize.ShloMosaic Idealize.ShloMosaic.TcCoe Idealize.SL.Sem
open Idealize.ShloMosaic.ValueIdx
open Idealize.ShloMosaic.Pipeline (Dat)

variable (V : (c : Dev nD) → (b : Ref sig .tc) → Buf (Elt Ideal) ((c : Thread nD τ).loc b))

theorem hz : (![0, 0] : Fin 2 → Nat) = fun _ => 0 := funext fun a => by fin_cases a <;> rfl

/-- One element of the block a point computes: when row p of the token block is row r of the token array and row q of
    each projection block is row i of its array, element (p, q) is hidden(r, i). -/
theorem act_at (x : (⟨2, ![8192, 2048]⟩ : Shape).Idx → EReal) (a b : (⟨2, ![5632, 2048]⟩ : Shape).Idx → EReal)
    (X0 : Vec Ideal S2048x2048 .bf16) (X1 X2 : Vec Ideal S256x2048 .bf16)
    (p : Fin 2048) (q : Fin 256) (r : Fin 8192) (i : Fin 5632)
    (h0 : ∀ k : Fin 2048, X0 (ix2 p k) = x (ix2 r k)) (h1 : ∀ k : Fin 2048, X1 (ix2 q k) = a (ix2 i k))
    (h2 : ∀ k : Fin 2048, X2 (ix2 q k) = b (ix2 i k)) :
    k0_pay1 (F := Ideal) X0 X1 X2 (ix2 p q) = Cert.Spec.hidden x a b r i := by
  rw [Pay.pay0_apply]
  unfold Cert.Spec.hidden
  simp only [h0, h1, h2]

/-- The activation array at an index whose coordinates are r and i is hidden(r, i). -/
theorem hiddenArr_at (x : (⟨2, ![8192, 2048]⟩ : Shape).Idx → EReal) (a b : (⟨2, ![5632, 2048]⟩ : Shape).Idx → EReal)
    (j : (⟨2, ![8192, 5632]⟩ : Shape).Idx) (r : Fin 8192) (i : Fin 5632) (h0 : (j 0).val = r.val) (h1 : (j 1).val = i.val) :
    Cert.Spec.hiddenArr x a b j = Cert.Spec.hidden x a b r i := by
  have e0 : j 0 = r := Fin.ext h0
  have e1 : j 1 = i := Fin.ext h1
  unfold Cert.Spec.hiddenArr
  rw [e0, e1]

/-- The block indices of the four windows at grid point t = 22·I + J: (I, 0) for the tokens, (J, 0) for the two
    projection arrays, (I, J) for the activations. -/
theorem idx_facts : ∀ t : Fin cfg0.N,
    win0_3.index t (0 : Fin 2) = t.val / 22 ∧ win0_3.index t (1 : Fin 2) = t.val % 22
    ∧ win0_0.index t (0 : Fin 2) = t.val / 22 ∧ win0_0.index t (1 : Fin 2) = 0
    ∧ win0_1.index t (0 : Fin 2) = t.val % 22 ∧ win0_1.index t (1 : Fin 2) = 0
    ∧ win0_2.index t (0 : Fin 2) = t.val % 22 ∧ win0_2.index t (1 : Fin 2) = 0 :=
  (by decide +kernel : ∀ t : Fin grid0.N, _)

theorem flushed_eq (c : Dev nD) (t : Fin cfg0.N) :
    (Hand.dat0 (F := Ideal) V c).flushed 3 t
      = ((cfg0.win 3).blk t).view.read (Elt Ideal) (Cert.Spec.hiddenArr (V c main_call0_v18) (V c main_call0_v5) (V c main_call0_v11)) := by
  show (cfg0.win 3).cut (grid0.coords t) ((Hand.dat0 (F := Ideal) V c).after 3 t) = _
  rw [Hand.after0_3]
  unfold Hand.actOut
  rw [View.canon_unit_zero hz]
  simp only [View.ld_unit_zero (S := S2048x2048) hz, View.ld_unit_zero (S := S256x2048) hz]
  funext y
  have hy0 : (y 0).val < 2048 := (y 0).isLt
  have hy1 : (y 1).val < 256 := (y 1).isLt
  have ht : t.val < 88 := Nat.lt_of_lt_of_eq t.isLt (show cfg0.N = 88 from N_0)
  obtain ⟨e30, e31, e00, e01, e10, e11, e20, e21⟩ := idx_facts t
  have ey : (fun d => y d : S2048x256.Idx) = ix2 (⟨(y 0).val, hy0⟩ : Fin 2048) (⟨(y 1).val, hy1⟩ : Fin 256) :=
    funext fun d => match d with | ⟨0, _⟩ => rfl | ⟨1, _⟩ => rfl
  refine Eq.trans (congrArg (k0_pay1 (F := Ideal) (Hand.blk0 V c 0 t) (Hand.blk0 V c 1 t) (Hand.blk0 V c 2 t)) ey) ?_
  refine (act_at (V c main_call0_v18) (V c main_call0_v5) (V c main_call0_v11) _ _ _ ⟨(y 0).val, hy0⟩ ⟨(y 1).val, hy1⟩
    (⟨t.val / 22 * 2048 + (y 0).val, by omega⟩ : Fin 8192) (⟨t.val % 22 * 256 + (y 1).val, by omega⟩ : Fin 5632) ?_ ?_ ?_).trans ?_
  · intro k
    show V c main_call0_v18 (((cfg0.win 0).blk t).view.emb (ix2 (⟨(y 0).val, hy0⟩ : Fin 2048) k)) = _
    refine congrArg _ (funext fun a => Fin.ext ?_)
    match a with
    | ⟨0, _⟩ => show win0_0.index t (0 : Fin 2) * 2048 + 1 * (y 0).val = t.val / 22 * 2048 + (y 0).val; rw [e00]; omega
    | ⟨1, _⟩ => show win0_0.index t (1 : Fin 2) * 2048 + 1 * k.val = k.val; rw [e01]; omega
  · intro k
    show V c main_call0_v5 (((cfg0.win 1).blk t).view.emb (ix2 (⟨(y 1).val, hy1⟩ : Fin 256) k)) = _
    refine congrArg _ (funext fun a => Fin.ext ?_)
    match a with
    | ⟨0, _⟩ => show win0_1.index t (0 : Fin 2) * 256 + 1 * (y 1).val = t.val % 22 * 256 + (y 1).val; rw [e10]; omega
    | ⟨1, _⟩ => show win0_1.index t (1 : Fin 2) * 2048 + 1 * k.val = k.val; rw [e11]; omega
  · intro k
    show V c main_call0_v11 (((cfg0.win 2).blk t).view.emb (ix2 (⟨(y 1).val, hy1⟩ : Fin 256) k)) = _
    refine congrArg _ (funext fun a => Fin.ext ?_)
    match a with
    | ⟨0, _⟩ => show win0_2.index t (0 : Fin 2) * 256 + 1 * (y 1).val = t.val % 22 * 256 + (y 1).val; rw [e20]; omega
    | ⟨1, _⟩ => show win0_2.index t (1 : Fin 2) * 2048 + 1 * k.val = k.val; rw [e21]; omega
  · rw [View.read_apply]
    refine (hiddenArr_at _ _ _ _ _ _ ?_ ?_).symm
    · show win0_3.index t (0 : Fin 2) * 2048 + 1 * (y 0).val = t.val / 22 * 2048 + (y 0).val; rw [e30]; omega
    · show win0_3.index t (1 : Fin 2) * 256 + 1 * (y 1).val = t.val % 22 * 256 + (y 1).val; rw [e31]; omega

/-- An index of the activation array is in point t's block iff each coordinate is in the block's range on its axis. -/
theorem mem_blk (t : Fin cfg0.N) (i : S8192x5632.Idx) :
    i ∈ ((cfg0.win 3).blk t).view.set ↔ ∀ a : Fin 2, win0_3.index t a * S2048x256.size a ≤ (i a).val ∧ (i a).val < win0_3.index t a * S2048x256.size a + S2048x256.size a := by
  show i ∈ ((View.whole main_call0_v19).slice (win0_3.rect t)).set ↔ _
  rw [View.set_slice_whole, Rect.mem_set_unit]
  exact Iff.rfl

/-- The blocks tile the array: index (r, i) is in the block of the point 22·(r / 2048) + i / 256, which writes back. -/
theorem cover (i : S8192x5632.Idx) : ∃ t : Fin cfg0.N, (cfg0.win 3).flush t = true ∧ i ∈ ((cfg0.win 3).blk t).view.set := by
  have hi0 : (i 0).val < 8192 := (i 0).isLt
  have hi1 : (i 1).val < 5632 := (i 1).isLt
  obtain ⟨t, tv⟩ : ∃ t : Fin cfg0.N, t.val = (i 0).val / 2048 * 22 + (i 1).val / 256 :=
    ⟨⟨(i 0).val / 2048 * 22 + (i 1).val / 256, Nat.lt_of_lt_of_eq (by omega) (show cfg0.N = 88 from N_0).symm⟩, rfl⟩
  obtain ⟨e30, e31, -⟩ := idx_facts t
  refine ⟨t, flush0_3 t, ?_⟩
  rw [mem_blk]
  intro a
  match a with
  | ⟨0, _⟩ => show win0_3.index t (0 : Fin 2) * 2048 ≤ (i 0).val ∧ (i 0).val < win0_3.index t (0 : Fin 2) * 2048 + 2048; rw [e30, tv]; omega
  | ⟨1, _⟩ => show win0_3.index t (1 : Fin 2) * 256 ≤ (i 1).val ∧ (i 1).val < win0_3.index t (1 : Fin 2) * 256 + 256; rw [e31, tv]; omega

/-- The activation array after the region is the specification's activations of the three input arrays as the region
    finds them. -/
theorem hidden_final (c : Dev nD) :
    (Hand.dat0 (F := Ideal) V c).arrAt 3 cfg0.N
      = Cert.Spec.hiddenArr (V c main_call0_v18) (V c main_call0_v5) (V c main_call0_v11) :=
  (Hand.dat0 (F := Ideal) V c).arrAt_eq_of_cover 3 (Cert.Spec.hiddenArr (V c main_call0_v18) (V c main_call0_v5) (V c main_call0_v11))
    (fun t _ => flushed_eq V c t) cover

end Cert.KernelIdeal.Val0

end
-- ==== Proof.KIVal1a.lean ====
/-
  The second kernel region's found stores, named.
  What each case's run leaves in the accumulator, and what a last point leaves in the output block, is the body's
  one arithmetic step — the accumulator's previous contents plus the product of the point's two input blocks —
  applied to the point's input blocks: at a first point to the cleared accumulator, at a later point to what the
  point before left. Read off the runs' store lists, for any float instance.
-/
import proofs.«125092_j13889924235944_2_alg».proof.Proof.KI.R1
import Idealize.ShloMosaic.Lib.Pipeline.Value

set_option maxRecDepth 16384

noncomputable section

namespace Cert.KernelIdeal.Val1

open Cert.KernelIdeal Cert.KernelIdeal.Gen Cert.KernelIdeal.Hand
open Idealize.ShloMosaic Idealize.ShloMosaic.TcCoe Idealize.ShloMosaic.Tactic
open Idealize.SL Idealize.SL.Sem

variable {F : FTy → Type} [FloatOps F]

/-- The zero offsets of a whole-block rectangle, however they are spelt. -/
theorem zeroOff : (![0, 0] : Fin 2 → Nat) = fun _ => 0 := funext fun a => by fin_cases a <;> rfl

/-- A middle point leaves the step applied to what the point before left. -/
theorem accMid_eq (c : Dev nD) (i : grid1.Coords) (arg3 : Memref sig .tc .vmem S2048x512 .bf16) (harg3 : arg3.IsWhole) (arg4 : Memref sig .tc .vmem S1024x512 .bf16) (harg4 : arg4.IsWhole) (arg5 : Memref sig .tc .vmem S2048x1024 .f32) (harg5 : arg5.IsWhole) (arg6 : Memref sig .tc .vmem S2048x1024 .f32) (harg6 : arg6.IsWhole) (hc0 : ¬isFirst i) (hc1 : ¬isLast i) (x0 : Vec F S2048x512 .bf16) (x1 : Vec F S1024x512 .bf16) (xs : Vec F S2048x1024 .f32) :
    accMid c i arg3 harg3 arg4 harg4 arg5 harg5 arg6 harg6 hc0 hc1 x0 x1 xs = k1_pay2 x0 x1 xs := by
  unfold accMid
  rw [View.read_writes_eq_canon _ _ _ (accCoverMid c i arg3 harg3 arg4 harg4 arg5 harg5 arg6 harg6 hc0 hc1 x0 x1 xs)]
  unfold runMid
  dsimp only
  sl_unfold_words
  rw [View.canon_unit_zero zeroOff]
  simp only [View.readAt_eq_ld, harg3.read_unread, harg4.read_unread, harg6.read_unread,
    View.ld_unit_zero (S := S2048x512) zeroOff, View.ld_unit_zero (S := S1024x512) zeroOff, View.ld_unit_zero (S := S2048x1024) zeroOff]

/-- A last point leaves the same in the accumulator … -/
theorem accLast_eq (c : Dev nD) (i : grid1.Coords) (arg3 : Memref sig .tc .vmem S2048x512 .bf16) (harg3 : arg3.IsWhole) (arg4 : Memref sig .tc .vmem S1024x512 .bf16) (harg4 : arg4.IsWhole) (arg5 : Memref sig .tc .vmem S2048x1024 .f32) (harg5 : arg5.IsWhole) (arg6 : Memref sig .tc .vmem S2048x1024 .f32) (harg6 : arg6.IsWhole) (hc0 : ¬isFirst i) (hc1 : isLast i) (x0 : Vec F S2048x512 .bf16) (x1 : Vec F S1024x512 .bf16) (xs : Vec F S2048x1024 .f32) :
    accLast c i arg3 harg3 arg4 harg4 arg5 harg5 arg6 harg6 hc0 hc1 x0 x1 xs = k1_pay2 x0 x1 xs := by
  unfold accLast
  rw [View.read_writes_eq_canon _ _ _ (accCoverLast c i arg3 harg3 arg4 harg4 arg5 harg5 arg6 harg6 hc0 hc1 x0 x1 xs)]
  unfold runLast
  dsimp only
  sl_unfold_words
  rw [View.canon_unit_zero zeroOff]
  simp only [View.readAt_eq_ld, harg3.read_unread, harg4.read_unread, harg6.read_unread,
    View.ld_unit_zero (S := S2048x512) zeroOff, View.ld_unit_zero (S := S1024x512) zeroOff, View.ld_unit_zero (S := S2048x1024) zeroOff]

/-- … and copies it into the output block. -/
theorem outLast_eq (c : Dev nD) (i : grid1.Coords) (arg3 : Memref sig .tc .vmem S2048x512 .bf16) (harg3 : arg3.IsWhole) (arg4 : Memref sig .tc .vmem S1024x512 .bf16) (harg4 : arg4.IsWhole) (arg5 : Memref sig .tc .vmem S2048x1024 .f32) (harg5 : arg5.IsWhole) (arg6 : Memref sig .tc .vmem S2048x1024 .f32) (harg6 : arg6.IsWhole) (hc0 : ¬isFirst i) (hc1 : isLast i) (x0 : Vec F S2048x512 .bf16) (x1 : Vec F S1024x512 .bf16) (xs : Vec F S2048x1024 .f32) :
    outLast c i arg3 harg3 arg4 harg4 arg5 harg5 arg6 harg6 hc0 hc1 x0 x1 xs = k1_pay2 x0 x1 xs := by
  unfold outLast
  rw [View.read_writes_eq_canon _ _ _ (outCoverLast c i arg3 harg3 arg4 harg4 arg5 harg5 arg6 harg6 hc0 hc1 x0 x1 xs)]
  unfold runLast
  dsimp only
  sl_unfold_words
  rw [View.canon_unit_zero zeroOff, View.readCov_unit_zero _ zeroOff]
  simp only [View.readAt_eq_ld, harg3.read_unread, harg4.read_unread, harg6.read_unread,
    View.ld_unit_zero (S := S2048x512) zeroOff, View.ld_unit_zero (S := S1024x512) zeroOff, View.ld_unit_zero (S := S2048x1024) zeroOff]

/-- A first point leaves the step applied to the cleared accumulator. -/
theorem accFirst_eq (c : Dev nD) (i : grid1.Coords) (arg3 : Memref sig .tc .vmem S2048x512 .bf16) (harg3 : arg3.IsWhole) (arg4 : Memref sig .tc .vmem S1024x512 .bf16) (harg4 : arg4.IsWhole) (arg5 : Memref sig .tc .vmem S2048x1024 .f32) (harg5 : arg5.IsWhole) (arg6 : Memref sig .tc .vmem S2048x1024 .f32) (harg6 : arg6.IsWhole) (hc0 : isFirst i) (hc1 : ¬isLast i) (x0 : Vec F S2048x512 .bf16) (x1 : Vec F S1024x512 .bf16) :
    accFirst c i arg3 harg3 arg4 harg4 arg5 harg5 arg6 harg6 hc0 hc1 x0 x1 = k1_pay2 x0 x1 (k1_pay1 (F := F)) := by
  unfold accFirst
  rw [View.read_writes_eq_canon _ _ _ (accCoverFirst c i arg3 harg3 arg4 harg4 arg5 harg5 arg6 harg6 hc0 hc1 x0 x1)]
  unfold runFirst
  dsimp only
  sl_unfold_words
  rw [View.canon_cons_unit_zero zeroOff, View.readCov_unit_zero _ zeroOff]
  simp only [View.readAt_eq_ld, harg3.read_unread, harg4.read_unread,
    View.ld_unit_zero (S := S2048x512) zeroOff, View.ld_unit_zero (S := S1024x512) zeroOff]

end Cert.KernelIdeal.Val1

end
-- ==== Proof.LibSumBlocks.lean ====
/-
  A sum of `J · n` consecutive terms cut into `n` consecutive blocks of `J` terms each: adding block by block
  gives the same total as adding all terms at once. Only commutativity and associativity of `+` are used, so
  the statement holds in every commutative additive monoid — in particular on the extended reals, where a sum
  may contain infinities and no cancellation law is available.
-/
import Mathlib.Algebra.BigOperators.Fin
import Mathlib.Algebra.BigOperators.Intervals

namespace Cert.LibSumBlocks

/-- Block `s` holds the terms `J·s, …, J·s + J - 1`; the first `n` blocks together are the first `J·n` terms. -/
theorem sum_blocks_range {β : Type*} [AddCommMonoid β] (g : ℕ → β) (J : ℕ) :
    ∀ n : ℕ, ∑ s ∈ Finset.range n, ∑ j ∈ Finset.range J, g (J * s + j) = ∑ k ∈ Finset.range (J * n), g k
  | 0 => by simp
  | n + 1 => by
    rw [Finset.sum_range_succ, sum_blocks_range g J n, Nat.mul_succ, Finset.sum_range_add]

/-- The same with the inner sums and the total indexed by `Fin`. -/
theorem sum_blocks_fin {β : Type*} [AddCommMonoid β] (g : ℕ → β) (J n : ℕ) :
    ∑ s ∈ Finset.range n, ∑ j : Fin J, g (J * s + j.val) = ∑ k : Fin (J * n), g k.val := by
  rw [Fin.sum_univ_eq_sum_range (fun k => g k) (J * n), ← sum_blocks_range g J n]
  refine Finset.sum_congr rfl fun s _ => ?_
  exact Fin.sum_univ_eq_sum_range (fun j => g (J * s + j)) J

end Cert.LibSumBlocks
-- ==== Proof.KIVal1.lean ====
/-
  The value of the second kernel region's output array, on the extended reals.
  For the output block (a, b) the eleven points k = 0 … 10 of its row of the grid add, one after the other, the products
  of the [2048, 512] block (a, k) of the activations h with the transposed [1024, 512] block (b, k) of the output matrix
  w to an accumulator that starts at zero; the last of them copies the accumulator out. So element (p, q) of the block
  ends at 0 + Σ_{k < 11} Σ_{j < 512} h(2048a + p, 512k + j) · w(1024b + q, 512k + j), which is the one sum
  Σ_{i < 5632} h(2048a + p, i) · w(1024b + q, i) cut into eleven consecutive blocks of 512 terms: only commutativity
  and associativity of + are used, so infinities do no harm. The blocks (a, b) tile the [8192, 2048] result.
-/
import proofs.«125092_j13889924235944_2_alg».proof.Proof.KIVal1a
import proofs.«125092_j13889924235944_2_alg».proof.Proof.KPay
import proofs.«125092_j13889924235944_2_alg».proof.Proof.Spec
import proofs.«125092_j13889924235944_2_alg».proof.Proof.LibSumBlocks
import Idealize.ShloMosaic.Lib.Pipeline.Value
import Idealize.ShloMosaic.Lib.ValueIdx

set_option maxRecDepth 16384

noncomputable section

open scoped BigOperators

namespace Cert.KernelIdeal.Val1

open Cert.KernelIdeal Cert.KernelIdeal.Gen Cert.KernelIdeal.Hand
open Idealize.ShloMosaic Idealize.ShloMosaic.TcCoe Idealize.ShloMosaic.ValueIdx
open Idealize.SL Idealize.SL.Sem

variable (V : (c : Dev nD) → (b : Ref sig .tc) → Buf (Elt Ideal) ((c : Thread nD τ).loc b)) (c : Dev nD)

/-- The activations as a function of two naturals (zero outside the array). -/
def actN (r k : ℕ) : EReal :=
  if h : r < 8192 ∧ k < 5632 then (V c main_call0_v19 : S8192x5632.Idx → EReal) (ix2 ⟨r, h.1⟩ ⟨k, h.2⟩) else 0
/-- The output matrix as a function of two naturals (zero outside the array). -/
def matN (d k : ℕ) : EReal :=
  if h : d < 2048 ∧ k < 5632 then (V c main_call0_v17 : S2048x5632.Idx → EReal) (ix2 ⟨d, h.1⟩ ⟨k, h.2⟩) else 0

/-- The block indices of the three windows at point t = (2a + b)·11 + k: (a, k), (b, k), (a, b). -/
theorem blockIdx : ∀ t : Fin cfg1.N, win1_0.index t (0 : Fin 2) = t.val / 22 ∧ win1_0.index t (1 : Fin 2) = t.val % 11
    ∧ win1_1.index t (0 : Fin 2) = t.val / 11 % 2 ∧ win1_1.index t (1 : Fin 2) = t.val % 11
    ∧ win1_2.index t (0 : Fin 2) = t.val / 22 ∧ win1_2.index t (1 : Fin 2) = t.val / 11 % 2 :=
  (by decide +kernel : ∀ t : Fin grid1.N, _)

/-- An element of the activations block at point `t`. -/
theorem actBlk (t : Fin cfg1.N) (p : Fin 2048) (j : Fin 512) :
    (blk1 V c 0 t : S2048x512.Idx → EReal) (ix2 p j) = actN V c (2048 * (t.val / 22) + p.val) (512 * (t.val % 11) + j.val) := by
  have hN : t.val < 88 := lt_of_lt_of_eq t.isLt N_1
  obtain ⟨e0, e1, -⟩ := blockIdx t
  unfold actN
  rw [dif_pos ⟨by omega, by omega⟩]
  show (V c main_call0_v19 : S8192x5632.Idx → EReal) (((cfg1.win 0).blk t).view.emb (ix2 p j)) = _
  refine congrArg _ (funext fun a => Fin.ext ?_)
  match a with
  | ⟨0, _⟩ => show win1_0.index t (0 : Fin 2) * 2048 + 1 * p.val = 2048 * (t.val / 22) + p.val; omega
  | ⟨1, _⟩ => show win1_0.index t (1 : Fin 2) * 512 + 1 * j.val = 512 * (t.val % 11) + j.val; omega

/-- An element of the output matrix's block at point `t`. -/
theorem matBlk (t : Fin cfg1.N) (q : Fin 1024) (j : Fin 512) :
    (blk1 V c 1 t : S1024x512.Idx → EReal) (ix2 q j) = matN V c (1024 * (t.val / 11 % 2) + q.val) (512 * (t.val % 11) + j.val) := by
  have hN : t.val < 88 := lt_of_lt_of_eq t.isLt N_1
  obtain ⟨-, -, e2, e3, -⟩ := blockIdx t
  unfold matN
  rw [dif_pos ⟨by omega, by omega⟩]
  show (V c main_call0_v17 : S2048x5632.Idx → EReal) (((cfg1.win 1).blk t).view.emb (ix2 q j)) = _
  refine congrArg _ (funext fun a => Fin.ext ?_)
  match a with
  | ⟨0, _⟩ => show win1_1.index t (0 : Fin 2) * 1024 + 1 * q.val = 1024 * (t.val / 11 % 2) + q.val; omega
  | ⟨1, _⟩ => show win1_1.index t (1 : Fin 2) * 512 + 1 * j.val = 512 * (t.val % 11) + j.val; omega

/-- What point `n` adds at element `y` of its output block. -/
def addend (n : ℕ) (y : S2048x1024.Idx) : EReal :=
  ∑ j : Fin 512, actN V c (2048 * (n / 22) + (y 0).val) (512 * (n % 11) + j.val) * matN V c (1024 * (n / 11 % 2) + (y 1).val) (512 * (n % 11) + j.val)

/-- The body's step at point `t`, at an element: the accumulator's element plus the point's addend. -/
theorem step_at (t : Fin cfg1.N) (acc : Vec Ideal S2048x1024 .f32) (y : S2048x1024.Idx) :
    k1_pay2 (F := Ideal) (blk1 V c 0 t) (blk1 V c 1 t) acc y = acc y + addend V c t.val y := by
  obtain ⟨p, q, rfl⟩ : ∃ (p : Fin 2048) (q : Fin 1024), y = ix2 p q := ⟨y 0, y 1, eq_ix2 y⟩
  refine (Pay.pay2_apply (blk1 V c 0 t) (blk1 V c 1 t) acc p q).trans ?_
  refine congrArg _ (Finset.sum_congr rfl fun j _ => ?_)
  rw [actBlk V c t p j, matBlk V c t q j]

/-- The accumulator after position `n`. -/
def accOf (n : ℕ) (hn : n < cfg1.N) : Vec Ideal S2048x1024 .f32 := (stateAt (F := Ideal) V c n hn).2

/-- The body's step at position `n` applied to an accumulator. -/
def stepOf (n : ℕ) (hn : n < cfg1.N) (acc : Vec Ideal S2048x1024 .f32) : Vec Ideal S2048x1024 .f32 :=
  k1_pay2 (F := Ideal) (blk1 V c 0 ⟨n, hn⟩) (blk1 V c 1 ⟨n, hn⟩) acc

theorem stepOf_point (t : Fin cfg1.N) (acc : Vec Ideal S2048x1024 .f32) :
    stepOf V c t.val t.isLt acc = k1_pay2 (F := Ideal) (blk1 V c 0 t) (blk1 V c 1 t) acc := rfl

/-- At the first point of a row of eleven the accumulator restarts. -/
theorem acc_reset_point (t : Fin cfg1.N) (h0 : t.val % 11 = 0) :
    accOf V c t.val t.isLt = stepOf V c t.val t.isLt (k1_pay1 (F := Ideal)) := by
  have h1 : ¬t.val % 11 = 10 := by omega
  rw [stepOf_point]
  unfold accOf
  rw [stateAt_first V c t h0 h1]
  dsimp only
  exact accFirst_eq c (grid1.coords t) (ms1_0 t) (hs1_0 t) (ms1_1 t) (hs1_1 t) (ms1_2 t) (hs1_2 t) accM (Memref.isWhole_whole _) ((isFirst_iff t).mpr h0) (fun h => h1 ((isLast_iff t).mp h)) (blk1 V c 0 t) (blk1 V c 1 t)

theorem acc_reset (n : ℕ) (hn : n < cfg1.N) (h0 : n % 11 = 0) :
    accOf V c n hn = stepOf V c n hn (k1_pay1 (F := Ideal)) :=
  acc_reset_point V c ⟨n, hn⟩ h0

/-- At every other point it steps from what the point before left. -/
theorem acc_step_point (t : Fin cfg1.N) (h0 : ¬t.val % 11 = 0) :
    accOf V c t.val t.isLt = stepOf V c t.val t.isLt (accOf V c (t.val - 1) (Nat.lt_of_le_of_lt (Nat.sub_le _ _) t.isLt)) := by
  rw [stepOf_point]
  unfold accOf
  by_cases h1 : t.val % 11 = 10
  · rw [stateAt_last V c t h0 h1]
    dsimp only
    exact accLast_eq c (grid1.coords t) (ms1_0 t) (hs1_0 t) (ms1_1 t) (hs1_1 t) (ms1_2 t) (hs1_2 t) accM (Memref.isWhole_whole _) (fun h => h0 ((isFirst_iff t).mp h)) ((isLast_iff t).mpr h1) (blk1 V c 0 t) (blk1 V c 1 t) (stateAt V c (t.val - 1) (Nat.lt_of_le_of_lt (Nat.sub_le _ _) t.isLt)).2
  · rw [stateAt_mid V c t h0 h1]
    dsimp only
    exact accMid_eq c (grid1.coords t) (ms1_0 t) (hs1_0 t) (ms1_1 t) (hs1_1 t) (ms1_2 t) (hs1_2 t) accM (Memref.isWhole_whole _) (fun h => h0 ((isFirst_iff t).mp h)) (fun h => h1 ((isLast_iff t).mp h)) (blk1 V c 0 t) (blk1 V c 1 t) (stateAt V c (t.val - 1) (Nat.lt_of_le_of_lt (Nat.sub_le _ _) t.isLt)).2

theorem acc_step (n : ℕ) (hn : n + 1 < cfg1.N) (h0 : ¬(n + 1) % 11 = 0) :
    accOf V c (n + 1) hn = stepOf V c (n + 1) hn (accOf V c n (Nat.lt_of_succ_lt hn)) :=
  acc_step_point V c ⟨n + 1, hn⟩ h0

/-- At a last point the output block's buffer holds what the accumulator holds. -/
theorem out_eq_acc (t : Fin cfg1.N) (h0 : ¬t.val % 11 = 0) (h1 : t.val % 11 = 10) :
    (stateAt (F := Ideal) V c t.val t.isLt).1 = accOf V c t.val t.isLt := by
  unfold accOf
  rw [stateAt_last V c t h0 h1]
  dsimp only
  exact (outLast_eq c (grid1.coords t) (ms1_0 t) (hs1_0 t) (ms1_1 t) (hs1_1 t) (ms1_2 t) (hs1_2 t) accM (Memref.isWhole_whole _) (fun h => h0 ((isFirst_iff t).mp h)) ((isLast_iff t).mpr h1) (blk1 V c 0 t) (blk1 V c 1 t) (stateAt V c (t.val - 1) (Nat.lt_of_le_of_lt (Nat.sub_le _ _) t.isLt)).2).trans
    (accLast_eq c (grid1.coords t) (ms1_0 t) (hs1_0 t) (ms1_1 t) (hs1_1 t) (ms1_2 t) (hs1_2 t) accM (Memref.isWhole_whole _) (fun h => h0 ((isFirst_iff t).mp h)) ((isLast_iff t).mpr h1) (blk1 V c 0 t) (blk1 V c 1 t) (stateAt V c (t.val - 1) (Nat.lt_of_le_of_lt (Nat.sub_le _ _) t.isLt)).2).symm

/-- The accumulator after any point, at an element: zero plus the addends of its row's points so far. -/
theorem acc_at (t : ℕ) (ht : t < cfg1.N) (y : S2048x1024.Idx) :
    accOf V c t ht y = 0 + ∑ s ∈ Finset.range (t % 11 + 1), addend V c (11 * (t / 11) + s) y := by
  have h' : 11 * (t / 11) + t % 11 < cfg1.N := by rw [Nat.div_add_mod]; exact ht
  rw [Pipeline.eq_accAt_of_mod (accOf V c) 11
    (fun n hn => stepOf V c n hn (k1_pay1 (F := Ideal)))
    (fun n hn acc => stepOf V c n hn acc)
    (fun n hn h0 => acc_reset V c n hn h0) (fun n hn h0 => acc_step V c n hn h0) (by decide) t ht h']
  exact Pipeline.accAt_add_apply _ _ (fun _ => (0 : EReal)) (addend V c) (11 * (t / 11)) 10
    (fun h i => by rw [show stepOf V c (11 * (t / 11)) h (k1_pay1 (F := Ideal)) i = (k1_pay1 (F := Ideal)) i + addend V c (11 * (t / 11)) i from step_at V c ⟨_, h⟩ _ i, Pay.pay1_apply])
    (fun n h acc i _ _ => step_at V c ⟨n, h⟩ acc i) (t % 11) (by omega) h' y

/-- The result array: the down projection of the activations as the region finds them. -/
def result : S8192x2048.Idx → EReal :=
  fun i => Cert.Spec.downAt (V c main_call0_v19) (V c main_call0_v17) (i 0) (i 1)

/-- The result at (r, d) over the two arrays as functions of naturals. -/
theorem result_at (r : Fin 8192) (d : Fin 2048) :
    Cert.Spec.downAt (V c main_call0_v19) (V c main_call0_v17) r d = ∑ k : Fin (512 * 11), actN V c r.val k.val * matN V c d.val k.val := by
  unfold Cert.Spec.downAt
  refine Finset.sum_congr rfl fun k _ => ?_
  unfold actN matN
  rw [dif_pos ⟨r.isLt, k.isLt⟩, dif_pos ⟨d.isLt, k.isLt⟩]

/-- The same with the index written by coordinates. -/
theorem result_ix (r : Fin 8192) (d : Fin 2048) :
    result V c (ix2 r d) = ∑ k : Fin (512 * 11), actN V c r.val k.val * matN V c d.val k.val :=
  result_at V c r d

/-- The eleven addends of a row of points, summed, are the whole contraction. -/
theorem row_sum (q : ℕ) (y : S2048x1024.Idx) :
    ∑ s ∈ Finset.range 11, addend V c (11 * q + s) y
      = ∑ k : Fin (512 * 11), actN V c (2048 * (q / 2) + (y 0).val) k.val * matN V c (1024 * (q % 2) + (y 1).val) k.val := by
  rw [← Cert.LibSumBlocks.sum_blocks_fin (fun k => actN V c (2048 * (q / 2) + (y 0).val) k * matN V c (1024 * (q % 2) + (y 1).val) k) 512 11]
  refine Finset.sum_congr rfl fun s hs => ?_
  have hs' : s < 11 := Finset.mem_range.mp hs
  unfold addend
  have e1 : (11 * q + s) / 22 = q / 2 := by omega
  have e2 : (11 * q + s) % 11 = s := by omega
  have e3 : (11 * q + s) / 11 % 2 = q % 2 := by omega
  rw [e1, e2, e3]

/-- What a last point writes back is its block of the result. -/
theorem flushed_eq (t : Fin cfg1.N) (hf : (cfg1.win 2).flush t = true) :
    (dat1 (F := Ideal) V c).flushed 2 t = ((cfg1.win 2).blk t).view.read (Elt Ideal) (result V c) := by
  have h10 : t.val % 11 = 10 := (flush1_2 t).mp hf
  have h0 : ¬t.val % 11 = 0 := by omega
  have hN : t.val < 88 := lt_of_lt_of_eq t.isLt N_1
  show (cfg1.win 2).cut (grid1.coords t) ((dat1 V c).after 2 t) = _
  rw [after1_2, out_eq_acc V c t h0 h10]
  funext y
  rw [View.read_apply]
  show accOf V c t.val t.isLt y = result V c (((cfg1.win 2).blk t).view.emb y)
  obtain ⟨-, -, -, -, e4, e5⟩ := blockIdx t
  have hy0 : (y 0).val < 2048 := (y 0).isLt
  have hy1 : (y 1).val < 1024 := (y 1).isLt
  have hemb : ((cfg1.win 2).blk t).view.emb y = ix2 (⟨2048 * (t.val / 11 / 2) + (y 0).val, by omega⟩ : Fin 8192) (⟨1024 * (t.val / 11 % 2) + (y 1).val, by omega⟩ : Fin 2048) := by
    funext a; apply Fin.ext
    match a with
    | ⟨0, _⟩ => show win1_2.index t (0 : Fin 2) * 2048 + 1 * (y 0).val = 2048 * (t.val / 11 / 2) + (y 0).val; omega
    | ⟨1, _⟩ => show win1_2.index t (1 : Fin 2) * 1024 + 1 * (y 1).val = 1024 * (t.val / 11 % 2) + (y 1).val; omega
  rw [hemb, result_ix, acc_at V c t.val t.isLt y, h10, zero_add, row_sum V c (t.val / 11) y]

/-- An index of the result is in point `t`'s block iff each coordinate is in the block's range on its axis. -/
theorem mem_blk (t : Fin cfg1.N) (i : S8192x2048.Idx) :
    i ∈ ((cfg1.win 2).blk t).view.set ↔ ∀ a : Fin 2, win1_2.index t a * S2048x1024.size a ≤ (i a).val ∧ (i a).val < win1_2.index t a * S2048x1024.size a + S2048x1024.size a := by
  show i ∈ ((View.whole main_v0).slice (win1_2.rect t)).set ↔ _
  rw [View.set_slice_whole, Rect.mem_set_unit]
  exact Iff.rfl

/-- Every index of the result is in the block of the last point of its row of the grid. -/
theorem cover (i : S8192x2048.Idx) :
    ∃ t : Fin cfg1.N, (cfg1.win 2).flush t = true ∧ i ∈ ((cfg1.win 2).blk t).view.set := by
  have hi0 : (i 0).val < 8192 := (i 0).isLt
  have hi1 : (i 1).val < 2048 := (i 1).isLt
  obtain ⟨t, ht⟩ : ∃ t : Fin cfg1.N, t.val = ((i 0).val / 2048 * 2 + (i 1).val / 1024) * 11 + 10 :=
    ⟨⟨((i 0).val / 2048 * 2 + (i 1).val / 1024) * 11 + 10, lt_of_lt_of_eq (by omega : _ < 88) N_1.symm⟩, rfl⟩
  obtain ⟨-, -, -, -, e4, e5⟩ := blockIdx t
  refine ⟨t, (flush1_2 t).mpr (by omega), ?_⟩
  rw [mem_blk]
  intro a
  match a with
  | ⟨0, _⟩ => show win1_2.index t (0 : Fin 2) * 2048 ≤ (i 0).val ∧ (i 0).val < win1_2.index t (0 : Fin 2) * 2048 + 2048; omega
  | ⟨1, _⟩ => show win1_2.index t (1 : Fin 2) * 1024 ≤ (i 1).val ∧ (i 1).val < win1_2.index t (1 : Fin 2) * 1024 + 1024; omega

/-- The result array after the run. -/
theorem result_final : (dat1 (F := Ideal) V c).arrAt 2 cfg1.N = result V c :=
  (dat1 V c).arrAt_eq_of_cover 2 (result V c) (fun t hf => flushed_eq V c t hf) (cover)

end Cert.KernelIdeal.Val1

end
-- ==== Proof.KIHost.lean ====
/-
  What the host operations before the first region leave in the arrays the regions read, on the extended reals: the
  token array is the argument (a change of format is the identity on extended reals), and each weight array is the
  block-wise rescaled weight — reshape to four axes, times the scale broadcast over the blocks, reshape back — exactly
  the reference's rescaled weight, again up to a change of format.
-/
import proofs.«125092_j13889924235944_2_alg».proof.Proof.KI.Run
import proofs.«125092_j13889924235944_2_alg».proof.Proof.Gen.ReferenceIdeal.Read
import Idealize.ShloMosaic.Lib.StableHlo.Run
import Idealize.ShloMosaic.Lib.ValueIdx

noncomputable section

namespace Cert.KernelIdeal.HostVal

open Cert.KernelIdeal Cert.KernelIdeal.Gen Idealize.ShloMosaic Idealize.ShloMosaic.TcCoe Idealize.SL.Sem
open Idealize.ShloMosaic.StableHlo

variable (m : (ℓ : Loc nD τ sig) → Buf (Elt Ideal) ℓ) (c : Dev nD)

/-- The token array the first region reads is the token argument. -/
theorem tok : Hand.V1 (F := Ideal) m c main_call0_v18 = m ((c : Thread nD τ).loc main_arg0) := by
  dsimp only [Hand.V1, Hand.W1, Hand.W0, Gen.hostOps0]
  after_results
  rfl

/-- The first projection array the first region reads is the reference's rescaled first weight. -/
theorem wt0 : Hand.V1 (F := Ideal) m c main_call0_v5
    = Cert.ReferenceIdeal.Read.val_main_v4 (F := Ideal) (m ((c : Thread nD τ).loc main_arg1)) (m ((c : Thread nD τ).loc main_arg2)) := by
  dsimp only [Hand.V1, Hand.W1, Hand.W0, Gen.hostOps0]
  after_results
  unfold Cert.ReferenceIdeal.Read.val_main_v4 Cert.ReferenceIdeal.Read.val_main_v3 Cert.ReferenceIdeal.Read.val_main_v2
    Cert.ReferenceIdeal.Read.val_main_v1 Cert.ReferenceIdeal.Read.val_main_v0
  rfl

/-- The second projection array the first region reads is the reference's rescaled second weight. -/
theorem wt1 : Hand.V1 (F := Ideal) m c main_call0_v11
    = Cert.ReferenceIdeal.Read.val_main_v12 (F := Ideal) (m ((c : Thread nD τ).loc main_arg3)) (m ((c : Thread nD τ).loc main_arg4)) := by
  dsimp only [Hand.V1, Hand.W1, Hand.W0, Gen.hostOps0]
  after_results
  unfold Cert.ReferenceIdeal.Read.val_main_v12 Cert.ReferenceIdeal.Read.val_main_v11 Cert.ReferenceIdeal.Read.val_main_v10
    Cert.ReferenceIdeal.Read.val_main_v9 Cert.ReferenceIdeal.Read.val_main_v8
  rfl

/-- The output-projection array the second region reads is the reference's rescaled third weight. -/
theorem wt2 : Hand.V1 (F := Ideal) m c main_call0_v17
    = Cert.ReferenceIdeal.Read.val_main_v19 (F := Ideal) (m ((c : Thread nD τ).loc main_arg5)) (m ((c : Thread nD τ).loc main_arg6)) := by
  dsimp only [Hand.V1, Hand.W1, Hand.W0, Gen.hostOps0]
  after_results
  unfold Cert.ReferenceIdeal.Read.val_main_v19 Cert.ReferenceIdeal.Read.val_main_v18 Cert.ReferenceIdeal.Read.val_main_v17
    Cert.ReferenceIdeal.Read.val_main_v16 Cert.ReferenceIdeal.Read.val_main_v15
  rfl

end Cert.KernelIdeal.HostVal

end
-- ==== Proof.KIFinal.lean ====
/-
  The kernel program's result array as the specification's function of its seven arguments.
  The second region's result is the down projection of the activations array and the rescaled output matrix as that
  region finds them; the activations array is what the first region's write-backs leave, the gated activation of the
  tokens and the two rescaled projection matrices as the first region finds them; and those four arrays are what the
  host operations compute from the arguments: the tokens themselves and the three block-wise rescaled weights.
-/
import proofs.«125092_j13889924235944_2_alg».proof.Proof.KI.Run
import proofs.«125092_j13889924235944_2_alg».proof.Proof.KIVal0
import proofs.«125092_j13889924235944_2_alg».proof.Proof.KIVal1
import proofs.«125092_j13889924235944_2_alg».proof.Proof.KIHost
import proofs.«125092_j13889924235944_2_alg».proof.Proof.Spec

noncomputable section

namespace Cert.KernelIdeal.Final

open Cert.KernelIdeal Cert.KernelIdeal.Gen Cert.KernelIdeal.Hand
open Idealize.ShloMosaic Idealize.ShloMosaic.TcCoe Idealize.SL Idealize.SL.Sem

variable (m : (ℓ : Loc nD τ sig) → Buf (Elt Ideal) ℓ) (c : Dev nD)

/-- The activations array when the second region is entered. -/
theorem act_entry :
    Hand.V2 (F := Ideal) m c main_call0_v19 = Cert.Spec.hiddenArr (m ((c.tc : Thread Cert.KernelIdeal.nD Cert.KernelIdeal.τ).loc Cert.KernelIdeal.main_arg0))
      (Cert.ReferenceIdeal.Read.val_main_v4 (F := Ideal) (m ((c.tc : Thread Cert.KernelIdeal.nD Cert.KernelIdeal.τ).loc Cert.KernelIdeal.main_arg1)) (m ((c.tc : Thread Cert.KernelIdeal.nD Cert.KernelIdeal.τ).loc Cert.KernelIdeal.main_arg2)))
      (Cert.ReferenceIdeal.Read.val_main_v12 (F := Ideal) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) := by
  rw [show Hand.V2 (F := Ideal) m c main_call0_v19 = (dat0 (F := Ideal) (Hand.V1 m) c).arrAt 3 cfg0.N from W2_arr m c 3,
    Val0.hidden_final, HostVal.tok, HostVal.wt0, HostVal.wt1]

/-- The rescaled output matrix when the second region is entered: the first region does not touch it. -/
theorem mat_entry :
    Hand.V2 (F := Ideal) m c main_call0_v17
      = Cert.ReferenceIdeal.Read.val_main_v19 (F := Ideal) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) := by
  rw [show Hand.V2 (F := Ideal) m c main_call0_v17 = Hand.V1 (F := Ideal) m c main_call0_v17 from W2_of_ne m c main_call0_v17 (by decide),
    HostVal.wt2]

/-- The result array after the run. -/
theorem kernel_value :
    (dat1 (F := Ideal) (Hand.V2 m) c).arrAt 2 cfg1.N = Cert.Spec.out (m ((c.tc : Thread Cert.KernelIdeal.nD Cert.KernelIdeal.τ).loc Cert.KernelIdeal.main_arg0))
      (Cert.ReferenceIdeal.Read.val_main_v4 (F := Ideal) (m ((c.tc : Thread Cert.KernelIdeal.nD Cert.KernelIdeal.τ).loc Cert.KernelIdeal.main_arg1)) (m ((c.tc : Thread Cert.KernelIdeal.nD Cert.KernelIdeal.τ).loc Cert.KernelIdeal.main_arg2)))
      (Cert.ReferenceIdeal.Read.val_main_v12 (F := Ideal) (m ((c.tc : Thread Cert.KernelIdeal.nD Cert.KernelIdeal.τ).loc Cert.KernelIdeal.main_arg3)) (m ((c.tc : Thread Cert.KernelIdeal.nD Cert.KernelIdeal.τ).loc Cert.KernelIdeal.main_arg4)))
      (Cert.ReferenceIdeal.Read.val_main_v19 (F := Ideal) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) := by
  rw [Val1.result_final]
  unfold Val1.result
  rw [act_entry, mat_entry]
  rfl

end Cert.KernelIdeal.Final

end
-- ==== Proof.RefValue.lean ====
/-
  The reference program's result, read at one element, is the specification's value: with a, b, w the three rescaled
  weight arrays kept as opaque arrays, the last contraction is Σ_i hidden(t,i) · w(d,i), where hidden(t,i) is
  (gate · σ(gate)) · up, gate = Σ_k x(t,k)·a(i,k), up = Σ_k x(t,k)·b(i,k), and σ(g) = 1 / (1 + e^(-g)) is the
  logistic function spelt as negate, exponential, add one, divide one by.
-/
import proofs.«125092_j13889924235944_2_alg».proof.Proof.Gen.ReferenceIdeal.Read
import proofs.«125092_j13889924235944_2_alg».proof.Proof.Spec
import Idealize.ShloMosaic.Lib.ValueIdx
import Idealize.ShloMosaic.Lib.Pipeline.Value
import Idealize.ShloMosaic.PureOps.Ideal.Laws

noncomputable section

open scoped BigOperators

namespace Cert.ReferenceIdeal.RefValue

open Cert.ReferenceIdeal Cert.ReferenceIdeal.Gen Idealize.ShloMosaic Idealize.ShloMosaic.ValueIdx

/-- The f32 pattern 0x3F800000 denotes the extended real 1. -/
theorem ofBits_one_f32 : Ideal.ofBits .f32 0x3F800000#32 = 1 := by
  simp [Ideal.ofBits, Ideal.ieee, -EReal.coe_mul]; norm_num

/-- The logistic function as the reference spells it: one over (one plus the exponential of the negation). -/
theorem silu_chain (g : EReal) :
    Ideal.div (Ideal.ofBits .f32 0x3F800000#32) (Ideal.ofBits .f32 0x3F800000#32 + Ideal.exp (-g)) = Ideal.logistic g := by
  rw [ofBits_one_f32]; rfl

theorem result_eq (x0 : (⟨S8192x2048, .f32⟩ : BufTy).Contents (Elt Ideal)) (x1 : (⟨S5632x2048, .f32⟩ : BufTy).Contents (Elt Ideal)) (x2 : (⟨S44x16, .f32⟩ : BufTy).Contents (Elt Ideal)) (x3 : (⟨S5632x2048, .f32⟩ : BufTy).Contents (Elt Ideal)) (x4 : (⟨S44x16, .f32⟩ : BufTy).Contents (Elt Ideal)) (x5 : (⟨S2048x5632, .f32⟩ : BufTy).Contents (Elt Ideal)) (x6 : (⟨S16x44, .f32⟩ : BufTy).Contents (Elt Ideal)) :
    Read.val_main_v22 (F := Ideal) x0 x1 x2 x3 x4 x5 x6
      = Cert.Spec.out x0 (Read.val_main_v4 (F := Ideal) x1 x2) (Read.val_main_v12 (F := Ideal) x3 x4) (Read.val_main_v19 (F := Ideal) x5 x6) := by
  funext j
  obtain ⟨t, d, rfl⟩ : ∃ (t : Fin 8192) (d : Fin 2048), j = ix2 t d := ⟨j 0, j 1, eq_ix2 j⟩
  rw [Read.val_main_v22_apply]
  show _ = ∑ i : Fin 5632, Cert.Spec.hidden x0 (Read.val_main_v4 (F := Ideal) x1 x2) (Read.val_main_v12 (F := Ideal) x3 x4) t i
      * Read.val_main_v19 (F := Ideal) x5 x6 (ix2 d i)
  refine Finset.sum_congr rfl fun i _ => ?_
  have e1 : Read.lidx_main_v22 (ix2 t d) i = ix2 t i :=
    funext fun a => Fin.ext (by match a with | ⟨0, _⟩ => rfl | ⟨1, _⟩ => rfl)
  have e2 : Read.ridx_main_v22 (ix2 t d) i = ix2 i d :=
    funext fun a => Fin.ext (by match a with | ⟨0, _⟩ => rfl | ⟨1, _⟩ => rfl)
  have e3 : Read.idx_main_v21 (ix2 i d) = ix2 d i :=
    funext fun a => Fin.ext (by match a with | ⟨0, _⟩ => rfl | ⟨1, _⟩ => rfl)
  rw [e1, e2, Read.val_main_v21_apply, e3]
  congr 1
  -- the gate and the up projections at (t, i)
  have hg : Read.val_main_v6 (F := Ideal) x0 x1 x2 (ix2 t i)
      = ∑ k : Fin 2048, x0 (ix2 t k) * Read.val_main_v4 (F := Ideal) x1 x2 (ix2 i k) := by
    rw [Read.val_main_v6_apply]
    refine Finset.sum_congr rfl fun k _ => ?_
    have f1 : Read.lidx_main_v6 (ix2 t i) k = ix2 t k :=
      funext fun a => Fin.ext (by match a with | ⟨0, _⟩ => rfl | ⟨1, _⟩ => rfl)
    have f2 : Read.ridx_main_v6 (ix2 t i) k = ix2 k i :=
      funext fun a => Fin.ext (by match a with | ⟨0, _⟩ => rfl | ⟨1, _⟩ => rfl)
    have f3 : Read.idx_main_v5 (ix2 k i) = ix2 i k :=
      funext fun a => Fin.ext (by match a with | ⟨0, _⟩ => rfl | ⟨1, _⟩ => rfl)
    rw [f1, f2, Read.val_main_v5_apply, f3]
  have hu : Read.val_main_v14 (F := Ideal) x0 x3 x4 (ix2 t i)
      = ∑ k : Fin 2048, x0 (ix2 t k) * Read.val_main_v12 (F := Ideal) x3 x4 (ix2 i k) := by
    rw [Read.val_main_v14_apply]
    refine Finset.sum_congr rfl fun k _ => ?_
    have f1 : Read.lidx_main_v14 (ix2 t i) k = ix2 t k :=
      funext fun a => Fin.ext (by match a with | ⟨0, _⟩ => rfl | ⟨1, _⟩ => rfl)
    have f2 : Read.ridx_main_v14 (ix2 t i) k = ix2 k i :=
      funext fun a => Fin.ext (by match a with | ⟨0, _⟩ => rfl | ⟨1, _⟩ => rfl)
    have f3 : Read.idx_main_v13 (ix2 k i) = ix2 i k :=
      funext fun a => Fin.ext (by match a with | ⟨0, _⟩ => rfl | ⟨1, _⟩ => rfl)
    rw [f1, f2, Read.val_main_v13_apply, f3]
  rw [Read.val_main_v20_apply, Read.val_main_v7_apply, Read.val_main_call0_v5_apply, Read.val_main_call0_v4_apply,
    Read.val_main_call0_cst_0_apply, Read.val_main_call0_v3_apply, Read.val_main_call0_v2_apply,
    Read.val_main_call0_cst_apply, Read.val_main_call0_v1_apply, Read.val_main_call0_v0_apply, hg, hu]
  simp only [Ideal.mulf_def, Ideal.addf_def, Ideal.hostDivf_def, Ideal.hostUnary_exp_def, Ideal.hostNegf_def,
    Ideal.negf_def, Ideal.ofBits_def, silu_chain]
  rfl

end Cert.ReferenceIdeal.RefValue

end
-- ==== Proof.lean ====
/-
  The certificate of a gated feed-forward layer: a kernel program of two matrix-unit regions against its reference.

  Both programs rescale three weight matrices block by block (each 128 × 128 block times its own scale), form
  gate = x · w0ᵀ and up = x · w1ᵀ, the gated activation (gate · σ(gate)) · up with σ the logistic function, and
  project it down with w2ᵀ. The kernel program does the two up projections and the activation in one region, block by
  block, and the down projection in a second region that accumulates over eleven blocks of 512 hidden units in a
  buffer of its own; the reference does three whole matrix products. On the extended reals the two agree element by
  element: every product and the logistic function are the same expression in the same order, a change of float
  format is the identity, and the only difference — the down projection's sum taken as one sum or as eleven
  consecutive partial sums added up from zero — is a regrouping of a finite sum, which needs only commutativity and
  associativity of addition. So the inputs' finiteness is never used.

  The frames: each region of the kernel program is run point by point (the first region's body is one load-compute-
  store; the second's is one of three cases according to the position in its row of eleven points, the accumulator's
  contents carried from point to point by the region's invariant), at the word-level instance and at the ideal one by
  the same text; the reference's frame is its run with the result dropped.
-/
import proofs.«125092_j13889924235944_2_alg».proof.Defs
import proofs.«125092_j13889924235944_2_alg».proof.Proof.Gen.Kernel
import proofs.«125092_j13889924235944_2_alg».proof.Proof.Gen.KernelIdeal
import proofs.«125092_j13889924235944_2_alg».proof.Proof.Gen.ReferenceIdeal
import proofs.«125092_j13889924235944_2_alg».proof.Proof.Gen.Pre_finite_inputs
import proofs.«125092_j13889924235944_2_alg».proof.Proof.Gen.ReferenceIdeal.Run
import proofs.«125092_j13889924235944_2_alg».proof.Proof.KB.Run
import proofs.«125092_j13889924235944_2_alg».proof.Proof.KI.Run
import proofs.«125092_j13889924235944_2_alg».proof.Proof.KIFinal
import proofs.«125092_j13889924235944_2_alg».proof.Proof.RefValue
import Idealize.ShloMosaic.Adequacy
import Idealize.ShloMosaic.Init

noncomputable section

namespace Cert.Proof

open Idealize.ShloMosaic Idealize.ShloMosaic.TcCoe Idealize.SL.Sem

theorem frame_k : Cert.frame_Kernel (hKernel := Cert.Kernel.Gen.facts) (hPre_finite_inputs := Cert.Pre_finite_inputs.Gen.facts) :=
  fun m ρ _ => Cert.Kernel.Hand.frame (F := Bits) m ρ

theorem frame_ki : Cert.frame_KernelIdeal (hKernelIdeal := Cert.KernelIdeal.Gen.facts) (hPre_finite_inputs := Cert.Pre_finite_inputs.Gen.facts) :=
  fun m ρ _ => Cert.KernelIdeal.Hand.frame (F := Ideal) m ρ

theorem frame_ri : Cert.frame_ReferenceIdeal (hReferenceIdeal := Cert.ReferenceIdeal.Gen.facts) (hPre_finite_inputs := Cert.Pre_finite_inputs.Gen.facts) :=
  fun m ρ _ => (θ_run Cert.ReferenceIdeal.defs _ _).mono (fun _ h c => (h c).2) (Cert.ReferenceIdeal.Value.run (F := Ideal) m ρ)

/-- From memories agreeing on the arguments both programs end with the specification's array of those arguments. -/
theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) := by
  intro m ρ m' ρ' _ hagree
  refine ⟨fun c => Cert.Spec.out (m ((c.tc : Thread Cert.KernelIdeal.nD Cert.KernelIdeal.τ).loc Cert.KernelIdeal.main_arg0))
      (Cert.ReferenceIdeal.Read.val_main_v4 (F := Ideal) (m ((c.tc : Thread Cert.KernelIdeal.nD Cert.KernelIdeal.τ).loc Cert.KernelIdeal.main_arg1)) (m ((c.tc : Thread Cert.KernelIdeal.nD Cert.KernelIdeal.τ).loc Cert.KernelIdeal.main_arg2)))
      (Cert.ReferenceIdeal.Read.val_main_v12 (F := Ideal) (m ((c.tc : Thread Cert.KernelIdeal.nD Cert.KernelIdeal.τ).loc Cert.KernelIdeal.main_arg3)) (m ((c.tc : Thread Cert.KernelIdeal.nD Cert.KernelIdeal.τ).loc Cert.KernelIdeal.main_arg4)))
      (Cert.ReferenceIdeal.Read.val_main_v19 (F := Ideal) (m ((c.tc : Thread Cert.KernelIdeal.nD Cert.KernelIdeal.τ).loc Cert.KernelIdeal.main_arg5)) (m ((c.tc : Thread Cert.KernelIdeal.nD Cert.KernelIdeal.τ).loc Cert.KernelIdeal.main_arg6))), ?_, ?_⟩
  · exact (θ_run Cert.KernelIdeal.defs _ _).mono
      (fun _ h c => ⟨(h c).1.trans (Cert.KernelIdeal.Final.kernel_value m c), (h c).2⟩)
      (Cert.KernelIdeal.Hand.run_result (F := Ideal) m ρ)
  · refine (θ_run Cert.ReferenceIdeal.defs _ _).mono (fun _ h c => ⟨?_, (h c).2⟩)
      (Cert.ReferenceIdeal.Value.run (F := Ideal) m' ρ')
    refine (h c).1.trans ((Cert.ReferenceIdeal.Read.val_main_v22_eq (F := Ideal) _ _ _ _ _ _ _).trans
      ((Cert.ReferenceIdeal.RefValue.result_eq _ _ _ _ _ _ _).trans ?_))
    obtain ⟨a0, a1, a2, a3, a4, a5, a6⟩ := hagree c
    rw [a0, a1, a2, a3, a4, a5, a6]

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
